-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2049x4096 : Shape := ⟨2, ![2049, 4096]⟩
abbrev S2049 : Shape := ⟨1, ![2049]⟩
abbrev S4096 : Shape := ⟨1, ![4096]⟩
abbrev S4097x4096 : Shape := ⟨2, ![4097, 4096]⟩
abbrev S4097 : Shape := ⟨1, ![4097]⟩
abbrev S4097x2048 : Shape := ⟨2, ![4097, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2049x4096 : S_.BroadcastsInDim S2049x4096 (![] : Fin 0 → Fin S2049x4096.rank)
  reducesTo_S2049x4096_S_d0_1 : S2049x4096.ReducesTo [0, 1] S_
  bcast_S_S2049 : S_.BroadcastsInDim S2049 (![] : Fin 0 → Fin S2049.rank)
  reducesTo_S2049_S_d0 : S2049.ReducesTo [0] S_
  bcast_S_S4096 : S_.BroadcastsInDim S4096 (![] : Fin 0 → Fin S4096.rank)
  reducesTo_S4096_S_d0 : S4096.ReducesTo [0] S_
  bcast_S_S4097x4096 : S_.BroadcastsInDim S4097x4096 (![] : Fin 0 → Fin S4097x4096.rank)
  reducesTo_S4097x4096_S_d0_1 : S4097x4096.ReducesTo [0, 1] S_
  bcast_S_S4097 : S_.BroadcastsInDim S4097 (![] : Fin 0 → Fin S4097.rank)
  reducesTo_S4097_S_d0 : S4097.ReducesTo [0] S_
  bcast_S_S4097x2048 : S_.BroadcastsInDim S4097x2048 (![] : Fin 0 → Fin S4097x2048.rank)
  reducesTo_S4097x2048_S_d0_1 : S4097x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S4097 .f32) (main_arg15 : FVec F S2048 .f32) (main_arg16 : FVec F S4097x2048 .f32) (main_v63 : IVec S_ 1) (main_v67 : IVec S_ 1) : IVec S_ 1 :=
  let main_v68 : IVec S_ 1 := andi main_v63 main_v67
  let main_v69 : FVec F S4097 .f32 := Host.absf main_arg14
  let main_cst_26 : FVec F S_ .f32 := constant S_ .f32 0x7F800000#32
  let main_v70 : FVec F S4097 .f32 := broadcastInDim S4097 ![] bcast_S_S4097 main_cst_26
  let main_v71 : IVec S4097 1 := cmpf .olt main_v69 main_v70
  let main_c_27 : IVec S_ 1 := constantI S_ 1 1#1
  let main_v72 : IVec S_ 1 := (fun x v => Host.reduce IntOp.andi x v reducesTo_S4097_S_d0 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S4097x2048 .f32 := Host.absf main_arg16
  let main_cst_30 : FVec F S_ .f32 := constant S_ .f32 0x7F800000#32
  let main_v80 : FVec F S4097x2048 .f32 := broadcastInDim S4097x2048 ![] bcast_S_S4097x2048 main_cst_30
  let main_v81 : IVec S4097x2048 1 := cmpf .olt main_v79 main_v80
  let main_c_31 : IVec S_ 1 := constantI S_ 1 1#1
  let main_v82 : IVec S_ 1 := (fun x v => Host.reduce IntOp.andi x v reducesTo_S4097x2048_S_d0_1 h_S_) main_v81 main_c_31
  let main_v83 : IVec S_ 1 := andi main_v78 main_v82
  main_v83

def fn_part3 {F : FTy → Type} [FloatOps F] (main_arg11 : FVec F S4096 .f32) (main_arg12 : FVec F S4097x4096 .f32) (main_arg13 : FVec F S4097x2048 .f32) (main_arg14 : FVec F S4097 .f32) (main_arg15 : FVec F S2048 .f32) (main_arg16 : FVec F S4097x2048 .f32) (main_v48 : IVec S_ 1) (main_v49 : FVec F S4097 .f32) (main_v50 : FVec F S4097 .f32) : IVec S_ 1 :=
  let main_v51 : IVec S4097 1 := cmpf .olt main_v49 main_v50
  let main_c_19 : IVec S_ 1 := constantI S_ 1 1#1
  let main_v52 : IVec S_ 1 := (fun x v => Host.reduce IntOp.andi x v reducesTo_S4097_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4097x4096 .f32 := Host.absf main_arg12
  let main_cst_22 : FVec F S_ .f32 := constant S_ .f32 0x7F800000#32
  let main_v60 : FVec F S4097x4096 .f32 := broadcastInDim S4097x4096 ![] bcast_S_S4097x4096 main_cst_22
  let main_v61 : IVec S4097x4096 1 := cmpf .olt main_v59 main_v60
  let main_c_23 : IVec S_ 1 := constantI S_ 1 1#1
  let main_v62 : IVec S_ 1 := (fun x v => Host.reduce IntOp.andi x v reducesTo_S4097x4096_S_d0_1 h_S_) main_v61 main_c_23
  let main_v63 : IVec S_ 1 := andi main_v58 main_v62
  let main_v64 : FVec F S4097x2048 .f32 := Host.absf main_arg13
  let main_cst_24 : FVec F S_ .f32 := constant S_ .f32 0x7F800000#32
  let main_v65 : FVec F S4097x2048 .f32 := broadcastInDim S4097x2048 ![] bcast_S_S4097x2048 main_cst_24
  let main_v66 : IVec S4097x2048 1 := cmpf .olt main_v64 main_v65
  let main_c_25 : IVec S_ 1 := constantI S_ 1 1#1
  let main_v67 : IVec S_ 1 := (fun x v => Host.reduce IntOp.andi x v reducesTo_S4097x2048_S_d0_1 h_S_) main_v66 main_c_25
  fn_part4 (F := F) main_arg14 main_arg15 main_arg16 main_v63 main_v67

def fn_part2 {F : FTy → Type} [FloatOps F] (main_arg7 : FVec F S4096 .f32) (main_arg8 : FVec F S4097x4096 .f32) (main_arg9 : FVec F S4097x4096 .f32) (main_arg10 : FVec F S4097 .f32) (main_arg11 : FVec F S4096 .f32) (main_arg12 : FVec F S4097x4096 .f32) (main_arg13 : FVec F S4097x2048 .f32) (main_arg14 : FVec F S4097 .f32) (main_arg15 : FVec F S2048 .f32) (main_arg16 : FVec F S4097x2048 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4097x4096 .f32 := Host.absf main_arg8
  let main_cst_14 : FVec F S_ .f32 := constant S_ .f32 0x7F800000#32
  let main_v40 : FVec F S4097x4096 .f32 := broadcastInDim S4097x4096 ![] bcast_S_S4097x4096 main_cst_14
  let main_v41 : IVec S4097x4096 1 := cmpf .olt main_v39 main_v40
  let main_c_15 : IVec S_ 1 := constantI S_ 1 1#1
  let main_v42 : IVec S_ 1 := (fun x v => Host.reduce IntOp.andi x v reducesTo_S4097x4096_S_d0_1 h_S_) main_v41 main_c_15
  let main_v43 : IVec S_ 1 := andi main_v38 main_v42
  let main_v44 : FVec F S4097x4096 .f32 := Host.absf main_arg9
  let main_cst_16 : FVec F S_ .f32 := constant S_ .f32 0x7F800000#32
  let main_v45 : FVec F S4097x4096 .f32 := broadcastInDim S4097x4096 ![] bcast_S_S4097x4096 main_cst_16
  let main_v46 : IVec S4097x4096 1 := cmpf .olt main_v44 main_v45
  let main_c_17 : IVec S_ 1 := constantI S_ 1 1#1
  let main_v47 : IVec S_ 1 := (fun x v => Host.reduce IntOp.andi x v reducesTo_S4097x4096_S_d0_1 h_S_) main_v46 main_c_17
  let main_v48 : IVec S_ 1 := andi main_v43 main_v47
  let main_v49 : FVec F S4097 .f32 := Host.absf main_arg10
  let main_cst_18 : FVec F S_ .f32 := constant S_ .f32 0x7F800000#32
  let main_v50 : FVec F S4097 .f32 := broadcastInDim S4097 ![] bcast_S_S4097 main_cst_18
  fn_part3 (F := F) main_arg11 main_arg12 main_arg13 main_arg14 main_arg15 main_arg16 main_v48 main_v49 main_v50

def fn_part1 {F : FTy → Type} [FloatOps F] (main_arg4 : FVec F S2049x4096 .f32) (main_arg5 : FVec F S4097x4096 .f32) (main_arg6 : FVec F S4097 .f32) (main_arg7 : FVec F S4096 .f32) (main_arg8 : FVec F S4097x4096 .f32) (main_arg9 : FVec F S4097x4096 .f32) (main_arg10 : FVec F S4097 .f32) (main_arg11 : FVec F S4096 .f32) (main_arg12 : FVec F S4097x4096 .f32) (main_arg13 : FVec F S4097x2048 .f32) (main_arg14 : FVec F S4097 .f32) (main_arg15 : FVec F S2048 .f32) (main_arg16 : FVec F S4097x2048 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S2049x4096 .f32 := Host.absf main_arg4
  let main_cst_6 : FVec F S_ .f32 := constant S_ .f32 0x7F800000#32
  let main_v20 : FVec F S2049x4096 .f32 := broadcastInDim S2049x4096 ![] bcast_S_S2049x4096 main_cst_6
  let main_v21 : IVec S2049x4096 1 := cmpf .olt main_v19 main_v20
  let main_c_7 : IVec S_ 1 := constantI S_ 1 1#1
  let main_v22 : IVec S_ 1 := (fun x v => Host.reduce IntOp.andi x v reducesTo_S2049x4096_S_d0_1 h_S_) main_v21 main_c_7
  let main_v23 : IVec S_ 1 := andi main_v18 main_v22
  let main_v24 : FVec F S4097x4096 .f32 := Host.absf main_arg5
  let main_cst_8 : FVec F S_ .f32 := constant S_ .f32 0x7F800000#32
  let main_v25 : FVec F S4097x4096 .f32 := broadcastInDim S4097x4096 ![] bcast_S_S4097x4096 main_cst_8
  let main_v26 : IVec S4097x4096 1 := cmpf .olt main_v24 main_v25
  let main_c_9 : IVec S_ 1 := constantI S_ 1 1#1
  let main_v27 : IVec S_ 1 := (fun x v => Host.reduce IntOp.andi x v reducesTo_S4097x4096_S_d0_1 h_S_) main_v26 main_c_9
  let main_v28 : IVec S_ 1 := andi main_v23 main_v27
  let main_v29 : FVec F S4097 .f32 := Host.absf main_arg6
  let main_cst_10 : FVec F S_ .f32 := constant S_ .f32 0x7F800000#32
  let main_v30 : FVec F S4097 .f32 := broadcastInDim S4097 ![] bcast_S_S4097 main_cst_10
  let main_v31 : IVec S4097 1 := cmpf .olt main_v29 main_v30
  let main_c_11 : IVec S_ 1 := constantI S_ 1 1#1
  let main_v32 : IVec S_ 1 := (fun x v => Host.reduce IntOp.andi x v reducesTo_S4097_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8192x2048 .f32) (main_arg1 : FVec F S2049x4096 .f32) (main_arg2 : FVec F S2049 .f32) (main_arg3 : FVec F S4096 .f32) (main_arg4 : FVec F S2049x4096 .f32) (main_arg5 : FVec F S4097x4096 .f32) (main_arg6 : FVec F S4097 .f32) (main_arg7 : FVec F S4096 .f32) (main_arg8 : FVec F S4097x4096 .f32) (main_arg9 : FVec F S4097x4096 .f32) (main_arg10 : FVec F S4097 .f32) (main_arg11 : FVec F S4096 .f32) (main_arg12 : FVec F S4097x4096 .f32) (main_arg13 : FVec F S4097x2048 .f32) (main_arg14 : FVec F S4097 .f32) (main_arg15 : FVec F S2048 .f32) (main_arg16 : FVec F S4097x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2049x4096 .f32 := Host.absf main_arg1
  let main_cst_0 : FVec F S_ .f32 := constant S_ .f32 0x7F800000#32
  let main_v5 : FVec F S2049x4096 .f32 := broadcastInDim S2049x4096 ![] bcast_S_S2049x4096 main_cst_0
  let main_v6 : IVec S2049x4096 1 := cmpf .olt main_v4 main_v5
  let main_c_1 : IVec S_ 1 := constantI S_ 1 1#1
  let main_v7 : IVec S_ 1 := (fun x v => Host.reduce IntOp.andi x v reducesTo_S2049x4096_S_d0_1 h_S_) main_v6 main_c_1
  let main_v8 : IVec S_ 1 := andi main_v3 main_v7
  let main_v9 : FVec F S2049 .f32 := Host.absf main_arg2
  let main_cst_2 : FVec F S_ .f32 := constant S_ .f32 0x7F800000#32
  let main_v10 : FVec F S2049 .f32 := broadcastInDim S2049 ![] bcast_S_S2049 main_cst_2
  let main_v11 : IVec S2049 1 := cmpf .olt main_v9 main_v10
  let main_c_3 : IVec S_ 1 := constantI S_ 1 1#1
  let main_v12 : IVec S_ 1 := (fun x v => Host.reduce IntOp.andi x v reducesTo_S2049_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8192x2048 : Shape := ⟨2, ![8192, 2048]⟩
abbrev S2049x4096 : Shape := ⟨2, ![2049, 4096]⟩
abbrev S2049 : Shape := ⟨1, ![2049]⟩
abbrev S4096 : Shape := ⟨1, ![4096]⟩
abbrev S4097x4096 : Shape := ⟨2, ![4097, 4096]⟩
abbrev S4097 : Shape := ⟨1, ![4097]⟩
abbrev S4097x2048 : Shape := ⟨2, ![4097, 2048]⟩
abbrev S2048 : Shape := ⟨1, ![2048]⟩
abbrev S2049x1 : Shape := ⟨2, ![2049, 1]⟩
abbrev S1x4096 : Shape := ⟨2, ![1, 4096]⟩
abbrev S2049x256 : Shape := ⟨2, ![2049, 256]⟩
abbrev S1x256 : Shape := ⟨2, ![1, 256]⟩
abbrev S8192x4096 : Shape := ⟨2, ![8192, 4096]⟩
abbrev S256x2048 : Shape := ⟨2, ![256, 2048]⟩
abbrev S2049x1024 : Shape := ⟨2, ![2049, 1024]⟩
abbrev S256x1024 : Shape := ⟨2, ![256, 1024]⟩
abbrev S2048x1024 : Shape := ⟨2, ![2048, 1024]⟩
abbrev S1x1024 : Shape := ⟨2, ![1, 1024]⟩
abbrev S4097x1 : Shape := ⟨2, ![4097, 1]⟩
abbrev S4097x256 : Shape := ⟨2, ![4097, 256]⟩
abbrev S256x4096 : Shape := ⟨2, ![256, 4096]⟩
abbrev S4097x1024 : Shape := ⟨2, ![4097, 1024]⟩
abbrev S4096x1024 : Shape := ⟨2, ![4096, 1024]⟩
abbrev S1x2048 : Shape := ⟨2, ![1, 2048]⟩

abbrev nBuf : Space → Nat
  | .hbm => 33
  | .vmem => 60
  | .smem => 0
  | _ => 0

abbrev bufTy : (tb : Table) → Fin (tcTables nBuf tb) → BufTy
  | .hbm, ⟨0, _⟩ => ⟨S8192x2048, .f32⟩
  | .hbm, ⟨1, _⟩ => ⟨S2049x4096, .f32⟩
  | .hbm, ⟨2, _⟩ => ⟨S2049, .f32⟩
  | .hbm, ⟨3, _⟩ => ⟨S4096, .f32⟩
  | .hbm, ⟨4, _⟩ => ⟨S2049x4096, .f32⟩
  | .hbm, ⟨5, _⟩ => ⟨S4097x4096, .f32⟩
  | .hbm, ⟨6, _⟩ => ⟨S4097, .f32⟩
  | .hbm, ⟨7, _⟩ => ⟨S4096, .f32⟩
  | .hbm, ⟨8, _⟩ => ⟨S4097x4096, .f32⟩
  | .hbm, ⟨9, _⟩ => ⟨S4097x4096, .f32⟩
  | .hbm, ⟨10, _⟩ => ⟨S4097, .f32⟩
  | .hbm, ⟨11, _⟩ => ⟨S4096, .f32⟩
  | .hbm, ⟨12, _⟩ => ⟨S4097x4096, .f32⟩
  | .hbm, ⟨13, _⟩ => ⟨S4097x2048, .f32⟩
  | .hbm, ⟨14, _⟩ => ⟨S4097, .f32⟩
  | .hbm, ⟨15, _⟩ => ⟨S2048, .f32⟩
  | .hbm, ⟨16, _⟩ => ⟨S4097x2048, .f32⟩
  | .hbm, ⟨17, _⟩ => ⟨S2049x1, .f32⟩
  | .hbm, ⟨18, _⟩ => ⟨S1x4096, .f32⟩
  | .hbm, ⟨19, _⟩ => ⟨S2049x4096, .bf16⟩
  | .hbm, ⟨20, _⟩ => ⟨S8192x4096, .bf16⟩
  | .hbm, ⟨21, _⟩ => ⟨S4097x1, .f32⟩
  | .hbm, ⟨22, _⟩ => ⟨S1x4096, .f32⟩
  | .hbm, ⟨23, _⟩ => ⟨S4097x4096, .bf16⟩
  | .hbm, ⟨24, _⟩ => ⟨S8192x4096, .bf16⟩
  | .hbm, ⟨25, _⟩ => ⟨S4097x1, .f32⟩
  | .hbm, ⟨26, _⟩ => ⟨S1x4096, .f32⟩
  | .hbm, ⟨27, _⟩ => ⟨S4097x4096, .bf16⟩
  | .hbm, ⟨28, _⟩ => ⟨S8192x4096, .bf16⟩
  | .hbm, ⟨29, _⟩ => ⟨S4097x1, .f32⟩
  | .hbm, ⟨30, _⟩ => ⟨S1x2048, .f32⟩
  | .hbm, ⟨31, _⟩ => ⟨S4097x2048, .bf16⟩
  | .hbm, ⟨32, _⟩ => ⟨S8192x2048, .f32⟩
  | .local _ .vmem, ⟨0, _⟩ => ⟨S2049x256, .f32⟩
  | .local _ .vmem, ⟨1, _⟩ => ⟨S2049x256, .f32⟩
  | .local _ .vmem, ⟨2, _⟩ => ⟨S2049x256, .f32⟩
  | .local _ .vmem, ⟨3, _⟩ => ⟨S2049x256, .f32⟩
  | .local _ .vmem, ⟨4, _⟩ => ⟨S2049x1, .f32⟩
  | .local _ .vmem, ⟨5, _⟩ => ⟨S1x256, .f32⟩
  | .local _ .vmem, ⟨6, _⟩ => ⟨S1x256, .f32⟩
  | .local _ .vmem, ⟨7, _⟩ => ⟨S2049x256, .bf16⟩
  | .local _ .vmem, ⟨8, _⟩ => ⟨S2049x256, .bf16⟩
  | .local _ .vmem, ⟨9, _⟩ => ⟨S256x2048, .f32⟩
  | .local _ .vmem, ⟨10, _⟩ => ⟨S256x2048, .f32⟩
  | .local _ .vmem, ⟨11, _⟩ => ⟨S2049x1024, .bf16⟩
  | .local _ .vmem, ⟨12, _⟩ => ⟨S2049x1024, .bf16⟩
  | .local _ .vmem, ⟨13, _⟩ => ⟨S256x1024, .bf16⟩
  | .local _ .vmem, ⟨14, _⟩ => ⟨S256x1024, .bf16⟩
  | .local _ .vmem, ⟨15, _⟩ => ⟨S4097x256, .f32⟩
  | .local _ .vmem, ⟨16, _⟩ => ⟨S4097x256, .f32⟩
  | .local _ .vmem, ⟨17, _⟩ => ⟨S4097x256, .f32⟩
  | .local _ .vmem, ⟨18, _⟩ => ⟨S4097x256, .f32⟩
  | .local _ .vmem, ⟨19, _⟩ => ⟨S4097x1, .f32⟩
  | .local _ .vmem, ⟨20, _⟩ => ⟨S1x256, .f32⟩
  | .local _ .vmem, ⟨21, _⟩ => ⟨S1x256, .f32⟩
  | .local _ .vmem, ⟨22, _⟩ => ⟨S4097x256, .bf16⟩
  | .local _ .vmem, ⟨23, _⟩ => ⟨S4097x256, .bf16⟩
  | .local _ .vmem, ⟨24, _⟩ => ⟨S256x4096, .bf16⟩
  | .local _ .vmem, ⟨25, _⟩ => ⟨S256x4096, .bf16⟩
  | .local _ .vmem, ⟨26, _⟩ => ⟨S4097x1024, .bf16⟩
  | .local _ .vmem, ⟨27, _⟩ => ⟨S4097x1024, .bf16⟩
  | .local _ .vmem, ⟨28, _⟩ => ⟨S256x1024, .bf16⟩
  | .local _ .vmem, ⟨29, _⟩ => ⟨S256x1024, .bf16⟩
  | .local _ .vmem, ⟨30, _⟩ => ⟨S4097x256, .f32⟩
  | .local _ .vmem, ⟨31, _⟩ => ⟨S4097x256, .f32⟩
  | .local _ .vmem, ⟨32, _⟩ => ⟨S4097x256, .f32⟩
  | .local _ .vmem, ⟨33, _⟩ => ⟨S4097x256, .f32⟩
  | .local _ .vmem, ⟨34, _⟩ => ⟨S4097x1, .f32⟩
  | .local _ .vmem, ⟨35, _⟩ => ⟨S1x256, .f32⟩
  | .local _ .vmem, ⟨36, _⟩ => ⟨S1x256, .f32⟩
  | .local _ .vmem, ⟨37, _⟩ => ⟨S4097x256, .bf16⟩
  | .local _ .vmem, ⟨38, _⟩ => ⟨S4097x256, .bf16⟩
  | .local _ .vmem, ⟨39, _⟩ => ⟨S256x4096, .bf16⟩
  | .local _ .vmem, ⟨40, _⟩ => ⟨S256x4096, .bf16⟩
  | .local _ .vmem, ⟨41, _⟩ => ⟨S4097x1024, .bf16⟩
  | .local _ .vmem, ⟨42, _⟩ => ⟨S4097x1024, .bf16⟩
  | .local _ .vmem, ⟨43, _⟩ => ⟨S256x1024, .bf16⟩
  | .local _ .vmem, ⟨44, _⟩ => ⟨S256x1024, .bf16⟩
  | .local _ .vmem, ⟨45, _⟩ => ⟨S4097x256, .f32⟩
  | .local _ .vmem, ⟨46, _⟩ => ⟨S4097x256, .f32⟩
  | .local _ .vmem, ⟨47, _⟩ => ⟨S4097x256, .f32⟩
  | .local _ .vmem, ⟨48, _⟩ => ⟨S4097x256, .f32⟩
  | .local _ .vmem, ⟨49, _⟩ => ⟨S4097x1, .f32⟩
  | .local _ .vmem, ⟨50, _⟩ => ⟨S1x256, .f32⟩
  | .local _ .vmem, ⟨51, _⟩ => ⟨S1x256, .f32⟩
  | .local _ .vmem, ⟨52, _⟩ => ⟨S4097x256, .bf16⟩
  | .local _ .vmem, ⟨53, _⟩ => ⟨S4097x256, .bf16⟩
  | .local _ .vmem, ⟨54, _⟩ => ⟨S256x4096, .bf16⟩
  | .local _ .vmem, ⟨55, _⟩ => ⟨S256x4096, .bf16⟩
  | .local _ .vmem, ⟨56, _⟩ => ⟨S4097x1024, .bf16⟩
  | .local _ .vmem, ⟨57, _⟩ => ⟨S4097x1024, .bf16⟩
  | .local _ .vmem, ⟨58, _⟩ => ⟨S256x1024, .f32⟩
  | .local _ .vmem, ⟨59, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg4_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem3_1 : DmaSem sig := 51
abbrev cc6_sem4_0 : DmaSem sig := 52
abbrev cc6_sem4_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2049x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2049x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2049x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2049x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2049x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4097x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4097x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4097x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4097x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![4, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4097x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S4097x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4097x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4097x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4097x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨2, ![4, 32], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S256x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4097x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S256x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage6_0 : Fin 2 → Memref sig .tc .vmem S4097x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4097x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S4097x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4097x256 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨2, ![2, 32], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S256x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S4097x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

class Facts₀ : Prop where
  shapeCasts_S2049_S2049x1 : S2049.ShapeCasts S2049x1
  shapeCasts_S4096_S1x4096 : S4096.ShapeCasts S1x4096
  inb_S2049x256_S2049x256_0_0 : ∀ a, (![0, 0] : Fin 2 → Nat) a + S2049x256.size a ≤ S2049x256.size a
  h_S2049x256 : 0 < S2049x256.numel
  inb_S2049x1_S2049x1_0_0 : ∀ a, (![0, 0] : Fin 2 → Nat) a + S2049x1.size a ≤ S2049x1.size a
  h_S2049x1 : 0 < S2049x1.numel
  shapeCasts_S2049x1_S2049x1 : S2049x1.ShapeCasts S2049x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2049x1_S2049x256 : S2049x1.Broadcasts S2049x256
  broadcasts_S1x256_S2049x256 : S1x256.Broadcasts S2049x256
  bitsLt_bf16_f32 : FTy.bits .bf16 < FTy.bits .f32
  packedbf16_S2049x256_S2049x256_0_0 : (Rect.unit (s := S2049x256) ![0, 0] S2049x256.size inb_S2049x256_S2049x256_0_0).PackedRows (EltTy.packing .bf16)
  inb_S256x2048_S256x2048_0_0 : ∀ a, (![0, 0] : Fin 2 → Nat) a + S256x2048.size a ≤ S256x2048.size a
  h_S256x2048 : 0 < S256x2048.numel
  inb_S2049x1024_S2049x1024_0_0 : ∀ a, (![0, 0] : Fin 2 → Nat) a + S2049x1024.size a ≤ S2049x1024.size a
  h_S2049x1024 : 0 < S2049x1024.numel
  shapeCasts_S2049x1024_S2049x1024 : S2049x1024.ShapeCasts S2049x1024
  slices_S2049x1024_o0_0_S2048x1024 : S2049x1024.Slices ![0, 0] S2048x1024
  slices_S2049x1024_o2048_0_S1x1024 : S2049x1024.Slices ![2048, 0] S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  shapeCasts_S4097_S4097x1 : S4097.ShapeCasts S4097x1
  inb_S4097x256_S4097x256_0_0 : ∀ a, (![0, 0] : Fin 2 → Nat) a + S4097x256.size a ≤ S4097x256.size a
  h_S4097x256 : 0 < S4097x256.numel
  inb_S4097x1_S4097x1_0_0 : ∀ a, (![0, 0] : Fin 2 → Nat) a + S4097x1.size a ≤ S4097x1.size a
  h_S4097x1 : 0 < S4097x1.numel
  shapeCasts_S4097x1_S4097x1 : S4097x1.ShapeCasts S4097x1
  broadcasts_S4097x1_S4097x256 : S4097x1.Broadcasts S4097x256
  broadcasts_S1x256_S4097x256 : S1x256.Broadcasts S4097x256
  packedbf16_S4097x256_S4097x256_0_0 : (Rect.unit (s := S4097x256) ![0, 0] S4097x256.size inb_S4097x256_S4097x256_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4097x1024_S4097x1024_0_0 : ∀ a, (![0, 0] : Fin 2 → Nat) a + S4097x1024.size a ≤ S4097x1024.size a
  h_S4097x1024 : 0 < S4097x1024.numel
  shapeCasts_S4097x1024_S4097x1024 : S4097x1024.ShapeCasts S4097x1024
  slices_S4097x1024_o0_0_S4096x1024 : S4097x1024.Slices ![0, 0] S4096x1024
  slices_S4097x1024_o4096_0_S1x1024 : S4097x1024.Slices ![4096, 0] S1x1024
  shapeCasts_S2048_S1x2048 : S2048.ShapeCasts S1x2048
  dot_S256x2048_S2048x1024_S256x1024_1_0_0_1_n_n_wf : DotDims.WF S256x2048 S2048x1024 S256x1024 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2049x256.size a ≤ S2049x4096.size a
  hwx0_0 : ∀ i : grid0.Coords, EltTy.bits .f32 = 32 ∨ (Rect.block (s := S2049x4096) S2049x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2049x256.size a ≤ S2049x4096.size a
  hwx0_1 : ∀ i : grid0.Coords, EltTy.bits .f32 = 32 ∨ (Rect.block (s := S2049x4096) S2049x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2049x1.size a ≤ S2049x1.size a
  hwx0_2 : ∀ i : grid0.Coords, EltTy.bits .f32 = 32 ∨ (Rect.block (s := S2049x1) S2049x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2049x256.size a ≤ S2049x4096.size a
  hwx0_4 : ∀ i : grid0.Coords, EltTy.bits .bf16 = 32 ∨ (Rect.block (s := S2049x4096) S2049x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2049x1024.size a ≤ S2049x4096.size a
  hwx1_1 : ∀ i : grid1.Coords, EltTy.bits .bf16 = 32 ∨ (Rect.block (s := S2049x4096) S2049x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S8192x4096.size a
  hwx1_2 : ∀ i : grid1.Coords, EltTy.bits .bf16 = 32 ∨ (Rect.block (s := S8192x4096) S256x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4097x256.size a ≤ S4097x4096.size a
  hwx2_0 : ∀ i : grid2.Coords, EltTy.bits .f32 = 32 ∨ (Rect.block (s := S4097x4096) S4097x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4097x256.size a ≤ S4097x4096.size a
  hwx2_1 : ∀ i : grid2.Coords, EltTy.bits .f32 = 32 ∨ (Rect.block (s := S4097x4096) S4097x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4097x1.size a ≤ S4097x1.size a
  hwx2_2 : ∀ i : grid2.Coords, EltTy.bits .f32 = 32 ∨ (Rect.block (s := S4097x1) S4097x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x4096.size a
  hwx2_3 : ∀ i : grid2.Coords, EltTy.bits .f32 = 32 ∨ (Rect.block (s := S1x4096) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4097x256.size a ≤ S4097x4096.size a
  hwx2_4 : ∀ i : grid2.Coords, EltTy.bits .bf16 = 32 ∨ (Rect.block (s := S4097x4096) S4097x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S8192x4096.size a
  hwx3_0 : ∀ i : grid3.Coords, EltTy.bits .bf16 = 32 ∨ (Rect.block (s := S8192x4096) S256x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4097x1024.size a ≤ S4097x4096.size a
  hwx3_1 : ∀ i : grid3.Coords, EltTy.bits .bf16 = 32 ∨ (Rect.block (s := S4097x4096) S4097x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S8192x4096.size a
  hwx3_2 : ∀ i : grid3.Coords, EltTy.bits .bf16 = 32 ∨ (Rect.block (s := S8192x4096) S256x1024.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4097x256.size a ≤ S4097x4096.size a
  hwx4_0 : ∀ i : grid4.Coords, EltTy.bits .f32 = 32 ∨ (Rect.block (s := S4097x4096) S4097x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4097x256.size a ≤ S4097x4096.size a
  hwx4_1 : ∀ i : grid4.Coords, EltTy.bits .f32 = 32 ∨ (Rect.block (s := S4097x4096) S4097x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4097x1.size a ≤ S4097x1.size a
  hwx4_2 : ∀ i : grid4.Coords, EltTy.bits .f32 = 32 ∨ (Rect.block (s := S4097x1) S4097x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x4096.size a
  hwx4_3 : ∀ i : grid4.Coords, EltTy.bits .f32 = 32 ∨ (Rect.block (s := S1x4096) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4097x256.size a ≤ S4097x4096.size a
  hwx4_4 : ∀ i : grid4.Coords, EltTy.bits .bf16 = 32 ∨ (Rect.block (s := S4097x4096) S4097x256.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x4096.size a ≤ S8192x4096.size a
  hwx5_0 : ∀ i : grid5.Coords, EltTy.bits .bf16 = 32 ∨ (Rect.block (s := S8192x4096) S256x4096.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4097x1024.size a ≤ S4097x4096.size a
  hwx5_1 : ∀ i : grid5.Coords, EltTy.bits .bf16 = 32 ∨ (Rect.block (s := S4097x4096) S4097x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x1024.size a ≤ S8192x4096.size a
  hwx5_2 : ∀ i : grid5.Coords, EltTy.bits .bf16 = 32 ∨ (Rect.block (s := S8192x4096) S256x1024.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4097x256.size a ≤ S4097x2048.size a
  hwx6_0 : ∀ i : grid6.Coords, EltTy.bits .f32 = 32 ∨ (Rect.block (s := S4097x2048) S4097x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4097x256.size a ≤ S4097x2048.size a
  hwx6_1 : ∀ i : grid6.Coords, EltTy.bits .f32 = 32 ∨ (Rect.block (s := S4097x2048) S4097x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S4097x1.size a ≤ S4097x1.size a
  hwx6_2 : ∀ i : grid6.Coords, EltTy.bits .f32 = 32 ∨ (Rect.block (s := S4097x1) S4097x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x2048.size a
  hwx6_3 : ∀ i : grid6.Coords, EltTy.bits .f32 = 32 ∨ (Rect.block (s := S1x2048) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4097x256.size a ≤ S4097x2048.size a
  hwx6_4 : ∀ i : grid6.Coords, EltTy.bits .bf16 = 32 ∨ (Rect.block (s := S4097x2048) S4097x256.size (cc6_transform_4 i) (hinb6_4 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x4096.size a ≤ S8192x4096.size a
  hwx7_0 : ∀ i : grid7.Coords, EltTy.bits .bf16 = 32 ∨ (Rect.block (s := S8192x4096) S256x4096.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4097x1024.size a ≤ S4097x2048.size a
  hwx7_1 : ∀ i : grid7.Coords, EltTy.bits .bf16 = 32 ∨ (Rect.block (s := S4097x2048) S4097x1024.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x1024.size a ≤ S8192x2048.size a
  hwx7_2 : ∀ i : grid7.Coords, EltTy.bits .f32 = 32 ∨ (Rect.block (s := S8192x2048) S256x1024.size (cc7_transform_2 i) (hinb7_2 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg1) S2049x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2049x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2049x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2049x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2049x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg5) S4097x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S4097x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S4097x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S4097x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v3) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S4097x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S256x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg9) S4097x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S4097x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v8) S4097x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9) S1x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v10) S4097x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v7) S256x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S4097x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S256x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_arg13) S4097x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S4097x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S4097x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v13) S1x256.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v14) S4097x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v11) S256x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v14) S4097x1024.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v15) S256x1024.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S8192x2048 : Shape := ⟨2, ![8192, 2048]⟩
abbrev S2049x4096 : Shape := ⟨2, ![2049, 4096]⟩
abbrev S2049 : Shape := ⟨1, ![2049]⟩
abbrev S4096 : Shape := ⟨1, ![4096]⟩
abbrev S4097x4096 : Shape := ⟨2, ![4097, 4096]⟩
abbrev S4097 : Shape := ⟨1, ![4097]⟩
abbrev S4097x2048 : Shape := ⟨2, ![4097, 2048]⟩
abbrev S2048 : Shape := ⟨1, ![2048]⟩
abbrev S_ : Shape := ⟨0, ![]⟩
abbrev S8192x1 : Shape := ⟨2, ![8192, 1]⟩
abbrev S8192x2049 : Shape := ⟨2, ![8192, 2049]⟩
abbrev S2049x1 : Shape := ⟨2, ![2049, 1]⟩
abbrev S1x4096 : Shape := ⟨2, ![1, 4096]⟩
abbrev S8192x4096 : Shape := ⟨2, ![8192, 4096]⟩
abbrev S8192x4097 : Shape := ⟨2, ![8192, 4097]⟩
abbrev S4097x1 : Shape := ⟨2, ![4097, 1]⟩
abbrev S1x2048 : Shape := ⟨2, ![1, 2048]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2049x4096, .f32⟩
  | .hbm, ⟨2, _⟩ => ⟨S2049, .f32⟩
  | .hbm, ⟨3, _⟩ => ⟨S4096, .f32⟩
  | .hbm, ⟨4, _⟩ => ⟨S2049x4096, .f32⟩
  | .hbm, ⟨5, _⟩ => ⟨S4097x4096, .f32⟩
  | .hbm, ⟨6, _⟩ => ⟨S4097, .f32⟩
  | .hbm, ⟨7, _⟩ => ⟨S4096, .f32⟩
  | .hbm, ⟨8, _⟩ => ⟨S4097x4096, .f32⟩
  | .hbm, ⟨9, _⟩ => ⟨S4097x4096, .f32⟩
  | .hbm, ⟨10, _⟩ => ⟨S4097, .f32⟩
  | .hbm, ⟨11, _⟩ => ⟨S4096, .f32⟩
  | .hbm, ⟨12, _⟩ => ⟨S4097x4096, .f32⟩
  | .hbm, ⟨13, _⟩ => ⟨S4097x2048, .f32⟩
  | .hbm, ⟨14, _⟩ => ⟨S4097, .f32⟩
  | .hbm, ⟨15, _⟩ => ⟨S2048, .f32⟩
  | .hbm, ⟨16, _⟩ => ⟨S4097x2048, .f32⟩
  | .hbm, ⟨17, _⟩ => ⟨S_, .f32⟩
  | .hbm, ⟨18, _⟩ => ⟨S8192x1, .f32⟩
  | .hbm, ⟨19, _⟩ => ⟨S8192x2049, .f32⟩
  | .hbm, ⟨20, _⟩ => ⟨S_, .f32⟩
  | .hbm, ⟨21, _⟩ => ⟨S2049, .f32⟩
  | .hbm, ⟨22, _⟩ => ⟨S2049, .f32⟩
  | .hbm, ⟨23, _⟩ => ⟨S2049, .f32⟩
  | .hbm, ⟨24, _⟩ => ⟨S2049x1, .f32⟩
  | .hbm, ⟨25, _⟩ => ⟨S2049x4096, .f32⟩
  | .hbm, ⟨26, _⟩ => ⟨S2049x4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S1x4096, .f32⟩
  | .hbm, ⟨32, _⟩ => ⟨S2049x4096, .f32⟩
  | .hbm, ⟨33, _⟩ => ⟨S2049x4096, .f32⟩
  | .hbm, ⟨34, _⟩ => ⟨S2049x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x1, .f32⟩
  | .hbm, ⟨41, _⟩ => ⟨S8192x4097, .f32⟩
  | .hbm, ⟨42, _⟩ => ⟨S_, .f32⟩
  | .hbm, ⟨43, _⟩ => ⟨S4097, .f32⟩
  | .hbm, ⟨44, _⟩ => ⟨S4097, .f32⟩
  | .hbm, ⟨45, _⟩ => ⟨S4097, .f32⟩
  | .hbm, ⟨46, _⟩ => ⟨S4097x1, .f32⟩
  | .hbm, ⟨47, _⟩ => ⟨S4097x4096, .f32⟩
  | .hbm, ⟨48, _⟩ => ⟨S4097x4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S1x4096, .f32⟩
  | .hbm, ⟨54, _⟩ => ⟨S4097x4096, .f32⟩
  | .hbm, ⟨55, _⟩ => ⟨S4097x4096, .f32⟩
  | .hbm, ⟨56, _⟩ => ⟨S4097x4096, .f32⟩
  | .hbm, ⟨57, _⟩ => ⟨S8192x4096, .f32⟩
  | .hbm, ⟨58, _⟩ => ⟨S_, .f32⟩
  | .hbm, ⟨59, _⟩ => ⟨S8192x4096, .f32⟩
  | .hbm, ⟨60, _⟩ => ⟨S8192x4096, .f32⟩
  | .hbm, ⟨61, _⟩ => ⟨S_, .f32⟩
  | .hbm, ⟨62, _⟩ => ⟨S8192x1, .f32⟩
  | .hbm, ⟨63, _⟩ => ⟨S8192x4097, .f32⟩
  | .hbm, ⟨64, _⟩ => ⟨S_, .f32⟩
  | .hbm, ⟨65, _⟩ => ⟨S4097, .f32⟩
  | .hbm, ⟨66, _⟩ => ⟨S4097, .f32⟩
  | .hbm, ⟨67, _⟩ => ⟨S4097, .f32⟩
  | .hbm, ⟨68, _⟩ => ⟨S4097x1, .f32⟩
  | .hbm, ⟨69, _⟩ => ⟨S4097x4096, .f32⟩
  | .hbm, ⟨70, _⟩ => ⟨S4097x4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S1x4096, .f32⟩
  | .hbm, ⟨76, _⟩ => ⟨S4097x4096, .f32⟩
  | .hbm, ⟨77, _⟩ => ⟨S4097x4096, .f32⟩
  | .hbm, ⟨78, _⟩ => ⟨S4097x4096, .f32⟩
  | .hbm, ⟨79, _⟩ => ⟨S8192x4096, .f32⟩
  | .hbm, ⟨80, _⟩ => ⟨S_, .f32⟩
  | .hbm, ⟨81, _⟩ => ⟨S8192x4096, .f32⟩
  | .hbm, ⟨82, _⟩ => ⟨S8192x4096, .f32⟩
  | .hbm, ⟨83, _⟩ => ⟨S_, .f32⟩
  | .hbm, ⟨84, _⟩ => ⟨S8192x1, .f32⟩
  | .hbm, ⟨85, _⟩ => ⟨S8192x4097, .f32⟩
  | .hbm, ⟨86, _⟩ => ⟨S_, .f32⟩
  | .hbm, ⟨87, _⟩ => ⟨S4097, .f32⟩
  | .hbm, ⟨88, _⟩ => ⟨S4097, .f32⟩
  | .hbm, ⟨89, _⟩ => ⟨S4097, .f32⟩
  | .hbm, ⟨90, _⟩ => ⟨S4097x1, .f32⟩
  | .hbm, ⟨91, _⟩ => ⟨S4097x2048, .f32⟩
  | .hbm, ⟨92, _⟩ => ⟨S4097x2048, .f32⟩
  | .hbm, ⟨93, _⟩ => ⟨S_, .f32⟩
  | .hbm, ⟨94, _⟩ => ⟨S2048, .f32⟩
  | .hbm, ⟨95, _⟩ => ⟨S2048, .f32⟩
  | .hbm, ⟨96, _⟩ => ⟨S2048, .f32⟩
  | .hbm, ⟨97, _⟩ => ⟨S1x2048, .f32⟩
  | .hbm, ⟨98, _⟩ => ⟨S4097x2048, .f32⟩
  | .hbm, ⟨99, _⟩ => ⟨S4097x2048, .f32⟩
  | .hbm, ⟨100, _⟩ => ⟨S4097x2048, .f32⟩
  | .hbm, ⟨101, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_cst : Ref sig .tc := ⟨.hbm, 58, rfl⟩
abbrev main_call1_v0 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call2_cst : Ref sig .tc := ⟨.hbm, 80, rfl⟩
abbrev main_call2_v0 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  concatenates_S8192x2048_S8192x1_S8192x2049_d1 : Shape.Concatenates [S8192x2048, S8192x1] S8192x2049 1
  bcast_S_S2049 : S_.BroadcastsInDim S2049 (![] : Fin 0 → Fin S2049.rank)
  bcast_S2049_S2049x1_0 : S2049.BroadcastsInDim S2049x1 (![0] : Fin 1 → Fin S2049x1.rank)
  bcast_S2049x1_S2049x4096_0_1 : S2049x1.BroadcastsInDim S2049x4096 (![0, 1] : Fin 2 → Fin S2049x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S2049x4096_0_1 : S1x4096.BroadcastsInDim S2049x4096 (![0, 1] : Fin 2 → Fin S2049x4096.rank)
  bcast_S_S8192x4096 : S_.BroadcastsInDim S8192x4096 (![] : Fin 0 → Fin S8192x4096.rank)
  concatenates_S8192x4096_S8192x1_S8192x4097_d1 : Shape.Concatenates [S8192x4096, S8192x1] S8192x4097 1
  bcast_S_S4097 : S_.BroadcastsInDim S4097 (![] : Fin 0 → Fin S4097.rank)
  bcast_S4097_S4097x1_0 : S4097.BroadcastsInDim S4097x1 (![0] : Fin 1 → Fin S4097x1.rank)
  bcast_S4097x1_S4097x4096_0_1 : S4097x1.BroadcastsInDim S4097x4096 (![0, 1] : Fin 2 → Fin S4097x4096.rank)
  bcast_S1x4096_S4097x4096_0_1 : S1x4096.BroadcastsInDim S4097x4096 (![0, 1] : Fin 2 → Fin S4097x4096.rank)
  bcast_S4097x1_S4097x2048_0_1 : S4097x1.BroadcastsInDim S4097x2048 (![0, 1] : Fin 2 → Fin S4097x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4097x2048_0_1 : S1x2048.BroadcastsInDim S4097x2048 (![0, 1] : Fin 2 → Fin S4097x2048.rank)
  dot_S8192x2049_S2049x4096_S8192x4096_1_0_0_1_n_n_wf : DotDims.WF S8192x2049 S2049x4096 S8192x4096 [1] [0] [0] [1] [] []
  dot_S8192x4097_S4097x4096_S8192x4096_1_0_0_1_n_n_wf : DotDims.WF S8192x4097 S4097x4096 S8192x4096 [1] [0] [0] [1] [] []
  dot_S8192x4097_S4097x2048_S8192x2048_1_0_0_1_n_n_wf : DotDims.WF S8192x4097 S4097x2048 S8192x2048 [1] [0] [0] [1] [] []

variable [Facts₀]

def dot_S8192x2049_S2049x4096_S8192x4096_1_0_0_1_n_n : DotDims S8192x2049 S2049x4096 S8192x4096 where
  lhsContracting := [1]
  rhsContracting := [0]
  lhsNonContracting := [0]
  rhsNonContracting := [1]
  lhsBatch := []
  rhsBatch := []
  wf := dot_S8192x2049_S2049x4096_S8192x4096_1_0_0_1_n_n_wf
def dot_S8192x4097_S4097x4096_S8192x4096_1_0_0_1_n_n : DotDims S8192x4097 S4097x4096 S8192x4096 where
  lhsContracting := [1]
  rhsContracting := [0]
  lhsNonContracting := [0]
  rhsNonContracting := [1]
  lhsBatch := []
  rhsBatch := []
  wf := dot_S8192x4097_S4097x4096_S8192x4096_1_0_0_1_n_n_wf
def dot_S8192x4097_S4097x2048_S8192x2048_1_0_0_1_n_n : DotDims S8192x4097 S4097x2048 S8192x2048 where
  lhsContracting := [1]
  rhsContracting := [0]
  lhsNonContracting := [0]
  rhsNonContracting := [1]
  lhsBatch := []
  rhsBatch := []
  wf := dot_S8192x4097_S4097x2048_S8192x2048_1_0_0_1_n_n_wf

class Facts : Prop extends Facts₀ where

variable [Facts]
-- ==== Proof.Spec.lean ====
/-
  Four stacked linear layers with reparameterised weights, as plain mathematics on the extended reals, free of
  either program.

  A layer's weight matrix `W` has `K' + 1` rows and `N` columns; its last row is the bias. The weight is not an
  input: it is formed from a mean `M`, a noise matrix `eps` and two log-variance vectors, `u` with one entry per
  row and `v` with one per column, as
      W k n = M k n + (exp (u k / 2) · eps k n) · exp (v n / 2).
  The layer sends a batch `x` (rows `b`, `K'` features) to
      out b n = (Σ_{k < K'} x b k · W k n) + W K' n,
  which is what one gets by appending a column of ones to `x` and multiplying by the whole of `W`:
      out b n = Σ_{k ≤ K'} [x | 1] b k · W k n                                   (`sum_ones_column`).
  Splitting the last term off a finite sum, and `1 · w = w`, hold for all extended reals, the infinite ones
  included, so nothing here asks any entry to be finite.
  Between layers the negative part is cut off (`relu`: the maximum with zero).
-/
import Idealize.ShloMosaic.PureOps.Ideal
import Idealize.ShloMosaic.PureOps.Ideal.Laws
import Idealize.ShloMosaic.Lib.ValueIdx

noncomputable section

open scoped BigOperators

namespace Cert.Mvg

open Idealize.ShloMosaic Idealize.ShloMosaic.ValueIdx

/-- The factor one half, spelt as the binary word both programs carry; it is the same word on both sides and is
    never evaluated. -/
abbrev half : EReal := Ideal.ofBits .f32 0x3F000000#32

/-- The weight matrix from its mean, its noise and the two log-variance vectors. -/
def weight {K N : Nat} (M eps : (⟨2, ![K, N]⟩ : Shape).Idx → EReal) (u : (⟨1, ![K]⟩ : Shape).Idx → EReal)
    (v : (⟨1, ![N]⟩ : Shape).Idx → EReal) : (⟨2, ![K, N]⟩ : Shape).Idx → EReal :=
  fun i => M i + (Ideal.exp (half * u (ix1 (i 0))) * eps i) * Ideal.exp (half * v (ix1 (i 1)))

/-- The same weight matrix with the row-indexed vector given as a column `[K, 1]` and the column-indexed one as
    a row `[1, N]`. -/
def weightCR {K N : Nat} (M eps : (⟨2, ![K, N]⟩ : Shape).Idx → EReal) (ucol : (⟨2, ![K, 1]⟩ : Shape).Idx → EReal)
    (vrow : (⟨2, ![1, N]⟩ : Shape).Idx → EReal) : (⟨2, ![K, N]⟩ : Shape).Idx → EReal :=
  fun i => M i + (Ideal.exp (half * ucol (ix2 (i 0) 0)) * eps i) * Ideal.exp (half * vrow (ix2 0 (i 1)))

/-- A column that holds `u` and a row that holds `v` give the weight matrix of `u` and `v`. -/
theorem weightCR_eq {K N : Nat} (M eps : (⟨2, ![K, N]⟩ : Shape).Idx → EReal) (ucol : (⟨2, ![K, 1]⟩ : Shape).Idx → EReal)
    (vrow : (⟨2, ![1, N]⟩ : Shape).Idx → EReal) (u : (⟨1, ![K]⟩ : Shape).Idx → EReal) (v : (⟨1, ![N]⟩ : Shape).Idx → EReal)
    (hu : ∀ k : Fin K, ucol (ix2 k 0) = u (ix1 k)) (hv : ∀ n : Fin N, vrow (ix2 0 n) = v (ix1 n)) :
    weightCR M eps ucol vrow = weight M eps u v := by
  funext i
  simp only [weightCR, weight]
  rw [hu (i 0), hv (i 1)]

/-- One layer: the batch times all rows of the weight but the last, plus the last row. -/
def affine {B N : Nat} (K' : Nat) (x : (⟨2, ![B, K']⟩ : Shape).Idx → EReal) (W : (⟨2, ![K' + 1, N]⟩ : Shape).Idx → EReal) :
    (⟨2, ![B, N]⟩ : Shape).Idx → EReal :=
  fun i => (∑ k : Fin K', x (ix2 (i 0) k) * W (ix2 k.castSucc (i 1))) + W (ix2 (Fin.last K') (i 1))

/-- The negative part cut off, entry by entry; the zero is the binary word both programs carry. -/
def relu {s : Shape} (f : s.Idx → EReal) : s.Idx → EReal := fun i => max (f i) (Ideal.ofBits .f32 0x00000000#32)

/-- A sum against a vector whose last entry is one: the last term is the other factor alone. This is the whole
    difference between multiplying `[x | 1]` by `W` and multiplying `x` by `W` without its last row and then adding
    that row. It holds on all extended reals. -/
theorem sum_ones_column {K' : Nat} (f w : Fin (K' + 1) → EReal) (g : Fin K' → EReal)
    (hg : ∀ k : Fin K', f k.castSucc = g k) (hone : f (Fin.last K') = 1) :
    ∑ k, f k * w k = (∑ k : Fin K', g k * w k.castSucc) + w (Fin.last K') := by
  rw [Fin.sum_univ_castSucc, hone, one_mul]
  exact congrArg (· + w (Fin.last K')) (Finset.sum_congr rfl fun k _ => by rw [hg k])

/-- The binary word of the single-precision one is the extended real one. -/
theorem ofBits_one_f32 : Ideal.ofBits .f32 0x3F800000#32 = 1 := by
  simp [Ideal.ofBits, Ideal.ieee, -EReal.coe_mul]; norm_num

/-- The four layers, the negative part cut off after each of the first three. -/
def net (x : (⟨2, ![8192, 2048]⟩ : Shape).Idx → EReal)
    (M0 eps0 : (⟨2, ![2049, 4096]⟩ : Shape).Idx → EReal) (u0 : (⟨1, ![2049]⟩ : Shape).Idx → EReal) (v0 : (⟨1, ![4096]⟩ : Shape).Idx → EReal)
    (M1 eps1 : (⟨2, ![4097, 4096]⟩ : Shape).Idx → EReal) (u1 : (⟨1, ![4097]⟩ : Shape).Idx → EReal) (v1 : (⟨1, ![4096]⟩ : Shape).Idx → EReal)
    (M2 eps2 : (⟨2, ![4097, 4096]⟩ : Shape).Idx → EReal) (u2 : (⟨1, ![4097]⟩ : Shape).Idx → EReal) (v2 : (⟨1, ![4096]⟩ : Shape).Idx → EReal)
    (M3 eps3 : (⟨2, ![4097, 2048]⟩ : Shape).Idx → EReal) (u3 : (⟨1, ![4097]⟩ : Shape).Idx → EReal) (v3 : (⟨1, ![2048]⟩ : Shape).Idx → EReal) :
    (⟨2, ![8192, 2048]⟩ : Shape).Idx → EReal :=
  affine 4096 (relu (affine 4096 (relu (affine 4096 (relu (affine 2048 x (weight M0 eps0 u0 v0))) (weight M1 eps1 u1 v1)))
    (weight M2 eps2 u2 v2))) (weight M3 eps3 u3 v3)

end Cert.Mvg

end
-- ==== Proof.KernelRun.lean ====
/-
  The kernel's whole run, with the result named.

  The program is twelve segments: four short stretches of host operations (each reshapes a layer's two vectors
  into a column and a row) and eight kernel regions. The generated frame follows the contents of every buffer
  from the launch memory through those segments as a fold, `Gen.W0` … `Gen.W12`: a host stretch applies its
  operations, a region replaces each of its arrays by what its write-backs leave and keeps every other buffer.
  The run below is that same walk through the segments, concluded with one more reading: besides the ARGUMENT
  buffers it reads the RESULT buffer out of `Gen.W12`, the contents after the last segment, so every weakly fair
  execution ends with the result array at what `Gen.W12` has for it and the arguments as launched. What those
  contents are, as a function of the arguments, is the business of the module that reads the fold back; nothing
  here looks inside a region.
-/
import proofs.«180564_j19851338842311_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's theorem for a program cut into segments finds its implicit arguments by unifying its conclusion with
-- this one, which takes unfolding plain definitions in a metavariable's type
set_option backward.isDefEq.respectTransparency.types false in
/-- From any memory with zero counters every weakly fair execution of the program terminates, nothing faulting,
    with the result array holding what `Gen.W12`, the contents after the last segment, has for its buffer, and
    every argument array as launched
    (the fold at an argument's buffer walks back to the launch memory: the generated `W12_main_argK`). -/
theorem run_result : θ_run defs (onTc (τ := τ) (main (F := F))) ⟨m, fun _ => 0, ρ⟩ (fun r => ∀ c : Dev nD,
      r.2.mem ((c.tc : Thread nD τ).loc main_v15) = W12 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v15 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.RunValue

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.Weights0.lean ====
/-
  The weight matrix of the first layer, formed column block by column block.

  The grid has 16 points. At point `t` the body reads columns `256 t … 256 t + 255` of the mean `M` and of the
  noise `eps`, the whole column `u` (one entry per row of the weight) and entries `256 t … 256 t + 255` of the row `v`
  (one entry per column of the weight), and writes the same columns of the result: with `n = 256 t + q`, entry `(p, q)`
  of the block it writes is
      M p n + (exp (u p / 2) · eps p n) · exp (v n / 2).
  The 16 column blocks tile the 2049 × 4096 array, so after the last point the array is
  `Cert.Mvg.weightCR M eps u v`, whatever the buffers held before. Nothing here asks any entry to be finite: the
  change of format at the end is the identity on extended reals, and no law of arithmetic is used.
-/
import proofs.«180564_j19851338842311_2_alg».proof.Proof.Gen.KernelIdeal.Frame
import proofs.«180564_j19851338842311_2_alg».proof.Proof.Spec
import proofs.«180564_j19851338842311_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

/-! ## One entry of the block the body writes -/

/-- Entry `(p, q)` of the body's result, from the four blocks it loads: the two casts of a shape to itself are the
    identity, the column `[2049, 1]` broadcast over the lanes reads its row `p`, the row `[1, 256]` broadcast over the
    rows reads its lane `q`, and the last change of format is the identity. -/
theorem body_entry0 (x0 x1 : Vec Ideal S2049x256 .f32) (x2 : Vec Ideal S2049x1 .f32) (x3 : Vec Ideal S1x256 .f32)
    (p : Fin 2049) (q : Fin 256) :
    k0_pay1 (F := Ideal) x0 x1 x2 x3 (ix2 p q)
      = x0 (ix2 p q) + (Ideal.exp (Cert.Mvg.half * x2 (ix2 p 0)) * x1 (ix2 p q)) * Ideal.exp (Cert.Mvg.half * x3 (ix2 0 q)) := by
  unfold k0_pay1
  rw [shapeCast_self, shapeCast_self]
  rw [truncf_apply, addf_apply, mulf_apply, mulf_apply]
  rw [ValueLayout.broadcastTo_a1_ab_apply _ _ p q, broadcastTo_1b_ab_apply _ _ p q]
  rfl

/-- When the four loaded blocks hold, at `(p, q)`, row `p` and lane `q`, the entries of `M`, `eps`, `u` and `v` that
    belong to the array index `i`, the body's entry `(p, q)` is entry `i` of the weight matrix. -/
theorem body_entry_weight0 (M eps : (⟨2, ![2049, 4096]⟩ : Shape).Idx → EReal) (ucol : (⟨2, ![2049, 1]⟩ : Shape).Idx → EReal)
    (vrow : (⟨2, ![1, 4096]⟩ : Shape).Idx → EReal)
    (x0 x1 : Vec Ideal S2049x256 .f32) (x2 : Vec Ideal S2049x1 .f32) (x3 : Vec Ideal S1x256 .f32)
    (p : Fin 2049) (q : Fin 256) (i : (⟨2, ![2049, 4096]⟩ : Shape).Idx)
    (h0 : x0 (ix2 p q) = M i) (h1 : x1 (ix2 p q) = eps i) (h2 : x2 (ix2 p 0) = ucol (ix2 (i 0) 0))
    (h3 : x3 (ix2 0 q) = vrow (ix2 0 (i 1))) :
    k0_pay1 (F := Ideal) x0 x1 x2 x3 (ix2 p q) = Cert.Mvg.weightCR M eps ucol vrow i := by
  rw [body_entry0, h0, h1, h2, h3]
  rfl

/-! ## Where each block sits in its array -/

theorem zero_offsets0 : (![0, 0] : Fin 2 → Nat) = fun _ => 0 := funext fun a => by fin_cases a <;> rfl

/-- The block indices at point `t`: `M`, `eps`, `v` and the result are at column block `t`, on the one row block
    there is; the column `u` is read whole at every point. -/
theorem block_indices0 : ∀ t : Fin cfg0.N,
      win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

section Blocks

variable (V : (c : Dev nD) → (b : Ref sig .tc) → Buf (Elt Ideal) ((c : Thread nD τ).loc b))

/-- The block of `M` at point `t` holds, at `(p, q)`, the array's entry in row `p` and column `256 t + q`. -/
theorem mean_block0 (c : Dev nD) (t : Fin cfg0.N) (p : Fin 2049) (q : Fin 256) (k : S2049x4096.Idx)
    (hk0 : (k 0).val = p.val) (hk1 : (k 1).val = t.val * 256 + q.val) :
    (iblk0 (F := Ideal) V c 0 t : Vec Ideal S2049x256 .f32) (ix2 p q) = (V c main_arg1 : S2049x4096.Idx → EReal) k := by
  obtain ⟨e0, e1, -⟩ := block_indices0 t
  unfold iblk0
  rw [View.read_apply]
  show V c main_arg1 _ = V c main_arg1 _
  congr 1
  funext a
  apply Fin.ext
  match a with
  | ⟨0, _⟩ => show win0_0.index t 0 * 2049 + 1 * p.val = (k 0).val; rw [e0, hk0]; omega
  | ⟨1, _⟩ => show win0_0.index t 1 * 256 + 1 * q.val = (k 1).val; rw [e1, hk1]; omega

/-- The block of `eps` at point `t` holds, at `(p, q)`, the array's entry in row `p` and column `256 t + q`. -/
theorem noise_block0 (c : Dev nD) (t : Fin cfg0.N) (p : Fin 2049) (q : Fin 256) (k : S2049x4096.Idx)
    (hk0 : (k 0).val = p.val) (hk1 : (k 1).val = t.val * 256 + q.val) :
    (iblk0 (F := Ideal) V c 1 t : Vec Ideal S2049x256 .f32) (ix2 p q) = (V c main_arg4 : S2049x4096.Idx → EReal) k := by
  obtain ⟨-, -, e0, e1, -⟩ := block_indices0 t
  unfold iblk0
  rw [View.read_apply]
  show V c main_arg4 _ = V c main_arg4 _
  congr 1
  funext a
  apply Fin.ext
  match a with
  | ⟨0, _⟩ => show win0_1.index t 0 * 2049 + 1 * p.val = (k 0).val; rw [e0, hk0]; omega
  | ⟨1, _⟩ => show win0_1.index t 1 * 256 + 1 * q.val = (k 1).val; rw [e1, hk1]; omega

/-- The block of the column `u` is the whole column at every point: at `(p, 0)` it holds the entry of row `p`. -/
theorem column_block0 (c : Dev nD) (t : Fin cfg0.N) (p : Fin 2049) (k : S2049x1.Idx)
    (hk0 : (k 0).val = p.val) :
    (iblk0 (F := Ideal) V c 2 t : Vec Ideal S2049x1 .f32) (ix2 p 0) = (V c main_v0 : S2049x1.Idx → EReal) k := by
  obtain ⟨-, -, -, -, e0, e1, -⟩ := block_indices0 t
  have hk1 : (k 1).val = 0 := by have h : (k 1).val < 1 := (k 1).isLt; omega
  unfold iblk0
  rw [View.read_apply]
  show V c main_v0 _ = V c main_v0 _
  congr 1
  funext a
  apply Fin.ext
  match a with
  | ⟨0, _⟩ => show win0_2.index t 0 * 2049 + 1 * p.val = (k 0).val; rw [e0, hk0]; omega
  | ⟨1, _⟩ => show win0_2.index t 1 * 1 + 1 * 0 = (k 1).val; rw [e1, hk1]

/-- The block of the row `v` at point `t` holds, at `(0, q)`, the row's entry `256 t + q`. -/
theorem row_block0 (c : Dev nD) (t : Fin cfg0.N) (q : Fin 256) (k : S1x4096.Idx)
    (hk1 : (k 1).val = t.val * 256 + q.val) :
    (iblk0 (F := Ideal) V c 3 t : Vec Ideal S1x256 .f32) (ix2 0 q) = (V c main_v1 : S1x4096.Idx → EReal) k := by
  obtain ⟨-, -, -, -, -, -, e0, e1, -⟩ := block_indices0 t
  have hk0 : (k 0).val = 0 := by have h : (k 0).val < 1 := (k 0).isLt; omega
  unfold iblk0
  rw [View.read_apply]
  show V c main_v1 _ = V c main_v1 _
  congr 1
  funext a
  apply Fin.ext
  match a with
  | ⟨0, _⟩ => show win0_3.index t 0 * 1 + 1 * 0 = (k 0).val; rw [e0, hk0]
  | ⟨1, _⟩ => show win0_3.index t 1 * 256 + 1 * q.val = (k 1).val; rw [e1, hk1]; omega

/-! ## What a point writes, and the whole array -/

/-- What point `t` writes back is column block `t` of the weight matrix of the four arrays as the region finds
    them: the body's one store fills the block, each loaded block is read where the result's block sits, and entry
    by entry the body computes the weight. -/
theorem written_block0 (c : Dev nD) (t : Fin cfg0.N) :
    (dat0 (F := Ideal) V c).flushed 4 t
      = ((cfg0.win 4).blk t).view.read (Elt Ideal)
          (Cert.Mvg.weightCR (V c main_arg1) (V c main_arg4) (V c main_v0) (V c main_v1)) := by
  show (cfg0.win 4).cut (grid0.coords t) ((dat0 V c).after 4 t) = _
  rw [after0_4]
  unfold out0_4
  rw [View.canon_unit_zero zero_offsets0]
  simp only [View.ld_unit_zero (S := S2049x256) zero_offsets0, View.ld_unit_zero (S := S2049x1) zero_offsets0,
    View.ld_unit_zero (S := S1x256) zero_offsets0]
  obtain ⟨-, -, -, -, -, -, -, -, e0, e1⟩ := block_indices0 t
  refine funext fun (j : S2049x256.Idx) => ?_
  obtain ⟨p, q, rfl⟩ : ∃ (p : Fin 2049) (q : Fin 256), j = ix2 p q := ⟨j 0, j 1, eq_ix2 j⟩
  have hi0 : ((((cfg0.win 4).blk t).view.emb (ix2 p q) : S2049x4096.Idx) 0).val = p.val := by
    show win0_4.index t 0 * 2049 + 1 * p.val = p.val; rw [e0]; omega
  have hi1 : ((((cfg0.win 4).blk t).view.emb (ix2 p q) : S2049x4096.Idx) 1).val = t.val * 256 + q.val := by
    show win0_4.index t 1 * 256 + 1 * q.val = t.val * 256 + q.val; rw [e1]; omega
  exact body_entry_weight0 (V c main_arg1) (V c main_arg4) (V c main_v0) (V c main_v1)
    (iblk0 V c 0 t) (iblk0 V c 1 t) (iblk0 V c 2 t) (iblk0 V c 3 t) p q (((cfg0.win 4).blk t).view.emb (ix2 p q))
    (mean_block0 V c t p q _ hi0 hi1) (noise_block0 V c t p q _ hi0 hi1)
    (column_block0 V c t p _ hi0) (row_block0 V c t q _ hi1)

end Blocks

/-- An index of the result array is in point `t`'s block iff each coordinate is in the block's range on its axis. -/
theorem mem_written_block0 (t : Fin cfg0.N) (i : S2049x4096.Idx) :
    i ∈ ((cfg0.win 4).blk t).view.set ↔ ∀ a : Fin 2, win0_4.index t a * S2049x256.size a ≤ (i a).val ∧ (i a).val < win0_4.index t a * S2049x256.size a + S2049x256.size a := by
  show i ∈ ((View.whole main_v2).slice (win0_4.rect t)).set ↔ _
  rw [View.set_slice_whole, Rect.mem_set_unit]
  exact Iff.rfl

/-- The column blocks tile the array: column `n` is in the block of point `n / 256`, and every point writes back. -/
theorem written_blocks_cover0 (i : S2049x4096.Idx) :
    ∃ t : Fin cfg0.N, (cfg0.win 4).flush t = true ∧ i ∈ ((cfg0.win 4).blk t).view.set := by
  have hi0 : (i 0).val < 2049 := (i 0).isLt
  have hi1 : (i 1).val < 4096 := (i 1).isLt
  have hN : cfg0.N = 16 := N_0
  obtain ⟨t, ht⟩ : ∃ t : Fin cfg0.N, t.val = (i 1).val / 256 := ⟨⟨(i 1).val / 256, by rw [hN]; omega⟩, rfl⟩
  obtain ⟨-, -, -, -, -, -, -, -, e0, e1⟩ := block_indices0 t
  refine ⟨t, flush0_4 t, ?_⟩
  rw [mem_written_block0]
  intro a
  match a with
  | ⟨0, _⟩ => show win0_4.index t 0 * 2049 ≤ (i 0).val ∧ (i 0).val < win0_4.index t 0 * 2049 + 2049; rw [e0]; omega
  | ⟨1, _⟩ => show win0_4.index t 1 * 256 ≤ (i 1).val ∧ (i 1).val < win0_4.index t 1 * 256 + 256; rw [e1, ht]; omega

/-- After region 0 its output array holds the weight matrix of the four arrays it reads, whatever the buffers
    held when the region was entered. -/
theorem weights0 (V : (c : Dev nD) → (b : Ref sig .tc) → Buf (Elt Ideal) ((c : Thread nD τ).loc b)) (c : Dev nD) :
    (dat0 (F := Ideal) V c).arrAt 4 cfg0.N = Cert.Mvg.weightCR (V c main_arg1) (V c main_arg4) (V c main_v0) (V c main_v1) :=
  (dat0 (F := Ideal) V c).arrAt_eq_of_cover 4 (Cert.Mvg.weightCR (V c main_arg1) (V c main_arg4) (V c main_v0) (V c main_v1))
    (fun t _ => written_block0 V c t) written_blocks_cover0

end Cert.KernelIdeal.Regions

end
-- ==== Proof.Weights2.lean ====
/-
  The weight matrix of the second layer, formed column block by column block.

  The grid has 16 points. At point `t` the body reads columns `256 t … 256 t + 255` of the mean `M` and of the
  noise `eps`, the whole column `u` (one entry per row of the weight) and entries `256 t … 256 t + 255` of the row `v`
  (one entry per column of the weight), and writes the same columns of the result: with `n = 256 t + q`, entry `(p, q)`
  of the block it writes is
      M p n + (exp (u p / 2) · eps p n) · exp (v n / 2).
  The 16 column blocks tile the 4097 × 4096 array, so after the last point the array is
  `Cert.Mvg.weightCR M eps u v`, whatever the buffers held before. Nothing here asks any entry to be finite: the
  change of format at the end is the identity on extended reals, and no law of arithmetic is used.
-/
import proofs.«180564_j19851338842311_2_alg».proof.Proof.Gen.KernelIdeal.Frame
import proofs.«180564_j19851338842311_2_alg».proof.Proof.Spec
import proofs.«180564_j19851338842311_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

/-! ## One entry of the block the body writes -/

/-- Entry `(p, q)` of the body's result, from the four blocks it loads: the two casts of a shape to itself are the
    identity, the column `[4097, 1]` broadcast over the lanes reads its row `p`, the row `[1, 256]` broadcast over the
    rows reads its lane `q`, and the last change of format is the identity. -/
theorem body_entry2 (x0 x1 : Vec Ideal S4097x256 .f32) (x2 : Vec Ideal S4097x1 .f32) (x3 : Vec Ideal S1x256 .f32)
    (p : Fin 4097) (q : Fin 256) :
    k2_pay1 (F := Ideal) x0 x1 x2 x3 (ix2 p q)
      = x0 (ix2 p q) + (Ideal.exp (Cert.Mvg.half * x2 (ix2 p 0)) * x1 (ix2 p q)) * Ideal.exp (Cert.Mvg.half * x3 (ix2 0 q)) := by
  unfold k2_pay1
  rw [shapeCast_self, shapeCast_self]
  rw [truncf_apply, addf_apply, mulf_apply, mulf_apply]
  rw [ValueLayout.broadcastTo_a1_ab_apply _ _ p q, broadcastTo_1b_ab_apply _ _ p q]
  rfl

/-- When the four loaded blocks hold, at `(p, q)`, row `p` and lane `q`, the entries of `M`, `eps`, `u` and `v` that
    belong to the array index `i`, the body's entry `(p, q)` is entry `i` of the weight matrix. -/
theorem body_entry_weight2 (M eps : (⟨2, ![4097, 4096]⟩ : Shape).Idx → EReal) (ucol : (⟨2, ![4097, 1]⟩ : Shape).Idx → EReal)
    (vrow : (⟨2, ![1, 4096]⟩ : Shape).Idx → EReal)
    (x0 x1 : Vec Ideal S4097x256 .f32) (x2 : Vec Ideal S4097x1 .f32) (x3 : Vec Ideal S1x256 .f32)
    (p : Fin 4097) (q : Fin 256) (i : (⟨2, ![4097, 4096]⟩ : Shape).Idx)
    (h0 : x0 (ix2 p q) = M i) (h1 : x1 (ix2 p q) = eps i) (h2 : x2 (ix2 p 0) = ucol (ix2 (i 0) 0))
    (h3 : x3 (ix2 0 q) = vrow (ix2 0 (i 1))) :
    k2_pay1 (F := Ideal) x0 x1 x2 x3 (ix2 p q) = Cert.Mvg.weightCR M eps ucol vrow i := by
  rw [body_entry2, h0, h1, h2, h3]
  rfl

/-! ## Where each block sits in its array -/

theorem zero_offsets2 : (![0, 0] : Fin 2 → Nat) = fun _ => 0 := funext fun a => by fin_cases a <;> rfl

/-- The block indices at point `t`: `M`, `eps`, `v` and the result are at column block `t`, on the one row block
    there is; the column `u` is read whole at every point. -/
theorem block_indices2 : ∀ t : Fin cfg2.N,
      win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = t.val
    ∧ win2_4.index t (0 : Fin 2) = 0 ∧ win2_4.index t (1 : Fin 2) = t.val :=
  (by decide +kernel : ∀ t : Fin grid2.N, _)

section Blocks

variable (V : (c : Dev nD) → (b : Ref sig .tc) → Buf (Elt Ideal) ((c : Thread nD τ).loc b))

/-- The block of `M` at point `t` holds, at `(p, q)`, the array's entry in row `p` and column `256 t + q`. -/
theorem mean_block2 (c : Dev nD) (t : Fin cfg2.N) (p : Fin 4097) (q : Fin 256) (k : S4097x4096.Idx)
    (hk0 : (k 0).val = p.val) (hk1 : (k 1).val = t.val * 256 + q.val) :
    (iblk2 (F := Ideal) V c 0 t : Vec Ideal S4097x256 .f32) (ix2 p q) = (V c main_arg5 : S4097x4096.Idx → EReal) k := by
  obtain ⟨e0, e1, -⟩ := block_indices2 t
  unfold iblk2
  rw [View.read_apply]
  show V c main_arg5 _ = V c main_arg5 _
  congr 1
  funext a
  apply Fin.ext
  match a with
  | ⟨0, _⟩ => show win2_0.index t 0 * 4097 + 1 * p.val = (k 0).val; rw [e0, hk0]; omega
  | ⟨1, _⟩ => show win2_0.index t 1 * 256 + 1 * q.val = (k 1).val; rw [e1, hk1]; omega

/-- The block of `eps` at point `t` holds, at `(p, q)`, the array's entry in row `p` and column `256 t + q`. -/
theorem noise_block2 (c : Dev nD) (t : Fin cfg2.N) (p : Fin 4097) (q : Fin 256) (k : S4097x4096.Idx)
    (hk0 : (k 0).val = p.val) (hk1 : (k 1).val = t.val * 256 + q.val) :
    (iblk2 (F := Ideal) V c 1 t : Vec Ideal S4097x256 .f32) (ix2 p q) = (V c main_arg8 : S4097x4096.Idx → EReal) k := by
  obtain ⟨-, -, e0, e1, -⟩ := block_indices2 t
  unfold iblk2
  rw [View.read_apply]
  show V c main_arg8 _ = V c main_arg8 _
  congr 1
  funext a
  apply Fin.ext
  match a with
  | ⟨0, _⟩ => show win2_1.index t 0 * 4097 + 1 * p.val = (k 0).val; rw [e0, hk0]; omega
  | ⟨1, _⟩ => show win2_1.index t 1 * 256 + 1 * q.val = (k 1).val; rw [e1, hk1]; omega

/-- The block of the column `u` is the whole column at every point: at `(p, 0)` it holds the entry of row `p`. -/
theorem column_block2 (c : Dev nD) (t : Fin cfg2.N) (p : Fin 4097) (k : S4097x1.Idx)
    (hk0 : (k 0).val = p.val) :
    (iblk2 (F := Ideal) V c 2 t : Vec Ideal S4097x1 .f32) (ix2 p 0) = (V c main_v4 : S4097x1.Idx → EReal) k := by
  obtain ⟨-, -, -, -, e0, e1, -⟩ := block_indices2 t
  have hk1 : (k 1).val = 0 := by have h : (k 1).val < 1 := (k 1).isLt; omega
  unfold iblk2
  rw [View.read_apply]
  show V c main_v4 _ = V c main_v4 _
  congr 1
  funext a
  apply Fin.ext
  match a with
  | ⟨0, _⟩ => show win2_2.index t 0 * 4097 + 1 * p.val = (k 0).val; rw [e0, hk0]; omega
  | ⟨1, _⟩ => show win2_2.index t 1 * 1 + 1 * 0 = (k 1).val; rw [e1, hk1]

/-- The block of the row `v` at point `t` holds, at `(0, q)`, the row's entry `256 t + q`. -/
theorem row_block2 (c : Dev nD) (t : Fin cfg2.N) (q : Fin 256) (k : S1x4096.Idx)
    (hk1 : (k 1).val = t.val * 256 + q.val) :
    (iblk2 (F := Ideal) V c 3 t : Vec Ideal S1x256 .f32) (ix2 0 q) = (V c main_v5 : S1x4096.Idx → EReal) k := by
  obtain ⟨-, -, -, -, -, -, e0, e1, -⟩ := block_indices2 t
  have hk0 : (k 0).val = 0 := by have h : (k 0).val < 1 := (k 0).isLt; omega
  unfold iblk2
  rw [View.read_apply]
  show V c main_v5 _ = V c main_v5 _
  congr 1
  funext a
  apply Fin.ext
  match a with
  | ⟨0, _⟩ => show win2_3.index t 0 * 1 + 1 * 0 = (k 0).val; rw [e0, hk0]
  | ⟨1, _⟩ => show win2_3.index t 1 * 256 + 1 * q.val = (k 1).val; rw [e1, hk1]; omega

/-! ## What a point writes, and the whole array -/

/-- What point `t` writes back is column block `t` of the weight matrix of the four arrays as the region finds
    them: the body's one store fills the block, each loaded block is read where the result's block sits, and entry
    by entry the body computes the weight. -/
theorem written_block2 (c : Dev nD) (t : Fin cfg2.N) :
    (dat2 (F := Ideal) V c).flushed 4 t
      = ((cfg2.win 4).blk t).view.read (Elt Ideal)
          (Cert.Mvg.weightCR (V c main_arg5) (V c main_arg8) (V c main_v4) (V c main_v5)) := by
  show (cfg2.win 4).cut (grid2.coords t) ((dat2 V c).after 4 t) = _
  rw [after2_4]
  unfold out2_4
  rw [View.canon_unit_zero zero_offsets2]
  simp only [View.ld_unit_zero (S := S4097x256) zero_offsets2, View.ld_unit_zero (S := S4097x1) zero_offsets2,
    View.ld_unit_zero (S := S1x256) zero_offsets2]
  obtain ⟨-, -, -, -, -, -, -, -, e0, e1⟩ := block_indices2 t
  refine funext fun (j : S4097x256.Idx) => ?_
  obtain ⟨p, q, rfl⟩ : ∃ (p : Fin 4097) (q : Fin 256), j = ix2 p q := ⟨j 0, j 1, eq_ix2 j⟩
  have hi0 : ((((cfg2.win 4).blk t).view.emb (ix2 p q) : S4097x4096.Idx) 0).val = p.val := by
    show win2_4.index t 0 * 4097 + 1 * p.val = p.val; rw [e0]; omega
  have hi1 : ((((cfg2.win 4).blk t).view.emb (ix2 p q) : S4097x4096.Idx) 1).val = t.val * 256 + q.val := by
    show win2_4.index t 1 * 256 + 1 * q.val = t.val * 256 + q.val; rw [e1]; omega
  exact body_entry_weight2 (V c main_arg5) (V c main_arg8) (V c main_v4) (V c main_v5)
    (iblk2 V c 0 t) (iblk2 V c 1 t) (iblk2 V c 2 t) (iblk2 V c 3 t) p q (((cfg2.win 4).blk t).view.emb (ix2 p q))
    (mean_block2 V c t p q _ hi0 hi1) (noise_block2 V c t p q _ hi0 hi1)
    (column_block2 V c t p _ hi0) (row_block2 V c t q _ hi1)

end Blocks

/-- An index of the result array is in point `t`'s block iff each coordinate is in the block's range on its axis. -/
theorem mem_written_block2 (t : Fin cfg2.N) (i : S4097x4096.Idx) :
    i ∈ ((cfg2.win 4).blk t).view.set ↔ ∀ a : Fin 2, win2_4.index t a * S4097x256.size a ≤ (i a).val ∧ (i a).val < win2_4.index t a * S4097x256.size a + S4097x256.size a := by
  show i ∈ ((View.whole main_v6).slice (win2_4.rect t)).set ↔ _
  rw [View.set_slice_whole, Rect.mem_set_unit]
  exact Iff.rfl

/-- The column blocks tile the array: column `n` is in the block of point `n / 256`, and every point writes back. -/
theorem written_blocks_cover2 (i : S4097x4096.Idx) :
    ∃ t : Fin cfg2.N, (cfg2.win 4).flush t = true ∧ i ∈ ((cfg2.win 4).blk t).view.set := by
  have hi0 : (i 0).val < 4097 := (i 0).isLt
  have hi1 : (i 1).val < 4096 := (i 1).isLt
  have hN : cfg2.N = 16 := N_2
  obtain ⟨t, ht⟩ : ∃ t : Fin cfg2.N, t.val = (i 1).val / 256 := ⟨⟨(i 1).val / 256, by rw [hN]; omega⟩, rfl⟩
  obtain ⟨-, -, -, -, -, -, -, -, e0, e1⟩ := block_indices2 t
  refine ⟨t, flush2_4 t, ?_⟩
  rw [mem_written_block2]
  intro a
  match a with
  | ⟨0, _⟩ => show win2_4.index t 0 * 4097 ≤ (i 0).val ∧ (i 0).val < win2_4.index t 0 * 4097 + 4097; rw [e0]; omega
  | ⟨1, _⟩ => show win2_4.index t 1 * 256 ≤ (i 1).val ∧ (i 1).val < win2_4.index t 1 * 256 + 256; rw [e1, ht]; omega

/-- After region 2 its output array holds the weight matrix of the four arrays it reads, whatever the buffers
    held when the region was entered. -/
theorem weights2 (V : (c : Dev nD) → (b : Ref sig .tc) → Buf (Elt Ideal) ((c : Thread nD τ).loc b)) (c : Dev nD) :
    (dat2 (F := Ideal) V c).arrAt 4 cfg2.N = Cert.Mvg.weightCR (V c main_arg5) (V c main_arg8) (V c main_v4) (V c main_v5) :=
  (dat2 (F := Ideal) V c).arrAt_eq_of_cover 4 (Cert.Mvg.weightCR (V c main_arg5) (V c main_arg8) (V c main_v4) (V c main_v5))
    (fun t _ => written_block2 V c t) written_blocks_cover2

end Cert.KernelIdeal.Regions

end
-- ==== Proof.Weights4.lean ====
/-
  The weight matrix of the third layer, formed column block by column block.

  The grid has 16 points. At point `t` the body reads columns `256 t … 256 t + 255` of the mean `M` and of the
  noise `eps`, the whole column `u` (one entry per row of the weight) and entries `256 t … 256 t + 255` of the row `v`
  (one entry per column of the weight), and writes the same columns of the result: with `n = 256 t + q`, entry `(p, q)`
  of the block it writes is
      M p n + (exp (u p / 2) · eps p n) · exp (v n / 2).
  The 16 column blocks tile the 4097 × 4096 array, so after the last point the array is
  `Cert.Mvg.weightCR M eps u v`, whatever the buffers held before. Nothing here asks any entry to be finite: the
  change of format at the end is the identity on extended reals, and no law of arithmetic is used.
-/
import proofs.«180564_j19851338842311_2_alg».proof.Proof.Gen.KernelIdeal.Frame
import proofs.«180564_j19851338842311_2_alg».proof.Proof.Spec
import proofs.«180564_j19851338842311_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

/-! ## One entry of the block the body writes -/

/-- Entry `(p, q)` of the body's result, from the four blocks it loads: the two casts of a shape to itself are the
    identity, the column `[4097, 1]` broadcast over the lanes reads its row `p`, the row `[1, 256]` broadcast over the
    rows reads its lane `q`, and the last change of format is the identity. -/
theorem body_entry4 (x0 x1 : Vec Ideal S4097x256 .f32) (x2 : Vec Ideal S4097x1 .f32) (x3 : Vec Ideal S1x256 .f32)
    (p : Fin 4097) (q : Fin 256) :
    k4_pay1 (F := Ideal) x0 x1 x2 x3 (ix2 p q)
      = x0 (ix2 p q) + (Ideal.exp (Cert.Mvg.half * x2 (ix2 p 0)) * x1 (ix2 p q)) * Ideal.exp (Cert.Mvg.half * x3 (ix2 0 q)) := by
  unfold k4_pay1
  rw [shapeCast_self, shapeCast_self]
  rw [truncf_apply, addf_apply, mulf_apply, mulf_apply]
  rw [ValueLayout.broadcastTo_a1_ab_apply _ _ p q, broadcastTo_1b_ab_apply _ _ p q]
  rfl

/-- When the four loaded blocks hold, at `(p, q)`, row `p` and lane `q`, the entries of `M`, `eps`, `u` and `v` that
    belong to the array index `i`, the body's entry `(p, q)` is entry `i` of the weight matrix. -/
theorem body_entry_weight4 (M eps : (⟨2, ![4097, 4096]⟩ : Shape).Idx → EReal) (ucol : (⟨2, ![4097, 1]⟩ : Shape).Idx → EReal)
    (vrow : (⟨2, ![1, 4096]⟩ : Shape).Idx → EReal)
    (x0 x1 : Vec Ideal S4097x256 .f32) (x2 : Vec Ideal S4097x1 .f32) (x3 : Vec Ideal S1x256 .f32)
    (p : Fin 4097) (q : Fin 256) (i : (⟨2, ![4097, 4096]⟩ : Shape).Idx)
    (h0 : x0 (ix2 p q) = M i) (h1 : x1 (ix2 p q) = eps i) (h2 : x2 (ix2 p 0) = ucol (ix2 (i 0) 0))
    (h3 : x3 (ix2 0 q) = vrow (ix2 0 (i 1))) :
    k4_pay1 (F := Ideal) x0 x1 x2 x3 (ix2 p q) = Cert.Mvg.weightCR M eps ucol vrow i := by
  rw [body_entry4, h0, h1, h2, h3]
  rfl

/-! ## Where each block sits in its array -/

theorem zero_offsets4 : (![0, 0] : Fin 2 → Nat) = fun _ => 0 := funext fun a => by fin_cases a <;> rfl

/-- The block indices at point `t`: `M`, `eps`, `v` and the result are at column block `t`, on the one row block
    there is; the column `u` is read whole at every point. -/
theorem block_indices4 : ∀ t : Fin cfg4.N,
      win4_0.index t (0 : Fin 2) = 0 ∧ win4_0.index t (1 : Fin 2) = t.val
    ∧ win4_1.index t (0 : Fin 2) = 0 ∧ win4_1.index t (1 : Fin 2) = t.val
    ∧ win4_2.index t (0 : Fin 2) = 0 ∧ win4_2.index t (1 : Fin 2) = 0
    ∧ win4_3.index t (0 : Fin 2) = 0 ∧ win4_3.index t (1 : Fin 2) = t.val
    ∧ win4_4.index t (0 : Fin 2) = 0 ∧ win4_4.index t (1 : Fin 2) = t.val :=
  (by decide +kernel : ∀ t : Fin grid4.N, _)

section Blocks

variable (V : (c : Dev nD) → (b : Ref sig .tc) → Buf (Elt Ideal) ((c : Thread nD τ).loc b))

/-- The block of `M` at point `t` holds, at `(p, q)`, the array's entry in row `p` and column `256 t + q`. -/
theorem mean_block4 (c : Dev nD) (t : Fin cfg4.N) (p : Fin 4097) (q : Fin 256) (k : S4097x4096.Idx)
    (hk0 : (k 0).val = p.val) (hk1 : (k 1).val = t.val * 256 + q.val) :
    (iblk4 (F := Ideal) V c 0 t : Vec Ideal S4097x256 .f32) (ix2 p q) = (V c main_arg9 : S4097x4096.Idx → EReal) k := by
  obtain ⟨e0, e1, -⟩ := block_indices4 t
  unfold iblk4
  rw [View.read_apply]
  show V c main_arg9 _ = V c main_arg9 _
  congr 1
  funext a
  apply Fin.ext
  match a with
  | ⟨0, _⟩ => show win4_0.index t 0 * 4097 + 1 * p.val = (k 0).val; rw [e0, hk0]; omega
  | ⟨1, _⟩ => show win4_0.index t 1 * 256 + 1 * q.val = (k 1).val; rw [e1, hk1]; omega

/-- The block of `eps` at point `t` holds, at `(p, q)`, the array's entry in row `p` and column `256 t + q`. -/
theorem noise_block4 (c : Dev nD) (t : Fin cfg4.N) (p : Fin 4097) (q : Fin 256) (k : S4097x4096.Idx)
    (hk0 : (k 0).val = p.val) (hk1 : (k 1).val = t.val * 256 + q.val) :
    (iblk4 (F := Ideal) V c 1 t : Vec Ideal S4097x256 .f32) (ix2 p q) = (V c main_arg12 : S4097x4096.Idx → EReal) k := by
  obtain ⟨-, -, e0, e1, -⟩ := block_indices4 t
  unfold iblk4
  rw [View.read_apply]
  show V c main_arg12 _ = V c main_arg12 _
  congr 1
  funext a
  apply Fin.ext
  match a with
  | ⟨0, _⟩ => show win4_1.index t 0 * 4097 + 1 * p.val = (k 0).val; rw [e0, hk0]; omega
  | ⟨1, _⟩ => show win4_1.index t 1 * 256 + 1 * q.val = (k 1).val; rw [e1, hk1]; omega

/-- The block of the column `u` is the whole column at every point: at `(p, 0)` it holds the entry of row `p`. -/
theorem column_block4 (c : Dev nD) (t : Fin cfg4.N) (p : Fin 4097) (k : S4097x1.Idx)
    (hk0 : (k 0).val = p.val) :
    (iblk4 (F := Ideal) V c 2 t : Vec Ideal S4097x1 .f32) (ix2 p 0) = (V c main_v8 : S4097x1.Idx → EReal) k := by
  obtain ⟨-, -, -, -, e0, e1, -⟩ := block_indices4 t
  have hk1 : (k 1).val = 0 := by have h : (k 1).val < 1 := (k 1).isLt; omega
  unfold iblk4
  rw [View.read_apply]
  show V c main_v8 _ = V c main_v8 _
  congr 1
  funext a
  apply Fin.ext
  match a with
  | ⟨0, _⟩ => show win4_2.index t 0 * 4097 + 1 * p.val = (k 0).val; rw [e0, hk0]; omega
  | ⟨1, _⟩ => show win4_2.index t 1 * 1 + 1 * 0 = (k 1).val; rw [e1, hk1]

/-- The block of the row `v` at point `t` holds, at `(0, q)`, the row's entry `256 t + q`. -/
theorem row_block4 (c : Dev nD) (t : Fin cfg4.N) (q : Fin 256) (k : S1x4096.Idx)
    (hk1 : (k 1).val = t.val * 256 + q.val) :
    (iblk4 (F := Ideal) V c 3 t : Vec Ideal S1x256 .f32) (ix2 0 q) = (V c main_v9 : S1x4096.Idx → EReal) k := by
  obtain ⟨-, -, -, -, -, -, e0, e1, -⟩ := block_indices4 t
  have hk0 : (k 0).val = 0 := by have h : (k 0).val < 1 := (k 0).isLt; omega
  unfold iblk4
  rw [View.read_apply]
  show V c main_v9 _ = V c main_v9 _
  congr 1
  funext a
  apply Fin.ext
  match a with
  | ⟨0, _⟩ => show win4_3.index t 0 * 1 + 1 * 0 = (k 0).val; rw [e0, hk0]
  | ⟨1, _⟩ => show win4_3.index t 1 * 256 + 1 * q.val = (k 1).val; rw [e1, hk1]; omega

/-! ## What a point writes, and the whole array -/

/-- What point `t` writes back is column block `t` of the weight matrix of the four arrays as the region finds
    them: the body's one store fills the block, each loaded block is read where the result's block sits, and entry
    by entry the body computes the weight. -/
theorem written_block4 (c : Dev nD) (t : Fin cfg4.N) :
    (dat4 (F := Ideal) V c).flushed 4 t
      = ((cfg4.win 4).blk t).view.read (Elt Ideal)
          (Cert.Mvg.weightCR (V c main_arg9) (V c main_arg12) (V c main_v8) (V c main_v9)) := by
  show (cfg4.win 4).cut (grid4.coords t) ((dat4 V c).after 4 t) = _
  rw [after4_4]
  unfold out4_4
  rw [View.canon_unit_zero zero_offsets4]
  simp only [View.ld_unit_zero (S := S4097x256) zero_offsets4, View.ld_unit_zero (S := S4097x1) zero_offsets4,
    View.ld_unit_zero (S := S1x256) zero_offsets4]
  obtain ⟨-, -, -, -, -, -, -, -, e0, e1⟩ := block_indices4 t
  refine funext fun (j : S4097x256.Idx) => ?_
  obtain ⟨p, q, rfl⟩ : ∃ (p : Fin 4097) (q : Fin 256), j = ix2 p q := ⟨j 0, j 1, eq_ix2 j⟩
  have hi0 : ((((cfg4.win 4).blk t).view.emb (ix2 p q) : S4097x4096.Idx) 0).val = p.val := by
    show win4_4.index t 0 * 4097 + 1 * p.val = p.val; rw [e0]; omega
  have hi1 : ((((cfg4.win 4).blk t).view.emb (ix2 p q) : S4097x4096.Idx) 1).val = t.val * 256 + q.val := by
    show win4_4.index t 1 * 256 + 1 * q.val = t.val * 256 + q.val; rw [e1]; omega
  exact body_entry_weight4 (V c main_arg9) (V c main_arg12) (V c main_v8) (V c main_v9)
    (iblk4 V c 0 t) (iblk4 V c 1 t) (iblk4 V c 2 t) (iblk4 V c 3 t) p q (((cfg4.win 4).blk t).view.emb (ix2 p q))
    (mean_block4 V c t p q _ hi0 hi1) (noise_block4 V c t p q _ hi0 hi1)
    (column_block4 V c t p _ hi0) (row_block4 V c t q _ hi1)

end Blocks

/-- An index of the result array is in point `t`'s block iff each coordinate is in the block's range on its axis. -/
theorem mem_written_block4 (t : Fin cfg4.N) (i : S4097x4096.Idx) :
    i ∈ ((cfg4.win 4).blk t).view.set ↔ ∀ a : Fin 2, win4_4.index t a * S4097x256.size a ≤ (i a).val ∧ (i a).val < win4_4.index t a * S4097x256.size a + S4097x256.size a := by
  show i ∈ ((View.whole main_v10).slice (win4_4.rect t)).set ↔ _
  rw [View.set_slice_whole, Rect.mem_set_unit]
  exact Iff.rfl

/-- The column blocks tile the array: column `n` is in the block of point `n / 256`, and every point writes back. -/
theorem written_blocks_cover4 (i : S4097x4096.Idx) :
    ∃ t : Fin cfg4.N, (cfg4.win 4).flush t = true ∧ i ∈ ((cfg4.win 4).blk t).view.set := by
  have hi0 : (i 0).val < 4097 := (i 0).isLt
  have hi1 : (i 1).val < 4096 := (i 1).isLt
  have hN : cfg4.N = 16 := N_4
  obtain ⟨t, ht⟩ : ∃ t : Fin cfg4.N, t.val = (i 1).val / 256 := ⟨⟨(i 1).val / 256, by rw [hN]; omega⟩, rfl⟩
  obtain ⟨-, -, -, -, -, -, -, -, e0, e1⟩ := block_indices4 t
  refine ⟨t, flush4_4 t, ?_⟩
  rw [mem_written_block4]
  intro a
  match a with
  | ⟨0, _⟩ => show win4_4.index t 0 * 4097 ≤ (i 0).val ∧ (i 0).val < win4_4.index t 0 * 4097 + 4097; rw [e0]; omega
  | ⟨1, _⟩ => show win4_4.index t 1 * 256 ≤ (i 1).val ∧ (i 1).val < win4_4.index t 1 * 256 + 256; rw [e1, ht]; omega

/-- After region 4 its output array holds the weight matrix of the four arrays it reads, whatever the buffers
    held when the region was entered. -/
theorem weights4 (V : (c : Dev nD) → (b : Ref sig .tc) → Buf (Elt Ideal) ((c : Thread nD τ).loc b)) (c : Dev nD) :
    (dat4 (F := Ideal) V c).arrAt 4 cfg4.N = Cert.Mvg.weightCR (V c main_arg9) (V c main_arg12) (V c main_v8) (V c main_v9) :=
  (dat4 (F := Ideal) V c).arrAt_eq_of_cover 4 (Cert.Mvg.weightCR (V c main_arg9) (V c main_arg12) (V c main_v8) (V c main_v9))
    (fun t _ => written_block4 V c t) written_blocks_cover4

end Cert.KernelIdeal.Regions

end
-- ==== Proof.Weights6.lean ====
/-
  The weight matrix of the fourth layer, formed column block by column block.

  The grid has 8 points. At point `t` the body reads columns `256 t … 256 t + 255` of the mean `M` and of the
  noise `eps`, the whole column `u` (one entry per row of the weight) and entries `256 t … 256 t + 255` of the row `v`
  (one entry per column of the weight), and writes the same columns of the result: with `n = 256 t + q`, entry `(p, q)`
  of the block it writes is
      M p n + (exp (u p / 2) · eps p n) · exp (v n / 2).
  The 8 column blocks tile the 4097 × 2048 array, so after the last point the array is
  `Cert.Mvg.weightCR M eps u v`, whatever the buffers held before. Nothing here asks any entry to be finite: the
  change of format at the end is the identity on extended reals, and no law of arithmetic is used.
-/
import proofs.«180564_j19851338842311_2_alg».proof.Proof.Gen.KernelIdeal.Frame
import proofs.«180564_j19851338842311_2_alg».proof.Proof.Spec
import proofs.«180564_j19851338842311_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen

/-! ## One entry of the block the body writes -/

/-- Entry `(p, q)` of the body's result, from the four blocks it loads: the two casts of a shape to itself are the
    identity, the column `[4097, 1]` broadcast over the lanes reads its row `p`, the row `[1, 256]` broadcast over the
    rows reads its lane `q`, and the last change of format is the identity. -/
theorem body_entry6 (x0 x1 : Vec Ideal S4097x256 .f32) (x2 : Vec Ideal S4097x1 .f32) (x3 : Vec Ideal S1x256 .f32)
    (p : Fin 4097) (q : Fin 256) :
    k6_pay1 (F := Ideal) x0 x1 x2 x3 (ix2 p q)
      = x0 (ix2 p q) + (Ideal.exp (Cert.Mvg.half * x2 (ix2 p 0)) * x1 (ix2 p q)) * Ideal.exp (Cert.Mvg.half * x3 (ix2 0 q)) := by
  unfold k6_pay1
  rw [shapeCast_self, shapeCast_self]
  rw [truncf_apply, addf_apply, mulf_apply, mulf_apply]
  rw [ValueLayout.broadcastTo_a1_ab_apply _ _ p q, broadcastTo_1b_ab_apply _ _ p q]
  rfl

/-- When the four loaded blocks hold, at `(p, q)`, row `p` and lane `q`, the entries of `M`, `eps`, `u` and `v` that
    belong to the array index `i`, the body's entry `(p, q)` is entry `i` of the weight matrix. -/
theorem body_entry_weight6 (M eps : (⟨2, ![4097, 2048]⟩ : Shape).Idx → EReal) (ucol : (⟨2, ![4097, 1]⟩ : Shape).Idx → EReal)
    (vrow : (⟨2, ![1, 2048]⟩ : Shape).Idx → EReal)
    (x0 x1 : Vec Ideal S4097x256 .f32) (x2 : Vec Ideal S4097x1 .f32) (x3 : Vec Ideal S1x256 .f32)
    (p : Fin 4097) (q : Fin 256) (i : (⟨2, ![4097, 2048]⟩ : Shape).Idx)
    (h0 : x0 (ix2 p q) = M i) (h1 : x1 (ix2 p q) = eps i) (h2 : x2 (ix2 p 0) = ucol (ix2 (i 0) 0))
    (h3 : x3 (ix2 0 q) = vrow (ix2 0 (i 1))) :
    k6_pay1 (F := Ideal) x0 x1 x2 x3 (ix2 p q) = Cert.Mvg.weightCR M eps ucol vrow i := by
  rw [body_entry6, h0, h1, h2, h3]
  rfl

/-! ## Where each block sits in its array -/

theorem zero_offsets6 : (![0, 0] : Fin 2 → Nat) = fun _ => 0 := funext fun a => by fin_cases a <;> rfl

/-- The block indices at point `t`: `M`, `eps`, `v` and the result are at column block `t`, on the one row block
    there is; the column `u` is read whole at every point. -/
theorem block_indices6 : ∀ t : Fin cfg6.N,
      win6_0.index t (0 : Fin 2) = 0 ∧ win6_0.index t (1 : Fin 2) = t.val
    ∧ win6_1.index t (0 : Fin 2) = 0 ∧ win6_1.index t (1 : Fin 2) = t.val
    ∧ win6_2.index t (0 : Fin 2) = 0 ∧ win6_2.index t (1 : Fin 2) = 0
    ∧ win6_3.index t (0 : Fin 2) = 0 ∧ win6_3.index t (1 : Fin 2) = t.val
    ∧ win6_4.index t (0 : Fin 2) = 0 ∧ win6_4.index t (1 : Fin 2) = t.val :=
  (by decide +kernel : ∀ t : Fin grid6.N, _)

section Blocks

variable (V : (c : Dev nD) → (b : Ref sig .tc) → Buf (Elt Ideal) ((c : Thread nD τ).loc b))

/-- The block of `M` at point `t` holds, at `(p, q)`, the array's entry in row `p` and column `256 t + q`. -/
theorem mean_block6 (c : Dev nD) (t : Fin cfg6.N) (p : Fin 4097) (q : Fin 256) (k : S4097x2048.Idx)
    (hk0 : (k 0).val = p.val) (hk1 : (k 1).val = t.val * 256 + q.val) :
    (iblk6 (F := Ideal) V c 0 t : Vec Ideal S4097x256 .f32) (ix2 p q) = (V c main_arg13 : S4097x2048.Idx → EReal) k := by
  obtain ⟨e0, e1, -⟩ := block_indices6 t
  unfold iblk6
  rw [View.read_apply]
  show V c main_arg13 _ = V c main_arg13 _
  congr 1
  funext a
  apply Fin.ext
  match a with
  | ⟨0, _⟩ => show win6_0.index t 0 * 4097 + 1 * p.val = (k 0).val; rw [e0, hk0]; omega
  | ⟨1, _⟩ => show win6_0.index t 1 * 256 + 1 * q.val = (k 1).val; rw [e1, hk1]; omega

/-- The block of `eps` at point `t` holds, at `(p, q)`, the array's entry in row `p` and column `256 t + q`. -/
theorem noise_block6 (c : Dev nD) (t : Fin cfg6.N) (p : Fin 4097) (q : Fin 256) (k : S4097x2048.Idx)
    (hk0 : (k 0).val = p.val) (hk1 : (k 1).val = t.val * 256 + q.val) :
    (iblk6 (F := Ideal) V c 1 t : Vec Ideal S4097x256 .f32) (ix2 p q) = (V c main_arg16 : S4097x2048.Idx → EReal) k := by
  obtain ⟨-, -, e0, e1, -⟩ := block_indices6 t
  unfold iblk6
  rw [View.read_apply]
  show V c main_arg16 _ = V c main_arg16 _
  congr 1
  funext a
  apply Fin.ext
  match a with
  | ⟨0, _⟩ => show win6_1.index t 0 * 4097 + 1 * p.val = (k 0).val; rw [e0, hk0]; omega
  | ⟨1, _⟩ => show win6_1.index t 1 * 256 + 1 * q.val = (k 1).val; rw [e1, hk1]; omega

/-- The block of the column `u` is the whole column at every point: at `(p, 0)` it holds the entry of row `p`. -/
theorem column_block6 (c : Dev nD) (t : Fin cfg6.N) (p : Fin 4097) (k : S4097x1.Idx)
    (hk0 : (k 0).val = p.val) :
    (iblk6 (F := Ideal) V c 2 t : Vec Ideal S4097x1 .f32) (ix2 p 0) = (V c main_v12 : S4097x1.Idx → EReal) k := by
  obtain ⟨-, -, -, -, e0, e1, -⟩ := block_indices6 t
  have hk1 : (k 1).val = 0 := by have h : (k 1).val < 1 := (k 1).isLt; omega
  unfold iblk6
  rw [View.read_apply]
  show V c main_v12 _ = V c main_v12 _
  congr 1
  funext a
  apply Fin.ext
  match a with
  | ⟨0, _⟩ => show win6_2.index t 0 * 4097 + 1 * p.val = (k 0).val; rw [e0, hk0]; omega
  | ⟨1, _⟩ => show win6_2.index t 1 * 1 + 1 * 0 = (k 1).val; rw [e1, hk1]

/-- The block of the row `v` at point `t` holds, at `(0, q)`, the row's entry `256 t + q`. -/
theorem row_block6 (c : Dev nD) (t : Fin cfg6.N) (q : Fin 256) (k : S1x2048.Idx)
    (hk1 : (k 1).val = t.val * 256 + q.val) :
    (iblk6 (F := Ideal) V c 3 t : Vec Ideal S1x256 .f32) (ix2 0 q) = (V c main_v13 : S1x2048.Idx → EReal) k := by
  obtain ⟨-, -, -, -, -, -, e0, e1, -⟩ := block_indices6 t
  have hk0 : (k 0).val = 0 := by have h : (k 0).val < 1 := (k 0).isLt; omega
  unfold iblk6
  rw [View.read_apply]
  show V c main_v13 _ = V c main_v13 _
  congr 1
  funext a
  apply Fin.ext
  match a with
  | ⟨0, _⟩ => show win6_3.index t 0 * 1 + 1 * 0 = (k 0).val; rw [e0, hk0]
  | ⟨1, _⟩ => show win6_3.index t 1 * 256 + 1 * q.val = (k 1).val; rw [e1, hk1]; omega

/-! ## What a point writes, and the whole array -/

/-- What point `t` writes back is column block `t` of the weight matrix of the four arrays as the region finds
    them: the body's one store fills the block, each loaded block is read where the result's block sits, and entry
    by entry the body computes the weight. -/
theorem written_block6 (c : Dev nD) (t : Fin cfg6.N) :
    (dat6 (F := Ideal) V c).flushed 4 t
      = ((cfg6.win 4).blk t).view.read (Elt Ideal)
          (Cert.Mvg.weightCR (V c main_arg13) (V c main_arg16) (V c main_v12) (V c main_v13)) := by
  show (cfg6.win 4).cut (grid6.coords t) ((dat6 V c).after 4 t) = _
  rw [after6_4]
  unfold out6_4
  rw [View.canon_unit_zero zero_offsets6]
  simp only [View.ld_unit_zero (S := S4097x256) zero_offsets6, View.ld_unit_zero (S := S4097x1) zero_offsets6,
    View.ld_unit_zero (S := S1x256) zero_offsets6]
  obtain ⟨-, -, -, -, -, -, -, -, e0, e1⟩ := block_indices6 t
  refine funext fun (j : S4097x256.Idx) => ?_
  obtain ⟨p, q, rfl⟩ : ∃ (p : Fin 4097) (q : Fin 256), j = ix2 p q := ⟨j 0, j 1, eq_ix2 j⟩
  have hi0 : ((((cfg6.win 4).blk t).view.emb (ix2 p q) : S4097x2048.Idx) 0).val = p.val := by
    show win6_4.index t 0 * 4097 + 1 * p.val = p.val; rw [e0]; omega
  have hi1 : ((((cfg6.win 4).blk t).view.emb (ix2 p q) : S4097x2048.Idx) 1).val = t.val * 256 + q.val := by
    show win6_4.index t 1 * 256 + 1 * q.val = t.val * 256 + q.val; rw [e1]; omega
  exact body_entry_weight6 (V c main_arg13) (V c main_arg16) (V c main_v12) (V c main_v13)
    (iblk6 V c 0 t) (iblk6 V c 1 t) (iblk6 V c 2 t) (iblk6 V c 3 t) p q (((cfg6.win 4).blk t).view.emb (ix2 p q))
    (mean_block6 V c t p q _ hi0 hi1) (noise_block6 V c t p q _ hi0 hi1)
    (column_block6 V c t p _ hi0) (row_block6 V c t q _ hi1)

end Blocks

/-- An index of the result array is in point `t`'s block iff each coordinate is in the block's range on its axis. -/
theorem mem_written_block6 (t : Fin cfg6.N) (i : S4097x2048.Idx) :
    i ∈ ((cfg6.win 4).blk t).view.set ↔ ∀ a : Fin 2, win6_4.index t a * S4097x256.size a ≤ (i a).val ∧ (i a).val < win6_4.index t a * S4097x256.size a + S4097x256.size a := by
  show i ∈ ((View.whole main_v14).slice (win6_4.rect t)).set ↔ _
  rw [View.set_slice_whole, Rect.mem_set_unit]
  exact Iff.rfl

/-- The column blocks tile the array: column `n` is in the block of point `n / 256`, and every point writes back. -/
theorem written_blocks_cover6 (i : S4097x2048.Idx) :
    ∃ t : Fin cfg6.N, (cfg6.win 4).flush t = true ∧ i ∈ ((cfg6.win 4).blk t).view.set := by
  have hi0 : (i 0).val < 4097 := (i 0).isLt
  have hi1 : (i 1).val < 2048 := (i 1).isLt
  have hN : cfg6.N = 8 := N_6
  obtain ⟨t, ht⟩ : ∃ t : Fin cfg6.N, t.val = (i 1).val / 256 := ⟨⟨(i 1).val / 256, by rw [hN]; omega⟩, rfl⟩
  obtain ⟨-, -, -, -, -, -, -, -, e0, e1⟩ := block_indices6 t
  refine ⟨t, flush6_4 t, ?_⟩
  rw [mem_written_block6]
  intro a
  match a with
  | ⟨0, _⟩ => show win6_4.index t 0 * 4097 ≤ (i 0).val ∧ (i 0).val < win6_4.index t 0 * 4097 + 4097; rw [e0]; omega
  | ⟨1, _⟩ => show win6_4.index t 1 * 256 ≤ (i 1).val ∧ (i 1).val < win6_4.index t 1 * 256 + 256; rw [e1, ht]; omega

/-- After region 6 its output array holds the weight matrix of the four arrays it reads, whatever the buffers
    held when the region was entered. -/
theorem weights6 (V : (c : Dev nD) → (b : Ref sig .tc) → Buf (Elt Ideal) ((c : Thread nD τ).loc b)) (c : Dev nD) :
    (dat6 (F := Ideal) V c).arrAt 4 cfg6.N = Cert.Mvg.weightCR (V c main_arg13) (V c main_arg16) (V c main_v12) (V c main_v13) :=
  (dat6 (F := Ideal) V c).arrAt_eq_of_cover 4 (Cert.Mvg.weightCR (V c main_arg13) (V c main_arg16) (V c main_v12) (V c main_v13))
    (fun t _ => written_block6 V c t) written_blocks_cover6

end Cert.KernelIdeal.Regions

end
-- ==== Proof.Layer1.lean ====
/-
  Region 1 applies one layer to the batch.

  The region walks a grid of 4 × 32 = 128 points. At a point it holds a block `x` of 256 rows of the batch (all 2048
  features), a block `w` of 1024 columns of the weight matrix (all 2049 rows) and writes a [256, 1024] block of the
  output. Its arithmetic on the two blocks is: the product of `x` with the first 2048 rows of `w`, accumulated
  into zero; plus the last row of `w`, repeated down the 256 rows; then the maximum with zero. On the extended reals a
  change of float format is the identity and the product into zero is the plain sum over the shared axis, so at
  entry (p, q) of the block this is
      max ((Σ_{k < 2048} x p k · w k q) + w 2048 q) 0                                        (`block_value`).
  The batch block's rows are the output block's rows and the weight block's columns are the output block's
  columns, so that number is the layer's result on the whole arrays at the entry the block's (p, q) stands for
  (`block_of_layer`, `written_block`). The output's blocks tile its array (`blocks_cover`), hence after the region
  the array is the layer's result everywhere (`layer1`).
-/
import proofs.«180564_j19851338842311_2_alg».proof.Proof.Gen.KernelIdeal.Frame
import proofs.«180564_j19851338842311_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Cert.KernelIdeal Cert.KernelIdeal.Gen
open scoped BigOperators

namespace Cert.KernelIdeal.Regions.Layer1

/-! ## The body's arithmetic at an entry of the block -/

/-- The first operand's index, for output entry `i` and a summation index `r`, has `i`'s row on axis 0 … -/
theorem matmul_lhs_row (i : S256x1024.Idx) (r : dot_S256x2048_S2048x1024_S256x1024_1_0_0_1_n_n.contr.Idx) :
    (dot_S256x2048_S2048x1024_S256x1024_1_0_0_1_n_n.lhsIdx i r 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
/-- … and the summation index on axis 1. -/
theorem matmul_lhs_col (i : S256x1024.Idx) (r : dot_S256x2048_S2048x1024_S256x1024_1_0_0_1_n_n.contr.Idx) :
    (dot_S256x2048_S2048x1024_S256x1024_1_0_0_1_n_n.lhsIdx i r 1).val = (r ⟨0, by decide⟩).val :=
  dot_S256x2048_S2048x1024_S256x1024_1_0_0_1_n_n.lhsIdx_val_of_single rfl i r
/-- The second operand's index has the summation index on axis 0 … -/
theorem matmul_rhs_row (i : S256x1024.Idx) (r : dot_S256x2048_S2048x1024_S256x1024_1_0_0_1_n_n.contr.Idx) :
    (dot_S256x2048_S2048x1024_S256x1024_1_0_0_1_n_n.rhsIdx i r 0).val = (r ⟨0, by decide⟩).val :=
  dot_S256x2048_S2048x1024_S256x1024_1_0_0_1_n_n.rhsIdx_val_of_single rfl i r
/-- … and `i`'s column on axis 1. -/
theorem matmul_rhs_col (i : S256x1024.Idx) (r : dot_S256x2048_S2048x1024_S256x1024_1_0_0_1_n_n.contr.Idx) :
    (dot_S256x2048_S2048x1024_S256x1024_1_0_0_1_n_n.rhsIdx i r 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The product of a [256, 2048] block with a [2048, 1024] block, accumulated into zero, at entry (p, q): the sum over
    the shared axis of the products of row `p` of the first with column `q` of the second. -/
theorem matmul_entry (a : FVec Ideal S256x2048 .bf16) (b : FVec Ideal S2048x1024 .bf16) (p : Fin 256) (q : Fin 1024) :
    matmul dot_S256x2048_S2048x1024_S256x1024_1_0_0_1_n_n none a b (constant (F := Ideal) S256x1024 .f32 0x00000000#32) (ix2 p q)
      = ∑ k : Fin 2048, a (ix2 p k) * b (ix2 k q) := by
  simp only [matmul]
  rw [Ideal.matmul_constant_zero_apply, ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 p q) ((ValueIdx.contrEquiv1 dot_S256x2048_S2048x1024_S256x1024_1_0_0_1_n_n 2048 rfl rfl).symm k) = ix2 p k :=
    funext fun ax => Fin.ext (by
      match ax with
      | ⟨0, _⟩ => exact matmul_lhs_row _ _
      | ⟨1, _⟩ => exact (matmul_lhs_col _ _).trans hk)
  have er : dot_S256x2048_S2048x1024_S256x1024_1_0_0_1_n_n.rhsIdx (ix2 p q) ((ValueIdx.contrEquiv1 dot_S256x2048_S2048x1024_S256x1024_1_0_0_1_n_n 2048 rfl rfl).symm k) = ix2 k q :=
    funext fun ax => Fin.ext (by
      match ax with
      | ⟨0, _⟩ => exact (matmul_rhs_row _ _).trans hk
      | ⟨1, _⟩ => exact matmul_rhs_col _ _)
  rw [el, er]

/-- The body's arithmetic on a batch block `x` [256, 2048] and a weight block `w` [2049, 1024], at entry (p, q) of the
    output block: row `p` of `x` against the first 2048 rows of column `q` of `w`, plus the last row of that column, the
    negative part cut off. Changing the float format does nothing on the extended reals. -/
theorem block_value (x : Vec Ideal S256x2048 .f32) (w : Vec Ideal S2049x1024 .bf16) (p : Fin 256) (q : Fin 1024) :
    k1_pay1 (F := Ideal) x w (ix2 p q)
      = max ((∑ k : Fin 2048, x (ix2 p k) * w (ix2 k.castSucc q)) + w (ix2 (Fin.last 2048) q))
          (Ideal.ofBits .f32 0x00000000#32) := by
  unfold k1_pay1
  simp only [truncf_apply, maximumf_apply, addf_apply, broadcast_apply, shapeCast_self]
  refine congrArg₂ max (congrArg₂ (· + ·) ?_ ?_) rfl
  · refine (matmul_entry _ _ p q).trans (Finset.sum_congr rfl fun k _ => ?_)
    exact congrArg (x (ix2 p k) * ·) (slice2_axis0_apply 0 w slices_S2049x1024_o0_0_S2048x1024 k q k.castSucc (by simp))
  · refine (broadcastTo_1b_ab_apply _ broadcasts_S1x1024_S256x1024 p q).trans ?_
    exact slice2_axis0_apply 2048 w slices_S2049x1024_o2048_0_S1x1024 (0 : Fin 1) q (Fin.last 2048) (by simp)

/-- A block of the layer's result. If `x` is the block of the batch `X` whose rows start at row `r · 256`, and `w` the block
    of the weight `W` whose columns start at column `s · 1024`, then the body's arithmetic on `x` and `w` at `j` is the
    layer's result on `X` and `W` at the entry `i` that lies `j` inside the block (r, s). -/
theorem block_of_layer (X : S8192x2048.Idx → EReal) (W : S2049x4096.Idx → EReal)
    (x : Vec Ideal S256x2048 .f32) (w : Vec Ideal S2049x1024 .bf16) (r s : Nat)
    (hx : ∀ (p : Fin 256) (k : Fin 2048) (P : Fin 8192), P.val = r * 256 + p.val → x (ix2 p k) = X (ix2 P k))
    (hw : ∀ (k : Fin 2049) (q : Fin 1024) (Q : Fin 4096), Q.val = s * 1024 + q.val → w (ix2 k q) = W (ix2 k Q))
    (j : S256x1024.Idx) (i : S8192x4096.Idx) (h0 : (i 0).val = r * 256 + (j 0).val) (h1 : (i 1).val = s * 1024 + (j 1).val) :
    k1_pay1 (F := Ideal) x w j = Cert.Mvg.relu (Cert.Mvg.affine 2048 X W) i := by
  obtain ⟨p, q, rfl⟩ : ∃ (p : Fin 256) (q : Fin 1024), j = ix2 p q := ⟨j 0, j 1, eq_ix2 j⟩
  refine (block_value x w p q).trans ?_
  refine congrArg₂ max (congrArg₂ (· + ·) (Finset.sum_congr rfl fun k _ => ?_) ?_) rfl
  · exact congrArg₂ (· * ·) (hx p k (i 0) h0) (hw k.castSucc q (i 1) h1)
  · exact hw (Fin.last 2048) q (i 1) h1

/-! ## From the blocks to the array -/

/-- Two spellings of the zero offsets. -/
theorem offsets_zero : (![0, 0] : Fin 2 → Nat) = fun _ => 0 := funext fun a => by fin_cases a <;> rfl

/-- Where the three windows' blocks sit at each grid point, decided over the grid: the batch's row block is the
    output's row block and it spans the whole feature axis; the weight spans all its rows and its column block is
    the output's column block; and the output's block indices stay in their ranges. -/
theorem block_positions : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 31
    ∧ win1_2.index t (1 : Fin 2) ≤ 3 :=
  (by decide +kernel : ∀ t : Fin grid1.N, _)

/-- Every block of the output is some grid point's. -/
theorem block_positions_onto : ∀ (r : Fin 32) (s : Fin 4), ∃ t : Fin cfg1.N, win1_2.index t = ![r.val, s.val] :=
  (by decide +kernel : ∀ (r : Fin 32) (s : Fin 4), ∃ t : Fin grid1.N, win1_2.index t = ![r.val, s.val])

/-- What grid point `t` writes back is block `t` of the layer's result on the two arrays as the region finds them. -/
theorem written_block (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Mvg.relu (Cert.Mvg.affine 2048 (V c main_arg0) (V c main_v2))) := by
  show (cfg1.win 2).cut (grid1.coords t) ((dat1 V c).after 2 t) = _
  rw [after1_2]
  unfold out1_2
  rw [View.canon_unit_zero offsets_zero]
  simp only [View.ld_unit_zero (S := S256x2048) offsets_zero, View.ld_unit_zero (S := S2049x1024) offsets_zero]
  obtain ⟨e0, e1, e2, e3, e4, e5⟩ := block_positions t
  funext j
  show k1_pay1 (F := Ideal) (iblk1 V c 0 t) (iblk1 V c 1 t) j
    = (Cert.Mvg.relu (Cert.Mvg.affine 2048 (V c main_arg0) (V c main_v2))) (((cfg1.win 2).blk t).view.emb j)
  refine block_of_layer (V c main_arg0) (V c main_v2) (iblk1 V c 0 t) (iblk1 V c 1 t)
    (win1_2.index t (0 : Fin 2)) (win1_2.index t (1 : Fin 2)) ?_ ?_ j _ ?_ ?_
  · intro p k P hP
    show V c main_arg0 (((cfg1.win 0).blk t).view.emb (ix2 p k)) = V c main_arg0 (ix2 P k)
    refine congrArg (V c main_arg0) (funext fun a => Fin.ext ?_)
    match a with
    | ⟨0, _⟩ => show win1_0.index t (0 : Fin 2) * 256 + 1 * p.val = P.val; omega
    | ⟨1, _⟩ => show win1_0.index t (1 : Fin 2) * 2048 + 1 * k.val = k.val; omega
  · intro k q Q hQ
    show V c main_v2 (((cfg1.win 1).blk t).view.emb (ix2 k q)) = V c main_v2 (ix2 k Q)
    refine congrArg (V c main_v2) (funext fun a => Fin.ext ?_)
    match a with
    | ⟨0, _⟩ => show win1_1.index t (0 : Fin 2) * 2049 + 1 * k.val = k.val; omega
    | ⟨1, _⟩ => show win1_1.index t (1 : Fin 2) * 1024 + 1 * q.val = Q.val; omega
  · show win1_2.index t (0 : Fin 2) * 256 + 1 * (j 0).val = win1_2.index t (0 : Fin 2) * 256 + (j 0).val; omega
  · show win1_2.index t (1 : Fin 2) * 1024 + 1 * (j 1).val = win1_2.index t (1 : Fin 2) * 1024 + (j 1).val; omega

/-- An entry of the output array lies in grid point `t`'s block exactly when, on each axis, its coordinate is in
    the block's range. -/
theorem mem_block (t : Fin cfg1.N) (i : S8192x4096.Idx) :
    i ∈ ((cfg1.win 2).blk t).view.set ↔ ∀ a : Fin 2, win1_2.index t a * S256x1024.size a ≤ (i a).val
      ∧ (i a).val < win1_2.index t a * S256x1024.size a + S256x1024.size a := by
  show i ∈ ((View.whole main_v3).slice (win1_2.rect t)).set ↔ _
  rw [View.set_slice_whole, Rect.mem_set_unit]
  exact Iff.rfl

/-- The output's blocks tile the array: the entry (a, b) lies in the block (a / 256, b / 1024). -/
theorem blocks_cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := block_positions_onto ⟨(i 0).val / 256, by omega⟩ ⟨(i 1).val / 1024, by omega⟩
  have q0 : win1_2.index t (0 : Fin 2) = (i 0).val / 256 := congrFun ht 0
  have q1 : win1_2.index t (1 : Fin 2) = (i 1).val / 1024 := congrFun ht 1
  refine ⟨t, flush1_2 t, ?_⟩
  rw [mem_block]
  intro a
  match a with
  | ⟨0, _⟩ =>
    show win1_2.index t (0 : Fin 2) * 256 ≤ (i 0).val ∧ (i 0).val < win1_2.index t (0 : Fin 2) * 256 + 256
    omega
  | ⟨1, _⟩ =>
    show win1_2.index t (1 : Fin 2) * 1024 ≤ (i 1).val ∧ (i 1).val < win1_2.index t (1 : Fin 2) * 1024 + 1024
    omega

end Cert.KernelIdeal.Regions.Layer1

namespace Cert.KernelIdeal.Regions

/-- After region 1 its output array holds the layer's result on the batch and the weight matrix it reads,
    whatever the buffers held when the region was entered. -/
theorem layer1 (V : (c : Dev nD) → (b : Ref sig .tc) → Buf (Elt Ideal) ((c : Thread nD τ).loc b)) (c : Dev nD) :
    (dat1 (F := Ideal) V c).arrAt 2 cfg1.N = Cert.Mvg.relu (Cert.Mvg.affine 2048 (V c main_arg0) (V c main_v2)) :=
  (dat1 (F := Ideal) V c).arrAt_eq_of_cover 2 _ (fun t _ => Layer1.written_block V c t) Layer1.blocks_cover

end Cert.KernelIdeal.Regions

end
-- ==== Proof.Layer3.lean ====
/-
  Region 3 applies one layer to the batch.

  The region walks a grid of 4 × 32 = 128 points. At a point it holds a block `x` of 256 rows of the batch (all 4096
  features), a block `w` of 1024 columns of the weight matrix (all 4097 rows) and writes a [256, 1024] block of the
  output. Its arithmetic on the two blocks is: the product of `x` with the first 4096 rows of `w`, accumulated
  into zero; plus the last row of `w`, repeated down the 256 rows; then the maximum with zero. On the extended reals a
  change of float format is the identity and the product into zero is the plain sum over the shared axis, so at
  entry (p, q) of the block this is
      max ((Σ_{k < 4096} x p k · w k q) + w 4096 q) 0                                        (`block_value`).
  The batch block's rows are the output block's rows and the weight block's columns are the output block's
  columns, so that number is the layer's result on the whole arrays at the entry the block's (p, q) stands for
  (`block_of_layer`, `written_block`). The output's blocks tile its array (`blocks_cover`), hence after the region
  the array is the layer's result everywhere (`layer3`).
-/
import proofs.«180564_j19851338842311_2_alg».proof.Proof.Gen.KernelIdeal.Frame
import proofs.«180564_j19851338842311_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Cert.KernelIdeal Cert.KernelIdeal.Gen
open scoped BigOperators

namespace Cert.KernelIdeal.Regions.Layer3

/-! ## The body's arithmetic at an entry of the block -/

/-- The first operand's index, for output entry `i` and a summation index `r`, has `i`'s row on axis 0 … -/
theorem matmul_lhs_row (i : S256x1024.Idx) (r : dot_S256x4096_S4096x1024_S256x1024_1_0_0_1_n_n.contr.Idx) :
    (dot_S256x4096_S4096x1024_S256x1024_1_0_0_1_n_n.lhsIdx i r 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
/-- … and the summation index on axis 1. -/
theorem matmul_lhs_col (i : S256x1024.Idx) (r : dot_S256x4096_S4096x1024_S256x1024_1_0_0_1_n_n.contr.Idx) :
    (dot_S256x4096_S4096x1024_S256x1024_1_0_0_1_n_n.lhsIdx i r 1).val = (r ⟨0, by decide⟩).val :=
  dot_S256x4096_S4096x1024_S256x1024_1_0_0_1_n_n.lhsIdx_val_of_single rfl i r
/-- The second operand's index has the summation index on axis 0 … -/
theorem matmul_rhs_row (i : S256x1024.Idx) (r : dot_S256x4096_S4096x1024_S256x1024_1_0_0_1_n_n.contr.Idx) :
    (dot_S256x4096_S4096x1024_S256x1024_1_0_0_1_n_n.rhsIdx i r 0).val = (r ⟨0, by decide⟩).val :=
  dot_S256x4096_S4096x1024_S256x1024_1_0_0_1_n_n.rhsIdx_val_of_single rfl i r
/-- … and `i`'s column on axis 1. -/
theorem matmul_rhs_col (i : S256x1024.Idx) (r : dot_S256x4096_S4096x1024_S256x1024_1_0_0_1_n_n.contr.Idx) :
    (dot_S256x4096_S4096x1024_S256x1024_1_0_0_1_n_n.rhsIdx i r 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product of a [256, 4096] block with a [4096, 1024] block, accumulated into zero, at entry (p, q): the sum over
    the shared axis of the products of row `p` of the first with column `q` of the second. -/
theorem matmul_entry (a : FVec Ideal S256x4096 .bf16) (b : FVec Ideal S4096x1024 .bf16) (p : Fin 256) (q : Fin 1024) :
    matmul dot_S256x4096_S4096x1024_S256x1024_1_0_0_1_n_n none a b (constant (F := Ideal) S256x1024 .f32 0x00000000#32) (ix2 p q)
      = ∑ k : Fin 4096, a (ix2 p k) * b (ix2 k q) := by
  simp only [matmul]
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 p q) ((ValueIdx.contrEquiv1 dot_S256x4096_S4096x1024_S256x1024_1_0_0_1_n_n 4096 rfl rfl).symm k) = ix2 p k :=
    funext fun ax => Fin.ext (by
      match ax with
      | ⟨0, _⟩ => exact matmul_lhs_row _ _
      | ⟨1, _⟩ => exact (matmul_lhs_col _ _).trans hk)
  have er : dot_S256x4096_S4096x1024_S256x1024_1_0_0_1_n_n.rhsIdx (ix2 p q) ((ValueIdx.contrEquiv1 dot_S256x4096_S4096x1024_S256x1024_1_0_0_1_n_n 4096 rfl rfl).symm k) = ix2 k q :=
    funext fun ax => Fin.ext (by
      match ax with
      | ⟨0, _⟩ => exact (matmul_rhs_row _ _).trans hk
      | ⟨1, _⟩ => exact matmul_rhs_col _ _)
  rw [el, er]

/-- The body's arithmetic on a batch block `x` [256, 4096] and a weight block `w` [4097, 1024], at entry (p, q) of the
    output block: row `p` of `x` against the first 4096 rows of column `q` of `w`, plus the last row of that column, the
    negative part cut off. Changing the float format does nothing on the extended reals. -/
theorem block_value (x : Vec Ideal S256x4096 .bf16) (w : Vec Ideal S4097x1024 .bf16) (p : Fin 256) (q : Fin 1024) :
    k3_pay1 (F := Ideal) x w (ix2 p q)
      = max ((∑ k : Fin 4096, x (ix2 p k) * w (ix2 k.castSucc q)) + w (ix2 (Fin.last 4096) q))
          (Ideal.ofBits .f32 0x00000000#32) := by
  unfold k3_pay1
  simp only [truncf_apply, maximumf_apply, addf_apply, broadcast_apply, shapeCast_self]
  refine congrArg₂ max (congrArg₂ (· + ·) ?_ ?_) rfl
  · refine (matmul_entry _ _ p q).trans (Finset.sum_congr rfl fun k _ => ?_)
    exact congrArg (x (ix2 p k) * ·) (slice2_axis0_apply 0 w slices_S4097x1024_o0_0_S4096x1024 k q k.castSucc (by simp))
  · refine (broadcastTo_1b_ab_apply _ broadcasts_S1x1024_S256x1024 p q).trans ?_
    exact slice2_axis0_apply 4096 w slices_S4097x1024_o4096_0_S1x1024 (0 : Fin 1) q (Fin.last 4096) (by simp)

/-- A block of the layer's result. If `x` is the block of the batch `X` whose rows start at row `r · 256`, and `w` the block
    of the weight `W` whose columns start at column `s · 1024`, then the body's arithmetic on `x` and `w` at `j` is the
    layer's result on `X` and `W` at the entry `i` that lies `j` inside the block (r, s). -/
theorem block_of_layer (X : S8192x4096.Idx → EReal) (W : S4097x4096.Idx → EReal)
    (x : Vec Ideal S256x4096 .bf16) (w : Vec Ideal S4097x1024 .bf16) (r s : Nat)
    (hx : ∀ (p : Fin 256) (k : Fin 4096) (P : Fin 8192), P.val = r * 256 + p.val → x (ix2 p k) = X (ix2 P k))
    (hw : ∀ (k : Fin 4097) (q : Fin 1024) (Q : Fin 4096), Q.val = s * 1024 + q.val → w (ix2 k q) = W (ix2 k Q))
    (j : S256x1024.Idx) (i : S8192x4096.Idx) (h0 : (i 0).val = r * 256 + (j 0).val) (h1 : (i 1).val = s * 1024 + (j 1).val) :
    k3_pay1 (F := Ideal) x w j = Cert.Mvg.relu (Cert.Mvg.affine 4096 X W) i := by
  obtain ⟨p, q, rfl⟩ : ∃ (p : Fin 256) (q : Fin 1024), j = ix2 p q := ⟨j 0, j 1, eq_ix2 j⟩
  refine (block_value x w p q).trans ?_
  refine congrArg₂ max (congrArg₂ (· + ·) (Finset.sum_congr rfl fun k _ => ?_) ?_) rfl
  · exact congrArg₂ (· * ·) (hx p k (i 0) h0) (hw k.castSucc q (i 1) h1)
  · exact hw (Fin.last 4096) q (i 1) h1

/-! ## From the blocks to the array -/

/-- Two spellings of the zero offsets. -/
theorem offsets_zero : (![0, 0] : Fin 2 → Nat) = fun _ => 0 := funext fun a => by fin_cases a <;> rfl

/-- Where the three windows' blocks sit at each grid point, decided over the grid: the batch's row block is the
    output's row block and it spans the whole feature axis; the weight spans all its rows and its column block is
    the output's column block; and the output's block indices stay in their ranges. -/
theorem block_positions : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = win3_2.index t (1 : Fin 2)
    ∧ win3_2.index t (0 : Fin 2) ≤ 31
    ∧ win3_2.index t (1 : Fin 2) ≤ 3 :=
  (by decide +kernel : ∀ t : Fin grid3.N, _)

/-- Every block of the output is some grid point's. -/
theorem block_positions_onto : ∀ (r : Fin 32) (s : Fin 4), ∃ t : Fin cfg3.N, win3_2.index t = ![r.val, s.val] :=
  (by decide +kernel : ∀ (r : Fin 32) (s : Fin 4), ∃ t : Fin grid3.N, win3_2.index t = ![r.val, s.val])

/-- What grid point `t` writes back is block `t` of the layer's result on the two arrays as the region finds them. -/
theorem written_block (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (Cert.Mvg.relu (Cert.Mvg.affine 4096 (V c main_v3) (V c main_v6))) := by
  show (cfg3.win 2).cut (grid3.coords t) ((dat3 V c).after 2 t) = _
  rw [after3_2]
  unfold out3_2
  rw [View.canon_unit_zero offsets_zero]
  simp only [View.ld_unit_zero (S := S256x4096) offsets_zero, View.ld_unit_zero (S := S4097x1024) offsets_zero]
  obtain ⟨e0, e1, e2, e3, e4, e5⟩ := block_positions t
  funext j
  show k3_pay1 (F := Ideal) (iblk3 V c 0 t) (iblk3 V c 1 t) j
    = (Cert.Mvg.relu (Cert.Mvg.affine 4096 (V c main_v3) (V c main_v6))) (((cfg3.win 2).blk t).view.emb j)
  refine block_of_layer (V c main_v3) (V c main_v6) (iblk3 V c 0 t) (iblk3 V c 1 t)
    (win3_2.index t (0 : Fin 2)) (win3_2.index t (1 : Fin 2)) ?_ ?_ j _ ?_ ?_
  · intro p k P hP
    show V c main_v3 (((cfg3.win 0).blk t).view.emb (ix2 p k)) = V c main_v3 (ix2 P k)
    refine congrArg (V c main_v3) (funext fun a => Fin.ext ?_)
    match a with
    | ⟨0, _⟩ => show win3_0.index t (0 : Fin 2) * 256 + 1 * p.val = P.val; omega
    | ⟨1, _⟩ => show win3_0.index t (1 : Fin 2) * 4096 + 1 * k.val = k.val; omega
  · intro k q Q hQ
    show V c main_v6 (((cfg3.win 1).blk t).view.emb (ix2 k q)) = V c main_v6 (ix2 k Q)
    refine congrArg (V c main_v6) (funext fun a => Fin.ext ?_)
    match a with
    | ⟨0, _⟩ => show win3_1.index t (0 : Fin 2) * 4097 + 1 * k.val = k.val; omega
    | ⟨1, _⟩ => show win3_1.index t (1 : Fin 2) * 1024 + 1 * q.val = Q.val; omega
  · show win3_2.index t (0 : Fin 2) * 256 + 1 * (j 0).val = win3_2.index t (0 : Fin 2) * 256 + (j 0).val; omega
  · show win3_2.index t (1 : Fin 2) * 1024 + 1 * (j 1).val = win3_2.index t (1 : Fin 2) * 1024 + (j 1).val; omega

/-- An entry of the output array lies in grid point `t`'s block exactly when, on each axis, its coordinate is in
    the block's range. -/
theorem mem_block (t : Fin cfg3.N) (i : S8192x4096.Idx) :
    i ∈ ((cfg3.win 2).blk t).view.set ↔ ∀ a : Fin 2, win3_2.index t a * S256x1024.size a ≤ (i a).val
      ∧ (i a).val < win3_2.index t a * S256x1024.size a + S256x1024.size a := by
  show i ∈ ((View.whole main_v7).slice (win3_2.rect t)).set ↔ _
  rw [View.set_slice_whole, Rect.mem_set_unit]
  exact Iff.rfl

/-- The output's blocks tile the array: the entry (a, b) lies in the block (a / 256, b / 1024). -/
theorem blocks_cover (i : S8192x4096.Idx) :
    ∃ t : Fin cfg3.N, (cfg3.win 2).flush t = true ∧ i ∈ ((cfg3.win 2).blk t).view.set := by
  have hi0 : (i 0).val < 8192 := (i 0).isLt
  have hi1 : (i 1).val < 4096 := (i 1).isLt
  obtain ⟨t, ht⟩ := block_positions_onto ⟨(i 0).val / 256, by omega⟩ ⟨(i 1).val / 1024, by omega⟩
  have q0 : win3_2.index t (0 : Fin 2) = (i 0).val / 256 := congrFun ht 0
  have q1 : win3_2.index t (1 : Fin 2) = (i 1).val / 1024 := congrFun ht 1
  refine ⟨t, flush3_2 t, ?_⟩
  rw [mem_block]
  intro a
  match a with
  | ⟨0, _⟩ =>
    show win3_2.index t (0 : Fin 2) * 256 ≤ (i 0).val ∧ (i 0).val < win3_2.index t (0 : Fin 2) * 256 + 256
    omega
  | ⟨1, _⟩ =>
    show win3_2.index t (1 : Fin 2) * 1024 ≤ (i 1).val ∧ (i 1).val < win3_2.index t (1 : Fin 2) * 1024 + 1024
    omega

end Cert.KernelIdeal.Regions.Layer3

namespace Cert.KernelIdeal.Regions

/-- After region 3 its output array holds the layer's result on the batch and the weight matrix it reads,
    whatever the buffers held when the region was entered. -/
theorem layer3 (V : (c : Dev nD) → (b : Ref sig .tc) → Buf (Elt Ideal) ((c : Thread nD τ).loc b)) (c : Dev nD) :
    (dat3 (F := Ideal) V c).arrAt 2 cfg3.N = Cert.Mvg.relu (Cert.Mvg.affine 4096 (V c main_v3) (V c main_v6)) :=
  (dat3 (F := Ideal) V c).arrAt_eq_of_cover 2 _ (fun t _ => Layer3.written_block V c t) Layer3.blocks_cover

end Cert.KernelIdeal.Regions

end
-- ==== Proof.Layer5.lean ====
/-
  Region 5 applies one layer to the batch.

  The region walks a grid of 4 × 32 = 128 points. At a point it holds a block `x` of 256 rows of the batch (all 4096
  features), a block `w` of 1024 columns of the weight matrix (all 4097 rows) and writes a [256, 1024] block of the
  output. Its arithmetic on the two blocks is: the product of `x` with the first 4096 rows of `w`, accumulated
  into zero; plus the last row of `w`, repeated down the 256 rows; then the maximum with zero. On the extended reals a
  change of float format is the identity and the product into zero is the plain sum over the shared axis, so at
  entry (p, q) of the block this is
      max ((Σ_{k < 4096} x p k · w k q) + w 4096 q) 0                                        (`block_value`).
  The batch block's rows are the output block's rows and the weight block's columns are the output block's
  columns, so that number is the layer's result on the whole arrays at the entry the block's (p, q) stands for
  (`block_of_layer`, `written_block`). The output's blocks tile its array (`blocks_cover`), hence after the region
  the array is the layer's result everywhere (`layer5`).
-/
import proofs.«180564_j19851338842311_2_alg».proof.Proof.Gen.KernelIdeal.Frame
import proofs.«180564_j19851338842311_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Cert.KernelIdeal Cert.KernelIdeal.Gen
open scoped BigOperators

namespace Cert.KernelIdeal.Regions.Layer5

/-! ## The body's arithmetic at an entry of the block -/

/-- The first operand's index, for output entry `i` and a summation index `r`, has `i`'s row on axis 0 … -/
theorem matmul_lhs_row (i : S256x1024.Idx) (r : dot_S256x4096_S4096x1024_S256x1024_1_0_0_1_n_n.contr.Idx) :
    (dot_S256x4096_S4096x1024_S256x1024_1_0_0_1_n_n.lhsIdx i r 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
/-- … and the summation index on axis 1. -/
theorem matmul_lhs_col (i : S256x1024.Idx) (r : dot_S256x4096_S4096x1024_S256x1024_1_0_0_1_n_n.contr.Idx) :
    (dot_S256x4096_S4096x1024_S256x1024_1_0_0_1_n_n.lhsIdx i r 1).val = (r ⟨0, by decide⟩).val :=
  dot_S256x4096_S4096x1024_S256x1024_1_0_0_1_n_n.lhsIdx_val_of_single rfl i r
/-- The second operand's index has the summation index on axis 0 … -/
theorem matmul_rhs_row (i : S256x1024.Idx) (r : dot_S256x4096_S4096x1024_S256x1024_1_0_0_1_n_n.contr.Idx) :
    (dot_S256x4096_S4096x1024_S256x1024_1_0_0_1_n_n.rhsIdx i r 0).val = (r ⟨0, by decide⟩).val :=
  dot_S256x4096_S4096x1024_S256x1024_1_0_0_1_n_n.rhsIdx_val_of_single rfl i r
/-- … and `i`'s column on axis 1. -/
theorem matmul_rhs_col (i : S256x1024.Idx) (r : dot_S256x4096_S4096x1024_S256x1024_1_0_0_1_n_n.contr.Idx) :
    (dot_S256x4096_S4096x1024_S256x1024_1_0_0_1_n_n.rhsIdx i r 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product of a [256, 4096] block with a [4096, 1024] block, accumulated into zero, at entry (p, q): the sum over
    the shared axis of the products of row `p` of the first with column `q` of the second. -/
theorem matmul_entry (a : FVec Ideal S256x4096 .bf16) (b : FVec Ideal S4096x1024 .bf16) (p : Fin 256) (q : Fin 1024) :
    matmul dot_S256x4096_S4096x1024_S256x1024_1_0_0_1_n_n none a b (constant (F := Ideal) S256x1024 .f32 0x00000000#32) (ix2 p q)
      = ∑ k : Fin 4096, a (ix2 p k) * b (ix2 k q) := by
  simp only [matmul]
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 p q) ((ValueIdx.contrEquiv1 dot_S256x4096_S4096x1024_S256x1024_1_0_0_1_n_n 4096 rfl rfl).symm k) = ix2 p k :=
    funext fun ax => Fin.ext (by
      match ax with
      | ⟨0, _⟩ => exact matmul_lhs_row _ _
      | ⟨1, _⟩ => exact (matmul_lhs_col _ _).trans hk)
  have er : dot_S256x4096_S4096x1024_S256x1024_1_0_0_1_n_n.rhsIdx (ix2 p q) ((ValueIdx.contrEquiv1 dot_S256x4096_S4096x1024_S256x1024_1_0_0_1_n_n 4096 rfl rfl).symm k) = ix2 k q :=
    funext fun ax => Fin.ext (by
      match ax with
      | ⟨0, _⟩ => exact (matmul_rhs_row _ _).trans hk
      | ⟨1, _⟩ => exact matmul_rhs_col _ _)
  rw [el, er]

/-- The body's arithmetic on a batch block `x` [256, 4096] and a weight block `w` [4097, 1024], at entry (p, q) of the
    output block: row `p` of `x` against the first 4096 rows of column `q` of `w`, plus the last row of that column, the
    negative part cut off. Changing the float format does nothing on the extended reals. -/
theorem block_value (x : Vec Ideal S256x4096 .bf16) (w : Vec Ideal S4097x1024 .bf16) (p : Fin 256) (q : Fin 1024) :
    k5_pay1 (F := Ideal) x w (ix2 p q)
      = max ((∑ k : Fin 4096, x (ix2 p k) * w (ix2 k.castSucc q)) + w (ix2 (Fin.last 4096) q))
          (Ideal.ofBits .f32 0x00000000#32) := by
  unfold k5_pay1
  simp only [truncf_apply, maximumf_apply, addf_apply, broadcast_apply, shapeCast_self]
  refine congrArg₂ max (congrArg₂ (· + ·) ?_ ?_) rfl
  · refine (matmul_entry _ _ p q).trans (Finset.sum_congr rfl fun k _ => ?_)
    exact congrArg (x (ix2 p k) * ·) (slice2_axis0_apply 0 w slices_S4097x1024_o0_0_S4096x1024 k q k.castSucc (by simp))
  · refine (broadcastTo_1b_ab_apply _ broadcasts_S1x1024_S256x1024 p q).trans ?_
    exact slice2_axis0_apply 4096 w slices_S4097x1024_o4096_0_S1x1024 (0 : Fin 1) q (Fin.last 4096) (by simp)

/-- A block of the layer's result. If `x` is the block of the batch `X` whose rows start at row `r · 256`, and `w` the block
    of the weight `W` whose columns start at column `s · 1024`, then the body's arithmetic on `x` and `w` at `j` is the
    layer's result on `X` and `W` at the entry `i` that lies `j` inside the block (r, s). -/
theorem block_of_layer (X : S8192x4096.Idx → EReal) (W : S4097x4096.Idx → EReal)
    (x : Vec Ideal S256x4096 .bf16) (w : Vec Ideal S4097x1024 .bf16) (r s : Nat)
    (hx : ∀ (p : Fin 256) (k : Fin 4096) (P : Fin 8192), P.val = r * 256 + p.val → x (ix2 p k) = X (ix2 P k))
    (hw : ∀ (k : Fin 4097) (q : Fin 1024) (Q : Fin 4096), Q.val = s * 1024 + q.val → w (ix2 k q) = W (ix2 k Q))
    (j : S256x1024.Idx) (i : S8192x4096.Idx) (h0 : (i 0).val = r * 256 + (j 0).val) (h1 : (i 1).val = s * 1024 + (j 1).val) :
    k5_pay1 (F := Ideal) x w j = Cert.Mvg.relu (Cert.Mvg.affine 4096 X W) i := by
  obtain ⟨p, q, rfl⟩ : ∃ (p : Fin 256) (q : Fin 1024), j = ix2 p q := ⟨j 0, j 1, eq_ix2 j⟩
  refine (block_value x w p q).trans ?_
  refine congrArg₂ max (congrArg₂ (· + ·) (Finset.sum_congr rfl fun k _ => ?_) ?_) rfl
  · exact congrArg₂ (· * ·) (hx p k (i 0) h0) (hw k.castSucc q (i 1) h1)
  · exact hw (Fin.last 4096) q (i 1) h1

/-! ## From the blocks to the array -/

/-- Two spellings of the zero offsets. -/
theorem offsets_zero : (![0, 0] : Fin 2 → Nat) = fun _ => 0 := funext fun a => by fin_cases a <;> rfl

/-- Where the three windows' blocks sit at each grid point, decided over the grid: the batch's row block is the
    output's row block and it spans the whole feature axis; the weight spans all its rows and its column block is
    the output's column block; and the output's block indices stay in their ranges. -/
theorem block_positions : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = win5_2.index t (1 : Fin 2)
    ∧ win5_2.index t (0 : Fin 2) ≤ 31
    ∧ win5_2.index t (1 : Fin 2) ≤ 3 :=
  (by decide +kernel : ∀ t : Fin grid5.N, _)

/-- Every block of the output is some grid point's. -/
theorem block_positions_onto : ∀ (r : Fin 32) (s : Fin 4), ∃ t : Fin cfg5.N, win5_2.index t = ![r.val, s.val] :=
  (by decide +kernel : ∀ (r : Fin 32) (s : Fin 4), ∃ t : Fin grid5.N, win5_2.index t = ![r.val, s.val])

/-- What grid point `t` writes back is block `t` of the layer's result on the two arrays as the region finds them. -/
theorem written_block (V : (c : Dev nD) → (b : Ref sig .tc) → Buf (Elt Ideal) ((c : Thread nD τ).loc b)) (c : Dev nD) (t : Fin cfg5.N) :
    (dat5 (F := Ideal) V c).flushed 2 t
      = ((cfg5.win 2).blk t).view.read (Elt Ideal) (Cert.Mvg.relu (Cert.Mvg.affine 4096 (V c main_v7) (V c main_v10))) := by
  show (cfg5.win 2).cut (grid5.coords t) ((dat5 V c).after 2 t) = _
  rw [after5_2]
  unfold out5_2
  rw [View.canon_unit_zero offsets_zero]
  simp only [View.ld_unit_zero (S := S256x4096) offsets_zero, View.ld_unit_zero (S := S4097x1024) offsets_zero]
  obtain ⟨e0, e1, e2, e3, e4, e5⟩ := block_positions t
  funext j
  show k5_pay1 (F := Ideal) (iblk5 V c 0 t) (iblk5 V c 1 t) j
    = (Cert.Mvg.relu (Cert.Mvg.affine 4096 (V c main_v7) (V c main_v10))) (((cfg5.win 2).blk t).view.emb j)
  refine block_of_layer (V c main_v7) (V c main_v10) (iblk5 V c 0 t) (iblk5 V c 1 t)
    (win5_2.index t (0 : Fin 2)) (win5_2.index t (1 : Fin 2)) ?_ ?_ j _ ?_ ?_
  · intro p k P hP
    show V c main_v7 (((cfg5.win 0).blk t).view.emb (ix2 p k)) = V c main_v7 (ix2 P k)
    refine congrArg (V c main_v7) (funext fun a => Fin.ext ?_)
    match a with
    | ⟨0, _⟩ => show win5_0.index t (0 : Fin 2) * 256 + 1 * p.val = P.val; omega
    | ⟨1, _⟩ => show win5_0.index t (1 : Fin 2) * 4096 + 1 * k.val = k.val; omega
  · intro k q Q hQ
    show V c main_v10 (((cfg5.win 1).blk t).view.emb (ix2 k q)) = V c main_v10 (ix2 k Q)
    refine congrArg (V c main_v10) (funext fun a => Fin.ext ?_)
    match a with
    | ⟨0, _⟩ => show win5_1.index t (0 : Fin 2) * 4097 + 1 * k.val = k.val; omega
    | ⟨1, _⟩ => show win5_1.index t (1 : Fin 2) * 1024 + 1 * q.val = Q.val; omega
  · show win5_2.index t (0 : Fin 2) * 256 + 1 * (j 0).val = win5_2.index t (0 : Fin 2) * 256 + (j 0).val; omega
  · show win5_2.index t (1 : Fin 2) * 1024 + 1 * (j 1).val = win5_2.index t (1 : Fin 2) * 1024 + (j 1).val; omega

/-- An entry of the output array lies in grid point `t`'s block exactly when, on each axis, its coordinate is in
    the block's range. -/
theorem mem_block (t : Fin cfg5.N) (i : S8192x4096.Idx) :
    i ∈ ((cfg5.win 2).blk t).view.set ↔ ∀ a : Fin 2, win5_2.index t a * S256x1024.size a ≤ (i a).val
      ∧ (i a).val < win5_2.index t a * S256x1024.size a + S256x1024.size a := by
  show i ∈ ((View.whole main_v11).slice (win5_2.rect t)).set ↔ _
  rw [View.set_slice_whole, Rect.mem_set_unit]
  exact Iff.rfl

/-- The output's blocks tile the array: the entry (a, b) lies in the block (a / 256, b / 1024). -/
theorem blocks_cover (i : S8192x4096.Idx) :
    ∃ t : Fin cfg5.N, (cfg5.win 2).flush t = true ∧ i ∈ ((cfg5.win 2).blk t).view.set := by
  have hi0 : (i 0).val < 8192 := (i 0).isLt
  have hi1 : (i 1).val < 4096 := (i 1).isLt
  obtain ⟨t, ht⟩ := block_positions_onto ⟨(i 0).val / 256, by omega⟩ ⟨(i 1).val / 1024, by omega⟩
  have q0 : win5_2.index t (0 : Fin 2) = (i 0).val / 256 := congrFun ht 0
  have q1 : win5_2.index t (1 : Fin 2) = (i 1).val / 1024 := congrFun ht 1
  refine ⟨t, flush5_2 t, ?_⟩
  rw [mem_block]
  intro a
  match a with
  | ⟨0, _⟩ =>
    show win5_2.index t (0 : Fin 2) * 256 ≤ (i 0).val ∧ (i 0).val < win5_2.index t (0 : Fin 2) * 256 + 256
    omega
  | ⟨1, _⟩ =>
    show win5_2.index t (1 : Fin 2) * 1024 ≤ (i 1).val ∧ (i 1).val < win5_2.index t (1 : Fin 2) * 1024 + 1024
    omega

end Cert.KernelIdeal.Regions.Layer5

namespace Cert.KernelIdeal.Regions

/-- After region 5 its output array holds the layer's result on the batch and the weight matrix it reads,
    whatever the buffers held when the region was entered. -/
theorem layer5 (V : (c : Dev nD) → (b : Ref sig .tc) → Buf (Elt Ideal) ((c : Thread nD τ).loc b)) (c : Dev nD) :
    (dat5 (F := Ideal) V c).arrAt 2 cfg5.N = Cert.Mvg.relu (Cert.Mvg.affine 4096 (V c main_v7) (V c main_v10)) :=
  (dat5 (F := Ideal) V c).arrAt_eq_of_cover 2 _ (fun t _ => Layer5.written_block V c t) Layer5.blocks_cover

end Cert.KernelIdeal.Regions

end
-- ==== Proof.Layer7.lean ====
/-
  Region 7 applies one layer to the batch.

  The region walks a grid of 2 × 32 = 64 points. At a point it holds a block `x` of 256 rows of the batch (all 4096
  features), a block `w` of 1024 columns of the weight matrix (all 4097 rows) and writes a [256, 1024] block of the
  output. Its arithmetic on the two blocks is: the product of `x` with the first 4096 rows of `w`, accumulated
  into zero; plus the last row of `w`, repeated down the 256 rows. On the extended reals a
  change of float format is the identity and the product into zero is the plain sum over the shared axis, so at
  entry (p, q) of the block this is
      (Σ_{k < 4096} x p k · w k q) + w 4096 q                                        (`block_value`).
  The batch block's rows are the output block's rows and the weight block's columns are the output block's
  columns, so that number is the layer's result on the whole arrays at the entry the block's (p, q) stands for
  (`block_of_layer`, `written_block`). The output's blocks tile its array (`blocks_cover`), hence after the region
  the array is the layer's result everywhere (`layer7`).
-/
import proofs.«180564_j19851338842311_2_alg».proof.Proof.Gen.KernelIdeal.Frame
import proofs.«180564_j19851338842311_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Cert.KernelIdeal Cert.KernelIdeal.Gen
open scoped BigOperators

namespace Cert.KernelIdeal.Regions.Layer7

/-! ## The body's arithmetic at an entry of the block -/

/-- The first operand's index, for output entry `i` and a summation index `r`, has `i`'s row on axis 0 … -/
theorem matmul_lhs_row (i : S256x1024.Idx) (r : dot_S256x4096_S4096x1024_S256x1024_1_0_0_1_n_n.contr.Idx) :
    (dot_S256x4096_S4096x1024_S256x1024_1_0_0_1_n_n.lhsIdx i r 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
/-- … and the summation index on axis 1. -/
theorem matmul_lhs_col (i : S256x1024.Idx) (r : dot_S256x4096_S4096x1024_S256x1024_1_0_0_1_n_n.contr.Idx) :
    (dot_S256x4096_S4096x1024_S256x1024_1_0_0_1_n_n.lhsIdx i r 1).val = (r ⟨0, by decide⟩).val :=
  dot_S256x4096_S4096x1024_S256x1024_1_0_0_1_n_n.lhsIdx_val_of_single rfl i r
/-- The second operand's index has the summation index on axis 0 … -/
theorem matmul_rhs_row (i : S256x1024.Idx) (r : dot_S256x4096_S4096x1024_S256x1024_1_0_0_1_n_n.contr.Idx) :
    (dot_S256x4096_S4096x1024_S256x1024_1_0_0_1_n_n.rhsIdx i r 0).val = (r ⟨0, by decide⟩).val :=
  dot_S256x4096_S4096x1024_S256x1024_1_0_0_1_n_n.rhsIdx_val_of_single rfl i r
/-- … and `i`'s column on axis 1. -/
theorem matmul_rhs_col (i : S256x1024.Idx) (r : dot_S256x4096_S4096x1024_S256x1024_1_0_0_1_n_n.contr.Idx) :
    (dot_S256x4096_S4096x1024_S256x1024_1_0_0_1_n_n.rhsIdx i r 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product of a [256, 4096] block with a [4096, 1024] block, accumulated into zero, at entry (p, q): the sum over
    the shared axis of the products of row `p` of the first with column `q` of the second. -/
theorem matmul_entry (a : FVec Ideal S256x4096 .bf16) (b : FVec Ideal S4096x1024 .bf16) (p : Fin 256) (q : Fin 1024) :
    matmul dot_S256x4096_S4096x1024_S256x1024_1_0_0_1_n_n none a b (constant (F := Ideal) S256x1024 .f32 0x00000000#32) (ix2 p q)
      = ∑ k : Fin 4096, a (ix2 p k) * b (ix2 k q) := by
  simp only [matmul]
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 p q) ((ValueIdx.contrEquiv1 dot_S256x4096_S4096x1024_S256x1024_1_0_0_1_n_n 4096 rfl rfl).symm k) = ix2 p k :=
    funext fun ax => Fin.ext (by
      match ax with
      | ⟨0, _⟩ => exact matmul_lhs_row _ _
      | ⟨1, _⟩ => exact (matmul_lhs_col _ _).trans hk)
  have er : dot_S256x4096_S4096x1024_S256x1024_1_0_0_1_n_n.rhsIdx (ix2 p q) ((ValueIdx.contrEquiv1 dot_S256x4096_S4096x1024_S256x1024_1_0_0_1_n_n 4096 rfl rfl).symm k) = ix2 k q :=
    funext fun ax => Fin.ext (by
      match ax with
      | ⟨0, _⟩ => exact (matmul_rhs_row _ _).trans hk
      | ⟨1, _⟩ => exact matmul_rhs_col _ _)
  rw [el, er]

/-- The body's arithmetic on a batch block `x` [256, 4096] and a weight block `w` [4097, 1024], at entry (p, q) of the
    output block: row `p` of `x` against the first 4096 rows of column `q` of `w`, plus the last row of that column.
    Changing the float format does nothing on the extended reals. -/
theorem block_value (x : Vec Ideal S256x4096 .bf16) (w : Vec Ideal S4097x1024 .bf16) (p : Fin 256) (q : Fin 1024) :
    k7_pay1 (F := Ideal) x w (ix2 p q)
      = (∑ k : Fin 4096, x (ix2 p k) * w (ix2 k.castSucc q)) + w (ix2 (Fin.last 4096) q) := by
  unfold k7_pay1
  simp only [addf_apply, shapeCast_self]
  refine congrArg₂ (· + ·) ?_ ?_
  · refine (matmul_entry _ _ p q).trans (Finset.sum_congr rfl fun k _ => ?_)
    exact congrArg (x (ix2 p k) * ·) (slice2_axis0_apply 0 w slices_S4097x1024_o0_0_S4096x1024 k q k.castSucc (by simp))
  · refine (broadcastTo_1b_ab_apply _ broadcasts_S1x1024_S256x1024 p q).trans ?_
    exact slice2_axis0_apply 4096 w slices_S4097x1024_o4096_0_S1x1024 (0 : Fin 1) q (Fin.last 4096) (by simp)

/-- A block of the layer's result. If `x` is the block of the batch `X` whose rows start at row `r · 256`, and `w` the block
    of the weight `W` whose columns start at column `s · 1024`, then the body's arithmetic on `x` and `w` at `j` is the
    layer's result on `X` and `W` at the entry `i` that lies `j` inside the block (r, s). -/
theorem block_of_layer (X : S8192x4096.Idx → EReal) (W : S4097x2048.Idx → EReal)
    (x : Vec Ideal S256x4096 .bf16) (w : Vec Ideal S4097x1024 .bf16) (r s : Nat)
    (hx : ∀ (p : Fin 256) (k : Fin 4096) (P : Fin 8192), P.val = r * 256 + p.val → x (ix2 p k) = X (ix2 P k))
    (hw : ∀ (k : Fin 4097) (q : Fin 1024) (Q : Fin 2048), Q.val = s * 1024 + q.val → w (ix2 k q) = W (ix2 k Q))
    (j : S256x1024.Idx) (i : S8192x2048.Idx) (h0 : (i 0).val = r * 256 + (j 0).val) (h1 : (i 1).val = s * 1024 + (j 1).val) :
    k7_pay1 (F := Ideal) x w j = Cert.Mvg.affine 4096 X W i := by
  obtain ⟨p, q, rfl⟩ : ∃ (p : Fin 256) (q : Fin 1024), j = ix2 p q := ⟨j 0, j 1, eq_ix2 j⟩
  refine (block_value x w p q).trans ?_
  refine congrArg₂ (· + ·) (Finset.sum_congr rfl fun k _ => ?_) ?_
  · exact congrArg₂ (· * ·) (hx p k (i 0) h0) (hw k.castSucc q (i 1) h1)
  · exact hw (Fin.last 4096) q (i 1) h1

/-! ## From the blocks to the array -/

/-- Two spellings of the zero offsets. -/
theorem offsets_zero : (![0, 0] : Fin 2 → Nat) = fun _ => 0 := funext fun a => by fin_cases a <;> rfl

/-- Where the three windows' blocks sit at each grid point, decided over the grid: the batch's row block is the
    output's row block and it spans the whole feature axis; the weight spans all its rows and its column block is
    the output's column block; and the output's block indices stay in their ranges. -/
theorem block_positions : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = win7_2.index t (1 : Fin 2)
    ∧ win7_2.index t (0 : Fin 2) ≤ 31
    ∧ win7_2.index t (1 : Fin 2) ≤ 1 :=
  (by decide +kernel : ∀ t : Fin grid7.N, _)

/-- Every block of the output is some grid point's. -/
theorem block_positions_onto : ∀ (r : Fin 32) (s : Fin 2), ∃ t : Fin cfg7.N, win7_2.index t = ![r.val, s.val] :=
  (by decide +kernel : ∀ (r : Fin 32) (s : Fin 2), ∃ t : Fin grid7.N, win7_2.index t = ![r.val, s.val])

/-- What grid point `t` writes back is block `t` of the layer's result on the two arrays as the region finds them. -/
theorem written_block (V : (c : Dev nD) → (b : Ref sig .tc) → Buf (Elt Ideal) ((c : Thread nD τ).loc b)) (c : Dev nD) (t : Fin cfg7.N) :
    (dat7 (F := Ideal) V c).flushed 2 t
      = ((cfg7.win 2).blk t).view.read (Elt Ideal) (Cert.Mvg.affine 4096 (V c main_v11) (V c main_v14)) := by
  show (cfg7.win 2).cut (grid7.coords t) ((dat7 V c).after 2 t) = _
  rw [after7_2]
  unfold out7_2
  rw [View.canon_unit_zero offsets_zero]
  simp only [View.ld_unit_zero (S := S256x4096) offsets_zero, View.ld_unit_zero (S := S4097x1024) offsets_zero]
  obtain ⟨e0, e1, e2, e3, e4, e5⟩ := block_positions t
  funext j
  show k7_pay1 (F := Ideal) (iblk7 V c 0 t) (iblk7 V c 1 t) j
    = (Cert.Mvg.affine 4096 (V c main_v11) (V c main_v14)) (((cfg7.win 2).blk t).view.emb j)
  refine block_of_layer (V c main_v11) (V c main_v14) (iblk7 V c 0 t) (iblk7 V c 1 t)
    (win7_2.index t (0 : Fin 2)) (win7_2.index t (1 : Fin 2)) ?_ ?_ j _ ?_ ?_
  · intro p k P hP
    show V c main_v11 (((cfg7.win 0).blk t).view.emb (ix2 p k)) = V c main_v11 (ix2 P k)
    refine congrArg (V c main_v11) (funext fun a => Fin.ext ?_)
    match a with
    | ⟨0, _⟩ => show win7_0.index t (0 : Fin 2) * 256 + 1 * p.val = P.val; omega
    | ⟨1, _⟩ => show win7_0.index t (1 : Fin 2) * 4096 + 1 * k.val = k.val; omega
  · intro k q Q hQ
    show V c main_v14 (((cfg7.win 1).blk t).view.emb (ix2 k q)) = V c main_v14 (ix2 k Q)
    refine congrArg (V c main_v14) (funext fun a => Fin.ext ?_)
    match a with
    | ⟨0, _⟩ => show win7_1.index t (0 : Fin 2) * 4097 + 1 * k.val = k.val; omega
    | ⟨1, _⟩ => show win7_1.index t (1 : Fin 2) * 1024 + 1 * q.val = Q.val; omega
  · show win7_2.index t (0 : Fin 2) * 256 + 1 * (j 0).val = win7_2.index t (0 : Fin 2) * 256 + (j 0).val; omega
  · show win7_2.index t (1 : Fin 2) * 1024 + 1 * (j 1).val = win7_2.index t (1 : Fin 2) * 1024 + (j 1).val; omega

/-- An entry of the output array lies in grid point `t`'s block exactly when, on each axis, its coordinate is in
    the block's range. -/
theorem mem_block (t : Fin cfg7.N) (i : S8192x2048.Idx) :
    i ∈ ((cfg7.win 2).blk t).view.set ↔ ∀ a : Fin 2, win7_2.index t a * S256x1024.size a ≤ (i a).val
      ∧ (i a).val < win7_2.index t a * S256x1024.size a + S256x1024.size a := by
  show i ∈ ((View.whole main_v15).slice (win7_2.rect t)).set ↔ _
  rw [View.set_slice_whole, Rect.mem_set_unit]
  exact Iff.rfl

/-- The output's blocks tile the array: the entry (a, b) lies in the block (a / 256, b / 1024). -/
theorem blocks_cover (i : S8192x2048.Idx) :
    ∃ t : Fin cfg7.N, (cfg7.win 2).flush t = true ∧ i ∈ ((cfg7.win 2).blk t).view.set := by
  have hi0 : (i 0).val < 8192 := (i 0).isLt
  have hi1 : (i 1).val < 2048 := (i 1).isLt
  obtain ⟨t, ht⟩ := block_positions_onto ⟨(i 0).val / 256, by omega⟩ ⟨(i 1).val / 1024, by omega⟩
  have q0 : win7_2.index t (0 : Fin 2) = (i 0).val / 256 := congrFun ht 0
  have q1 : win7_2.index t (1 : Fin 2) = (i 1).val / 1024 := congrFun ht 1
  refine ⟨t, flush7_2 t, ?_⟩
  rw [mem_block]
  intro a
  match a with
  | ⟨0, _⟩ =>
    show win7_2.index t (0 : Fin 2) * 256 ≤ (i 0).val ∧ (i 0).val < win7_2.index t (0 : Fin 2) * 256 + 256
    omega
  | ⟨1, _⟩ =>
    show win7_2.index t (1 : Fin 2) * 1024 ≤ (i 1).val ∧ (i 1).val < win7_2.index t (1 : Fin 2) * 1024 + 1024
    omega

end Cert.KernelIdeal.Regions.Layer7

namespace Cert.KernelIdeal.Regions

/-- After region 7 its output array holds the layer's result on the batch and the weight matrix it reads,
    whatever the buffers held when the region was entered. -/
theorem layer7 (V : (c : Dev nD) → (b : Ref sig .tc) → Buf (Elt Ideal) ((c : Thread nD τ).loc b)) (c : Dev nD) :
    (dat7 (F := Ideal) V c).arrAt 2 cfg7.N = Cert.Mvg.affine 4096 (V c main_v11) (V c main_v14) :=
  (dat7 (F := Ideal) V c).arrAt_eq_of_cover 2 _ (fun t _ => Layer7.written_block V c t) Layer7.blocks_cover

end Cert.KernelIdeal.Regions

end
-- ==== Proof.Thread.lean ====
/-
  The contents of the kernel's result buffer, as a function of the arguments.

  The generated frame follows every buffer from the launch memory through the program's twelve segments as a
  fold `W0` … `W12`: `Wj` is the contents of every buffer after the `j`-th segment, at the boundary between that
  segment and the next. Here that fold is read at the buffers the eight regions take in and give out. Three kinds of
  step occur. A buffer that a segment does not write holds after it what it held before: an argument, all the way
  from the launch; a layer's output, across the next layer's host stretch and weight-forming region. A host
  stretch reshapes a layer's two vectors, so the column `[K, 1]` it writes holds `u` and the row `[1, N]` holds `v`,
  entry by entry. And a region's output array after the region is what the region's own lemma says: the weight
  matrix of the four arrays it reads, or the layer applied to the batch and the weight matrix it reads. Composing
  these from the first layer to the last gives the four-layer network of the arguments.
-/
import proofs.«180564_j19851338842311_2_alg».proof.Proof.Gen.KernelIdeal.Frame
import proofs.«180564_j19851338842311_2_alg».proof.Proof.Spec
import proofs.«180564_j19851338842311_2_alg».proof.Proof.LibColumnForms
import proofs.«180564_j19851338842311_2_alg».proof.Proof.Weights0
import proofs.«180564_j19851338842311_2_alg».proof.Proof.Weights2
import proofs.«180564_j19851338842311_2_alg».proof.Proof.Weights4
import proofs.«180564_j19851338842311_2_alg».proof.Proof.Weights6
import proofs.«180564_j19851338842311_2_alg».proof.Proof.Layer1
import proofs.«180564_j19851338842311_2_alg».proof.Proof.Layer3
import proofs.«180564_j19851338842311_2_alg».proof.Proof.Layer5
import proofs.«180564_j19851338842311_2_alg».proof.Proof.Layer7
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Thread

open Idealize.ShloMosaic Idealize.ShloMosaic.TcCoe Idealize.ShloMosaic.ValueIdx Idealize.ShloMosaic.ValueLayout Idealize.SL.Sem
open Cert.KernelIdeal Cert.KernelIdeal.Gen Cert.KernelIdeal.Regions Cert.Mvg

variable (m : (ℓ : Loc nD τ sig) → Buf (Elt Ideal) ℓ) (ρ : Dev nD → PrngReg) (c : Dev nD)

/-! ## Walking a buffer back through the fold -/

/-- One step back across a region none of whose arrays is the buffer. -/
local macro "reg_back " l:ident : tactic =>
  `(tactic| (refine ($l m ρ c _ ?_).trans ?_; · decide))

/-- One step back across a host stretch none of whose operations writes the buffer. -/
local macro "host_back " ops:ident : tactic =>
  `(tactic| (refine (Idealize.ShloMosaic.StableHlo.after_of_forall_not_mem _ _ (List.forall_iff_forall_mem.mp ?_)).trans ?_
             · simp only [$ops:ident, List.flatten_cons, List.flatten_nil, List.append_nil, List.cons_append, List.nil_append, List.Forall,
                 Idealize.ShloMosaic.StableHlo.nullary_writes, Idealize.ShloMosaic.StableHlo.unary_writes,
                 Idealize.ShloMosaic.StableHlo.binary_writes, Idealize.ShloMosaic.StableHlo.ternary_writes,
                 Idealize.ShloMosaic.StableHlo.quaternary_writes, Idealize.ShloMosaic.StableHlo.reshape_writes,
                 Idealize.ShloMosaic.StableHlo.binaryIndexed_writes, Finset.mem_singleton]
               repeat' apply And.intro
               all_goals exact Idealize.ShloMosaic.StableHlo.devRef_ne_of_ne (by decide)))

/-- All the way back to the launch memory, for a buffer that no segment on the way writes: whichever step
    applies at each boundary, until the launch contents are reached. -/
local macro "walk_back" : tactic =>
  `(tactic| (
    repeat
      first
        | reg_back W12_of_ne
        | reg_back W11_of_ne
        | host_back hostOps6
        | reg_back W9_of_ne
        | reg_back W8_of_ne
        | host_back hostOps4
        | reg_back W6_of_ne
        | reg_back W5_of_ne
        | host_back hostOps2
        | reg_back W3_of_ne
        | reg_back W2_of_ne
        | host_back hostOps0
    rfl))

/-! ## The arguments, at the boundaries where a region or a host stretch reads them -/

theorem arg1_at1 : W1 m ρ c (Proc.devRef .tc main_arg1) = m ((c : Thread nD τ).loc main_arg1) := by walk_back
theorem arg4_at1 : W1 m ρ c (Proc.devRef .tc main_arg4) = m ((c : Thread nD τ).loc main_arg4) := by walk_back
theorem arg0_at2 : W2 m ρ c (Proc.devRef .tc main_arg0) = m ((c : Thread nD τ).loc main_arg0) := by walk_back
theorem arg6_at3 : W3 m ρ c (Proc.devRef .tc main_arg6) = m ((c : Thread nD τ).loc main_arg6) := by walk_back
theorem arg7_at3 : W3 m ρ c (Proc.devRef .tc main_arg7) = m ((c : Thread nD τ).loc main_arg7) := by walk_back
theorem arg5_at4 : W4 m ρ c (Proc.devRef .tc main_arg5) = m ((c : Thread nD τ).loc main_arg5) := by walk_back
theorem arg8_at4 : W4 m ρ c (Proc.devRef .tc main_arg8) = m ((c : Thread nD τ).loc main_arg8) := by walk_back
theorem arg10_at6 : W6 m ρ c (Proc.devRef .tc main_arg10) = m ((c : Thread nD τ).loc main_arg10) := by walk_back
theorem arg11_at6 : W6 m ρ c (Proc.devRef .tc main_arg11) = m ((c : Thread nD τ).loc main_arg11) := by walk_back
theorem arg9_at7 : W7 m ρ c (Proc.devRef .tc main_arg9) = m ((c : Thread nD τ).loc main_arg9) := by walk_back
theorem arg12_at7 : W7 m ρ c (Proc.devRef .tc main_arg12) = m ((c : Thread nD τ).loc main_arg12) := by walk_back
theorem arg14_at9 : W9 m ρ c (Proc.devRef .tc main_arg14) = m ((c : Thread nD τ).loc main_arg14) := by walk_back
theorem arg15_at9 : W9 m ρ c (Proc.devRef .tc main_arg15) = m ((c : Thread nD τ).loc main_arg15) := by walk_back
theorem arg13_at10 : W10 m ρ c (Proc.devRef .tc main_arg13) = m ((c : Thread nD τ).loc main_arg13) := by walk_back
theorem arg16_at10 : W10 m ρ c (Proc.devRef .tc main_arg16) = m ((c : Thread nD τ).loc main_arg16) := by walk_back

/-! ## Each layer's two vectors, as its host stretch lays them out

A stretch casts the row-indexed vector `[K]` to a column `[K, 1]` and the column-indexed vector `[N]` to a row
`[1, N]`; a cast keeps the row-major position, so entry `(k, 0)` of the column is entry `k` of the vector and entry
`(0, n)` of the row is entry `n`. -/

open Idealize.ShloMosaic.StableHlo in
theorem col0 (k : Fin 2049) :
    (W1 m ρ c (Proc.devRef .tc main_v0) : S2049x1.Idx → EReal) (ix2 k 0) = m ((c : Thread nD τ).loc main_arg2) (ix1 k) := by
  have e : (W1 m ρ c (Proc.devRef .tc main_v0) : S2049x1.Idx → EReal)
      = shapeCast S2049x1 (m ((c : Thread nD τ).loc main_arg2)) shapeCasts_S2049_S2049x1 := by
    show StableHlo.after hostOps0 (W0 m ρ c) (Proc.devRef .tc main_v0) = _
    after_results; rfl
  rw [e]; exact shapeCast_a_a1_apply _ _ k 0

open Idealize.ShloMosaic.StableHlo in
theorem row0 (n : Fin 4096) :
    (W1 m ρ c (Proc.devRef .tc main_v1) : S1x4096.Idx → EReal) (ix2 0 n) = m ((c : Thread nD τ).loc main_arg3) (ix1 n) := by
  have e : (W1 m ρ c (Proc.devRef .tc main_v1) : S1x4096.Idx → EReal)
      = shapeCast S1x4096 (m ((c : Thread nD τ).loc main_arg3)) shapeCasts_S4096_S1x4096 := by
    show StableHlo.after hostOps0 (W0 m ρ c) (Proc.devRef .tc main_v1) = _
    after_results; rfl
  rw [e]; exact shapeCast_a_1a_apply _ _ 0 n

open Idealize.ShloMosaic.StableHlo in
theorem col1 (k : Fin 4097) :
    (W4 m ρ c (Proc.devRef .tc main_v4) : S4097x1.Idx → EReal) (ix2 k 0) = m ((c : Thread nD τ).loc main_arg6) (ix1 k) := by
  have e : (W4 m ρ c (Proc.devRef .tc main_v4) : S4097x1.Idx → EReal)
      = shapeCast S4097x1 (W3 m ρ c (Proc.devRef .tc main_arg6)) shapeCasts_S4097_S4097x1 := by
    show StableHlo.after hostOps2 (W3 m ρ c) (Proc.devRef .tc main_v4) = _
    after_results; rfl
  rw [e, arg6_at3 m ρ c]; exact shapeCast_a_a1_apply _ _ k 0

open Idealize.ShloMosaic.StableHlo in
theorem row1 (n : Fin 4096) :
    (W4 m ρ c (Proc.devRef .tc main_v5) : S1x4096.Idx → EReal) (ix2 0 n) = m ((c : Thread nD τ).loc main_arg7) (ix1 n) := by
  have e : (W4 m ρ c (Proc.devRef .tc main_v5) : S1x4096.Idx → EReal)
      = shapeCast S1x4096 (W3 m ρ c (Proc.devRef .tc main_arg7)) shapeCasts_S4096_S1x4096 := by
    show StableHlo.after hostOps2 (W3 m ρ c) (Proc.devRef .tc main_v5) = _
    after_results; rfl
  rw [e, arg7_at3 m ρ c]; exact shapeCast_a_1a_apply _ _ 0 n

open Idealize.ShloMosaic.StableHlo in
theorem col2 (k : Fin 4097) :
    (W7 m ρ c (Proc.devRef .tc main_v8) : S4097x1.Idx → EReal) (ix2 k 0) = m ((c : Thread nD τ).loc main_arg10) (ix1 k) := by
  have e : (W7 m ρ c (Proc.devRef .tc main_v8) : S4097x1.Idx → EReal)
      = shapeCast S4097x1 (W6 m ρ c (Proc.devRef .tc main_arg10)) shapeCasts_S4097_S4097x1 := by
    show StableHlo.after hostOps4 (W6 m ρ c) (Proc.devRef .tc main_v8) = _
    after_results; rfl
  rw [e, arg10_at6 m ρ c]; exact shapeCast_a_a1_apply _ _ k 0

open Idealize.ShloMosaic.StableHlo in
theorem row2 (n : Fin 4096) :
    (W7 m ρ c (Proc.devRef .tc main_v9) : S1x4096.Idx → EReal) (ix2 0 n) = m ((c : Thread nD τ).loc main_arg11) (ix1 n) := by
  have e : (W7 m ρ c (Proc.devRef .tc main_v9) : S1x4096.Idx → EReal)
      = shapeCast S1x4096 (W6 m ρ c (Proc.devRef .tc main_arg11)) shapeCasts_S4096_S1x4096 := by
    show StableHlo.after hostOps4 (W6 m ρ c) (Proc.devRef .tc main_v9) = _
    after_results; rfl
  rw [e, arg11_at6 m ρ c]; exact shapeCast_a_1a_apply _ _ 0 n

open Idealize.ShloMosaic.StableHlo in
theorem col3 (k : Fin 4097) :
    (W10 m ρ c (Proc.devRef .tc main_v12) : S4097x1.Idx → EReal) (ix2 k 0) = m ((c : Thread nD τ).loc main_arg14) (ix1 k) := by
  have e : (W10 m ρ c (Proc.devRef .tc main_v12) : S4097x1.Idx → EReal)
      = shapeCast S4097x1 (W9 m ρ c (Proc.devRef .tc main_arg14)) shapeCasts_S4097_S4097x1 := by
    show StableHlo.after hostOps6 (W9 m ρ c) (Proc.devRef .tc main_v12) = _
    after_results; rfl
  rw [e, arg14_at9 m ρ c]; exact shapeCast_a_a1_apply _ _ k 0

open Idealize.ShloMosaic.StableHlo in
theorem row3 (n : Fin 2048) :
    (W10 m ρ c (Proc.devRef .tc main_v13) : S1x2048.Idx → EReal) (ix2 0 n) = m ((c : Thread nD τ).loc main_arg15) (ix1 n) := by
  have e : (W10 m ρ c (Proc.devRef .tc main_v13) : S1x2048.Idx → EReal)
      = shapeCast S1x2048 (W9 m ρ c (Proc.devRef .tc main_arg15)) shapeCasts_S2048_S1x2048 := by
    show StableHlo.after hostOps6 (W9 m ρ c) (Proc.devRef .tc main_v13) = _
    after_results; rfl
  rw [e, arg15_at9 m ρ c]; exact shapeCast_a_1a_apply _ _ 0 n

/-! ## The network's intermediate arrays, as functions of the launch memory -/

/-- The weight matrix a region forms, with each of its four inputs replaced by an equal array, the column and
    the row by the vectors they hold. -/
theorem weightCR_of {K N : Nat} {M M' eps eps' : (⟨2, ![K, N]⟩ : Shape).Idx → EReal}
    {ucol : (⟨2, ![K, 1]⟩ : Shape).Idx → EReal} {vrow : (⟨2, ![1, N]⟩ : Shape).Idx → EReal}
    {u : (⟨1, ![K]⟩ : Shape).Idx → EReal} {v : (⟨1, ![N]⟩ : Shape).Idx → EReal}
    (hM : M = M') (he : eps = eps') (hu : ∀ k : Fin K, ucol (ix2 k 0) = u (ix1 k)) (hv : ∀ n : Fin N, vrow (ix2 0 n) = v (ix1 n)) :
    weightCR M eps ucol vrow = weight M' eps' u v := by
  subst hM he
  exact weightCR_eq _ _ _ _ _ _ hu hv

/-- The first layer's weights. -/
abbrev weights0V : (⟨2, ![2049, 4096]⟩ : Shape).Idx → EReal :=
  weight (m ((c : Thread nD τ).loc main_arg1)) (m ((c : Thread nD τ).loc main_arg4)) (m ((c : Thread nD τ).loc main_arg2)) (m ((c : Thread nD τ).loc main_arg3))
/-- The first layer's output, cut off at zero. -/
abbrev hidden0V : (⟨2, ![8192, 4096]⟩ : Shape).Idx → EReal :=
  relu (affine 2048 (m ((c : Thread nD τ).loc main_arg0)) (weights0V m c))
/-- The second layer's weights. -/
abbrev weights1V : (⟨2, ![4097, 4096]⟩ : Shape).Idx → EReal :=
  weight (m ((c : Thread nD τ).loc main_arg5)) (m ((c : Thread nD τ).loc main_arg8)) (m ((c : Thread nD τ).loc main_arg6)) (m ((c : Thread nD τ).loc main_arg7))
/-- The second layer's output, cut off at zero. -/
abbrev hidden1V : (⟨2, ![8192, 4096]⟩ : Shape).Idx → EReal :=
  relu (affine 4096 (hidden0V m c) (weights1V m c))
/-- The third layer's weights. -/
abbrev weights2V : (⟨2, ![4097, 4096]⟩ : Shape).Idx → EReal :=
  weight (m ((c : Thread nD τ).loc main_arg9)) (m ((c : Thread nD τ).loc main_arg12)) (m ((c : Thread nD τ).loc main_arg10)) (m ((c : Thread nD τ).loc main_arg11))
/-- The third layer's output, cut off at zero. -/
abbrev hidden2V : (⟨2, ![8192, 4096]⟩ : Shape).Idx → EReal :=
  relu (affine 4096 (hidden1V m c) (weights2V m c))
/-- The last layer's weights. -/
abbrev weights3V : (⟨2, ![4097, 2048]⟩ : Shape).Idx → EReal :=
  weight (m ((c : Thread nD τ).loc main_arg13)) (m ((c : Thread nD τ).loc main_arg16)) (m ((c : Thread nD τ).loc main_arg14)) (m ((c : Thread nD τ).loc main_arg15))

/-! ## Layer by layer through the fold -/

/-- After the first region its output holds the first layer's weights. -/
theorem weights0_at2 : W2 m ρ c (Proc.devRef .tc main_v2) = weights0V m c :=
  (W2_arr m ρ c 4).trans ((weights0 (V1 m ρ) c).trans
    (weightCR_of (arg1_at1 m ρ c) (arg4_at1 m ρ c) (col0 m ρ c) (row0 m ρ c)))

/-- After the second region its output holds the first layer's output. -/
theorem hidden0_at3 : W3 m ρ c (Proc.devRef .tc main_v3) = hidden0V m c := by
  refine (W3_arr m ρ c 2).trans ((layer1 (V2 m ρ) c).trans ?_)
  rw [show V2 m ρ c main_arg0 = m ((c : Thread nD τ).loc main_arg0) from arg0_at2 m ρ c,
    show V2 m ρ c main_v2 = weights0V m c from weights0_at2 m ρ c]

/-- It is still there when the fourth region reads it: the second host stretch and the third region write
    other buffers. -/
theorem hidden0_at5 : W5 m ρ c (Proc.devRef .tc main_v3) = hidden0V m c := by
  reg_back W5_of_ne; host_back hostOps2; exact hidden0_at3 m ρ c

/-- After the third region its output holds the second layer's weights. -/
theorem weights1_at5 : W5 m ρ c (Proc.devRef .tc main_v6) = weights1V m c :=
  (W5_arr m ρ c 4).trans ((weights2 (V4 m ρ) c).trans
    (weightCR_of (arg5_at4 m ρ c) (arg8_at4 m ρ c) (col1 m ρ c) (row1 m ρ c)))

/-- After the fourth region its output holds the second layer's output. -/
theorem hidden1_at6 : W6 m ρ c (Proc.devRef .tc main_v7) = hidden1V m c := by
  refine (W6_arr m ρ c 2).trans ((layer3 (V5 m ρ) c).trans ?_)
  rw [show V5 m ρ c main_v3 = hidden0V m c from hidden0_at5 m ρ c,
    show V5 m ρ c main_v6 = weights1V m c from weights1_at5 m ρ c]

theorem hidden1_at8 : W8 m ρ c (Proc.devRef .tc main_v7) = hidden1V m c := by
  reg_back W8_of_ne; host_back hostOps4; exact hidden1_at6 m ρ c

/-- After the fifth region its output holds the third layer's weights. -/
theorem weights2_at8 : W8 m ρ c (Proc.devRef .tc main_v10) = weights2V m c :=
  (W8_arr m ρ c 4).trans ((weights4 (V7 m ρ) c).trans
    (weightCR_of (arg9_at7 m ρ c) (arg12_at7 m ρ c) (col2 m ρ c) (row2 m ρ c)))

/-- After the sixth region its output holds the third layer's output. -/
theorem hidden2_at9 : W9 m ρ c (Proc.devRef .tc main_v11) = hidden2V m c := by
  refine (W9_arr m ρ c 2).trans ((layer5 (V8 m ρ) c).trans ?_)
  rw [show V8 m ρ c main_v7 = hidden1V m c from hidden1_at8 m ρ c,
    show V8 m ρ c main_v10 = weights2V m c from weights2_at8 m ρ c]

theorem hidden2_at11 : W11 m ρ c (Proc.devRef .tc main_v11) = hidden2V m c := by
  reg_back W11_of_ne; host_back hostOps6; exact hidden2_at9 m ρ c

/-- After the seventh region its output holds the last layer's weights. -/
theorem weights3_at11 : W11 m ρ c (Proc.devRef .tc main_v14) = weights3V m c :=
  (W11_arr m ρ c 4).trans ((weights6 (V10 m ρ) c).trans
    (weightCR_of (arg13_at10 m ρ c) (arg16_at10 m ρ c) (col3 m ρ c) (row3 m ρ c)))

/-- After the last region the result buffer holds the four-layer network of the arguments. -/
theorem result_at12 : W12 m ρ c (Proc.devRef .tc main_v15)
    = net (m ((c : Thread nD τ).loc main_arg0))
        (m ((c : Thread nD τ).loc main_arg1)) (m ((c : Thread nD τ).loc main_arg4)) (m ((c : Thread nD τ).loc main_arg2)) (m ((c : Thread nD τ).loc main_arg3))
        (m ((c : Thread nD τ).loc main_arg5)) (m ((c : Thread nD τ).loc main_arg8)) (m ((c : Thread nD τ).loc main_arg6)) (m ((c : Thread nD τ).loc main_arg7))
        (m ((c : Thread nD τ).loc main_arg9)) (m ((c : Thread nD τ).loc main_arg12)) (m ((c : Thread nD τ).loc main_arg10)) (m ((c : Thread nD τ).loc main_arg11))
        (m ((c : Thread nD τ).loc main_arg13)) (m ((c : Thread nD τ).loc main_arg16)) (m ((c : Thread nD τ).loc main_arg14)) (m ((c : Thread nD τ).loc main_arg15)) := by
  refine (W12_arr m ρ c 2).trans ((layer7 (V11 m ρ) c).trans ?_)
  rw [show V11 m ρ c main_v11 = hidden2V m c from hidden2_at11 m ρ c,
    show V11 m ρ c main_v14 = weights3V m c from weights3_at11 m ρ c]
  rfl

end Cert.KernelIdeal.Thread

end
-- ==== Proof.Reference.lean ====
/-
  The reference program computes the four-layer network `Cert.Mvg.net` of its seventeen arguments.

  The reference forms each layer's weight matrix entry by entry,
      W k n = M k n + (exp (u k / 2) · eps k n) · exp (v n / 2),
  the two vectors first spread over the matrix (`u` along the rows, `v` along the columns). It then appends a
  column of ones to the layer's input and multiplies by the whole of `W`:
      out b n = Σ_{k ≤ K'} [x | 1] b k · W k n.
  Left of the appended column `[x | 1]` is `x`, and the appended column is the number one, so the last term of the
  sum is `W K' n` alone (`Cert.Mvg.sum_ones_column`) and the layer is `Cert.Mvg.affine` of `x` and `W`. After each of
  the first three layers the maximum with zero is taken (`Cert.Mvg.relu`).

  Every stage is read with its operand arrays kept as whole arrays: a stage is never opened further than the
  one operation it stands for, and the four layers are then chained by rewriting.
-/
import proofs.«180564_j19851338842311_2_alg».proof.Proof.Gen.ReferenceIdeal.Read
import proofs.«180564_j19851338842311_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Read

/-! ## A matrix with one more column -/

/-- Joining a one-column matrix `o` to the right of `x`: an entry whose column is one of `x`'s columns is `x`'s. -/
theorem append_column_left {B K K1 : Nat} (x : (⟨2, ![B, K]⟩ : Shape).Idx → EReal) (o : (⟨2, ![B, 1]⟩ : Shape).Idx → EReal)
    (h : Shape.Concatenates [(⟨2, ![B, K]⟩ : Shape), ⟨2, ![B, 1]⟩] ⟨2, ![B, K1]⟩ 1)
    (b : Fin B) (k : Fin K) (k' : Fin K1) (hk : k'.val = k.val) :
    concatenate (⟨2, ![B, K1]⟩ : Shape) 1 [⟨(⟨2, ![B, K]⟩ : Shape), x⟩, ⟨(⟨2, ![B, 1]⟩ : Shape), o⟩] h (ix2 b k') = x (ix2 b k) :=
  concatenate_pair_apply_left 1 x o h (ix2 b k') rfl (ix2 b k) (fun a => match a with
    | ⟨0, _⟩ => rfl
    | ⟨1, _⟩ => hk.symm)

/-- Joining a one-column matrix `o` to the right of `x`: an entry in the column just past `x`'s last is `o`'s. -/
theorem append_column_right {B K K1 : Nat} (x : (⟨2, ![B, K]⟩ : Shape).Idx → EReal) (o : (⟨2, ![B, 1]⟩ : Shape).Idx → EReal)
    (h : Shape.Concatenates [(⟨2, ![B, K]⟩ : Shape), ⟨2, ![B, 1]⟩] ⟨2, ![B, K1]⟩ 1)
    (b : Fin B) (k' : Fin K1) (hk : k'.val = K) :
    concatenate (⟨2, ![B, K1]⟩ : Shape) 1 [⟨(⟨2, ![B, K]⟩ : Shape), x⟩, ⟨(⟨2, ![B, 1]⟩ : Shape), o⟩] h (ix2 b k') = o (ix2 b 0) :=
  concatenate_pair_apply_right 1 x o h (ix2 b k') rfl rfl (ix2 b 0) (fun a ha => match a, ha with
    | ⟨0, _⟩, _ => rfl
    | ⟨1, _⟩, ha => (ha (Fin.ext rfl)).elim) (by show (0 : Nat) + K = k'.val; omega)

/-- A row of a matrix `xc` that is `x` with a column of ones appended, against a column of `W`: the sum over all
    `K + 1` positions is the layer of `x` and `W` at that entry. -/
theorem sum_with_ones_column {B K N : Nat} (x : (⟨2, ![B, K]⟩ : Shape).Idx → EReal)
    (xc : (⟨2, ![B, K + 1]⟩ : Shape).Idx → EReal) (W : (⟨2, ![K + 1, N]⟩ : Shape).Idx → EReal)
    (hl : ∀ (b : Fin B) (k : Fin K), xc (ix2 b k.castSucc) = x (ix2 b k))
    (hr : ∀ b : Fin B, xc (ix2 b (Fin.last K)) = 1) (b : Fin B) (n : Fin N) :
    ∑ k : Fin (K + 1), xc (ix2 b k) * W (ix2 k n) = Cert.Mvg.affine K x W (ix2 b n) :=
  Cert.Mvg.sum_ones_column (fun k => xc (ix2 b k)) (fun k => W (ix2 k n)) (fun k => x (ix2 b k)) (hl b) (hr b)

/-! ## The reference's stages, layer by layer -/

section Stages

variable (x0 : (⟨S8192x2048, .f32⟩ : BufTy).Contents (Elt Ideal))
  (x1 : (⟨S2049x4096, .f32⟩ : BufTy).Contents (Elt Ideal))
  (x2 : (⟨S2049, .f32⟩ : BufTy).Contents (Elt Ideal))
  (x3 : (⟨S4096, .f32⟩ : BufTy).Contents (Elt Ideal))
  (x4 : (⟨S2049x4096, .f32⟩ : BufTy).Contents (Elt Ideal))
  (x5 : (⟨S4097x4096, .f32⟩ : BufTy).Contents (Elt Ideal))
  (x6 : (⟨S4097, .f32⟩ : BufTy).Contents (Elt Ideal))
  (x7 : (⟨S4096, .f32⟩ : BufTy).Contents (Elt Ideal))
  (x8 : (⟨S4097x4096, .f32⟩ : BufTy).Contents (Elt Ideal))
  (x9 : (⟨S4097x4096, .f32⟩ : BufTy).Contents (Elt Ideal))
  (x10 : (⟨S4097, .f32⟩ : BufTy).Contents (Elt Ideal))
  (x11 : (⟨S4096, .f32⟩ : BufTy).Contents (Elt Ideal))
  (x12 : (⟨S4097x4096, .f32⟩ : BufTy).Contents (Elt Ideal))
  (x13 : (⟨S4097x2048, .f32⟩ : BufTy).Contents (Elt Ideal))
  (x14 : (⟨S4097, .f32⟩ : BufTy).Contents (Elt Ideal))
  (x15 : (⟨S2048, .f32⟩ : BufTy).Contents (Elt Ideal))
  (x16 : (⟨S4097x2048, .f32⟩ : BufTy).Contents (Elt Ideal))

/-! ### The first layer -/

/-- The first layer's weight matrix, as the reference forms it from its mean `x1`, its row vector `x2`, its column
    vector `x3` and its noise `x4`: at an entry the row vector is read at the row and the column vector at the column. -/
theorem weight0 : val_main_v14 (F := Ideal) x1 x2 x3 x4 = Cert.Mvg.weight x1 x4 x2 x3 := by
  funext i
  have eu : idx_main_v5 (idx_main_v6 i) = ix1 (i 0) := funext fun a => by match a with | ⟨0, _⟩ => rfl
  have ev : idx_main_v11 (idx_main_v12 i) = ix1 (i 1) := funext fun a => by match a with | ⟨0, _⟩ => rfl
  rw [val_main_v14_apply, val_main_v13_apply, val_main_v7_apply, val_main_v6_apply, val_main_v5_apply,
    val_main_v4_apply, val_main_v3_apply, val_main_v2_apply, val_main_cst_0_apply, val_main_v12_apply,
    val_main_v11_apply, val_main_v10_apply, val_main_v9_apply, val_main_v8_apply, val_main_cst_1_apply, eu, ev]
  rfl

/-- Left of the appended column the first layer's input is unchanged. -/
theorem ones0_left (b : Fin 8192) (k : Fin 2048) : val_main_v1 (F := Ideal) x0 (ix2 b k.castSucc) = x0 (ix2 b k) := by
  unfold val_main_v1
  exact append_column_left x0 (val_main_v0 (F := Ideal)) _ b k k.castSucc rfl

/-- The appended column holds the number one. -/
theorem ones0_right (b : Fin 8192) : val_main_v1 (F := Ideal) x0 (ix2 b (Fin.last 2048)) = (1 : EReal) := by
  unfold val_main_v1
  refine (append_column_right x0 (val_main_v0 (F := Ideal)) _ b (Fin.last 2048) rfl).trans ?_
  rw [val_main_v0_apply, val_main_cst_apply]
  exact Cert.Mvg.ofBits_one_f32

/-- The first layer's product of `[input | 1]` with the whole weight matrix is the layer of the input. -/
theorem layer0 : val_main_v15 (F := Ideal) x0 x1 x2 x3 x4 = Cert.Mvg.affine 2048 x0 (val_main_v14 (F := Ideal) x1 x2 x3 x4) := by
  funext i
  obtain ⟨b, n, rfl⟩ : ∃ (b : Fin 8192) (n : Fin 4096), i = ix2 b n := ⟨i 0, i 1, eq_ix2 i⟩
  rw [val_main_v15_apply]
  generalize val_main_v14 (F := Ideal) x1 x2 x3 x4 = W
  have el : ∀ k : Fin 2049, lidx_main_v15 (ix2 b n) k = ix2 b k := fun k => funext fun a => by
    match a with | ⟨0, _⟩ => rfl | ⟨1, _⟩ => rfl
  have er : ∀ k : Fin 2049, ridx_main_v15 (ix2 b n) k = ix2 k n := fun k => funext fun a => by
    match a with | ⟨0, _⟩ => rfl | ⟨1, _⟩ => rfl
  simp only [el, er]
  exact sum_with_ones_column (K := 2048) x0 (val_main_v1 (F := Ideal) x0) W (ones0_left x0) (ones0_right x0) b n

/-- After the first layer the negative part is cut off. -/
theorem cut0 : val_main_v16 (F := Ideal) x0 x1 x2 x3 x4 = Cert.Mvg.relu (val_main_v15 (F := Ideal) x0 x1 x2 x3 x4) := by
  funext i
  rw [val_main_v16_apply, val_main_call0_v0_apply, val_main_call0_cst_apply]
  generalize val_main_v15 (F := Ideal) x0 x1 x2 x3 x4 = Y
  rfl

/-! ### The second layer -/

/-- The second layer's weight matrix, as the reference forms it from its mean `x5`, its row vector `x6`, its column
    vector `x7` and its noise `x8`: at an entry the row vector is read at the row and the column vector at the column. -/
theorem weight1 : val_main_v31 (F := Ideal) x5 x6 x7 x8 = Cert.Mvg.weight x5 x8 x6 x7 := by
  funext i
  have eu : idx_main_v22 (idx_main_v23 i) = ix1 (i 0) := funext fun a => by match a with | ⟨0, _⟩ => rfl
  have ev : idx_main_v28 (idx_main_v29 i) = ix1 (i 1) := funext fun a => by match a with | ⟨0, _⟩ => rfl
  rw [val_main_v31_apply, val_main_v30_apply, val_main_v24_apply, val_main_v23_apply, val_main_v22_apply,
    val_main_v21_apply, val_main_v20_apply, val_main_v19_apply, val_main_cst_3_apply, val_main_v29_apply,
    val_main_v28_apply, val_main_v27_apply, val_main_v26_apply, val_main_v25_apply, val_main_cst_4_apply, eu, ev]
  rfl

/-- Left of the appended column the second layer's input is unchanged. -/
theorem ones1_left (b : Fin 8192) (k : Fin 4096) : val_main_v18 (F := Ideal) x0 x1 x2 x3 x4 (ix2 b k.castSucc) = val_main_v16 (F := Ideal) x0 x1 x2 x3 x4 (ix2 b k) := by
  unfold val_main_v18
  exact append_column_left (val_main_v16 (F := Ideal) x0 x1 x2 x3 x4) (val_main_v17 (F := Ideal)) _ b k k.castSucc rfl

/-- The appended column holds the number one. -/
theorem ones1_right (b : Fin 8192) : val_main_v18 (F := Ideal) x0 x1 x2 x3 x4 (ix2 b (Fin.last 4096)) = (1 : EReal) := by
  unfold val_main_v18
  refine (append_column_right (val_main_v16 (F := Ideal) x0 x1 x2 x3 x4) (val_main_v17 (F := Ideal)) _ b (Fin.last 4096) rfl).trans ?_
  rw [val_main_v17_apply, val_main_cst_2_apply]
  exact Cert.Mvg.ofBits_one_f32

/-- The second layer's product of `[input | 1]` with the whole weight matrix is the layer of the input. -/
theorem layer1 : val_main_v32 (F := Ideal) x0 x1 x2 x3 x4 x5 x6 x7 x8 = Cert.Mvg.affine 4096 (val_main_v16 (F := Ideal) x0 x1 x2 x3 x4) (val_main_v31 (F := Ideal) x5 x6 x7 x8) := by
  funext i
  obtain ⟨b, n, rfl⟩ : ∃ (b : Fin 8192) (n : Fin 4096), i = ix2 b n := ⟨i 0, i 1, eq_ix2 i⟩
  rw [val_main_v32_apply]
  generalize val_main_v31 (F := Ideal) x5 x6 x7 x8 = W
  have el : ∀ k : Fin 4097, lidx_main_v32 (ix2 b n) k = ix2 b k := fun k => funext fun a => by
    match a with | ⟨0, _⟩ => rfl | ⟨1, _⟩ => rfl
  have er : ∀ k : Fin 4097, ridx_main_v32 (ix2 b n) k = ix2 k n := fun k => funext fun a => by
    match a with | ⟨0, _⟩ => rfl | ⟨1, _⟩ => rfl
  simp only [el, er]
  exact sum_with_ones_column (K := 4096) (val_main_v16 (F := Ideal) x0 x1 x2 x3 x4) (val_main_v18 (F := Ideal) x0 x1 x2 x3 x4) W (ones1_left x0 x1 x2 x3 x4) (ones1_right x0 x1 x2 x3 x4) b n

/-- After the second layer the negative part is cut off. -/
theorem cut1 : val_main_v33 (F := Ideal) x0 x1 x2 x3 x4 x5 x6 x7 x8 = Cert.Mvg.relu (val_main_v32 (F := Ideal) x0 x1 x2 x3 x4 x5 x6 x7 x8) := by
  funext i
  rw [val_main_v33_apply, val_main_call1_v0_apply, val_main_call1_cst_apply]
  generalize val_main_v32 (F := Ideal) x0 x1 x2 x3 x4 x5 x6 x7 x8 = Y
  rfl

/-! ### The third layer -/

/-- The third layer's weight matrix, as the reference forms it from its mean `x9`, its row vector `x10`, its column
    vector `x11` and its noise `x12`: at an entry the row vector is read at the row and the column vector at the column. -/
theorem weight2 : val_main_v48 (F := Ideal) x9 x10 x11 x12 = Cert.Mvg.weight x9 x12 x10 x11 := by
  funext i
  have eu : idx_main_v39 (idx_main_v40 i) = ix1 (i 0) := funext fun a => by match a with | ⟨0, _⟩ => rfl
  have ev : idx_main_v45 (idx_main_v46 i) = ix1 (i 1) := funext fun a => by match a with | ⟨0, _⟩ => rfl
  rw [val_main_v48_apply, val_main_v47_apply, val_main_v41_apply, val_main_v40_apply, val_main_v39_apply,
    val_main_v38_apply, val_main_v37_apply, val_main_v36_apply, val_main_cst_6_apply, val_main_v46_apply,
    val_main_v45_apply, val_main_v44_apply, val_main_v43_apply, val_main_v42_apply, val_main_cst_7_apply, eu, ev]
  rfl

/-- Left of the appended column the third layer's input is unchanged. -/
theorem ones2_left (b : Fin 8192) (k : Fin 4096) : val_main_v35 (F := Ideal) x0 x1 x2 x3 x4 x5 x6 x7 x8 (ix2 b k.castSucc) = val_main_v33 (F := Ideal) x0 x1 x2 x3 x4 x5 x6 x7 x8 (ix2 b k) := by
  unfold val_main_v35
  exact append_column_left (val_main_v33 (F := Ideal) x0 x1 x2 x3 x4 x5 x6 x7 x8) (val_main_v34 (F := Ideal)) _ b k k.castSucc rfl

/-- The appended column holds the number one. -/
theorem ones2_right (b : Fin 8192) : val_main_v35 (F := Ideal) x0 x1 x2 x3 x4 x5 x6 x7 x8 (ix2 b (Fin.last 4096)) = (1 : EReal) := by
  unfold val_main_v35
  refine (append_column_right (val_main_v33 (F := Ideal) x0 x1 x2 x3 x4 x5 x6 x7 x8) (val_main_v34 (F := Ideal)) _ b (Fin.last 4096) rfl).trans ?_
  rw [val_main_v34_apply, val_main_cst_5_apply]
  exact Cert.Mvg.ofBits_one_f32

/-- The third layer's product of `[input | 1]` with the whole weight matrix is the layer of the input. -/
theorem layer2 : val_main_v49 (F := Ideal) x0 x1 x2 x3 x4 x5 x6 x7 x8 x9 x10 x11 x12 = Cert.Mvg.affine 4096 (val_main_v33 (F := Ideal) x0 x1 x2 x3 x4 x5 x6 x7 x8) (val_main_v48 (F := Ideal) x9 x10 x11 x12) := by
  funext i
  obtain ⟨b, n, rfl⟩ : ∃ (b : Fin 8192) (n : Fin 4096), i = ix2 b n := ⟨i 0, i 1, eq_ix2 i⟩
  rw [val_main_v49_apply]
  generalize val_main_v48 (F := Ideal) x9 x10 x11 x12 = W
  have el : ∀ k : Fin 4097, lidx_main_v49 (ix2 b n) k = ix2 b k := fun k => funext fun a => by
    match a with | ⟨0, _⟩ => rfl | ⟨1, _⟩ => rfl
  have er : ∀ k : Fin 4097, ridx_main_v49 (ix2 b n) k = ix2 k n := fun k => funext fun a => by
    match a with | ⟨0, _⟩ => rfl | ⟨1, _⟩ => rfl
  simp only [el, er]
  exact sum_with_ones_column (K := 4096) (val_main_v33 (F := Ideal) x0 x1 x2 x3 x4 x5 x6 x7 x8) (val_main_v35 (F := Ideal) x0 x1 x2 x3 x4 x5 x6 x7 x8) W (ones2_left x0 x1 x2 x3 x4 x5 x6 x7 x8) (ones2_right x0 x1 x2 x3 x4 x5 x6 x7 x8) b n

/-- After the third layer the negative part is cut off. -/
theorem cut2 : val_main_v50 (F := Ideal) x0 x1 x2 x3 x4 x5 x6 x7 x8 x9 x10 x11 x12 = Cert.Mvg.relu (val_main_v49 (F := Ideal) x0 x1 x2 x3 x4 x5 x6 x7 x8 x9 x10 x11 x12) := by
  funext i
  rw [val_main_v50_apply, val_main_call2_v0_apply, val_main_call2_cst_apply]
  generalize val_main_v49 (F := Ideal) x0 x1 x2 x3 x4 x5 x6 x7 x8 x9 x10 x11 x12 = Y
  rfl

/-! ### The last layer -/

/-- The last layer's weight matrix, as the reference forms it from its mean `x13`, its row vector `x14`, its column
    vector `x15` and its noise `x16`: at an entry the row vector is read at the row and the column vector at the column. -/
theorem weight3 : val_main_v65 (F := Ideal) x13 x14 x15 x16 = Cert.Mvg.weight x13 x16 x14 x15 := by
  funext i
  have eu : idx_main_v56 (idx_main_v57 i) = ix1 (i 0) := funext fun a => by match a with | ⟨0, _⟩ => rfl
  have ev : idx_main_v62 (idx_main_v63 i) = ix1 (i 1) := funext fun a => by match a with | ⟨0, _⟩ => rfl
  rw [val_main_v65_apply, val_main_v64_apply, val_main_v58_apply, val_main_v57_apply, val_main_v56_apply,
    val_main_v55_apply, val_main_v54_apply, val_main_v53_apply, val_main_cst_9_apply, val_main_v63_apply,
    val_main_v62_apply, val_main_v61_apply, val_main_v60_apply, val_main_v59_apply, val_main_cst_10_apply, eu, ev]
  rfl

/-- Left of the appended column the last layer's input is unchanged. -/
theorem ones3_left (b : Fin 8192) (k : Fin 4096) : val_main_v52 (F := Ideal) x0 x1 x2 x3 x4 x5 x6 x7 x8 x9 x10 x11 x12 (ix2 b k.castSucc) = val_main_v50 (F := Ideal) x0 x1 x2 x3 x4 x5 x6 x7 x8 x9 x10 x11 x12 (ix2 b k) := by
  unfold val_main_v52
  exact append_column_left (val_main_v50 (F := Ideal) x0 x1 x2 x3 x4 x5 x6 x7 x8 x9 x10 x11 x12) (val_main_v51 (F := Ideal)) _ b k k.castSucc rfl

/-- The appended column holds the number one. -/
theorem ones3_right (b : Fin 8192) : val_main_v52 (F := Ideal) x0 x1 x2 x3 x4 x5 x6 x7 x8 x9 x10 x11 x12 (ix2 b (Fin.last 4096)) = (1 : EReal) := by
  unfold val_main_v52
  refine (append_column_right (val_main_v50 (F := Ideal) x0 x1 x2 x3 x4 x5 x6 x7 x8 x9 x10 x11 x12) (val_main_v51 (F := Ideal)) _ b (Fin.last 4096) rfl).trans ?_
  rw [val_main_v51_apply, val_main_cst_8_apply]
  exact Cert.Mvg.ofBits_one_f32

/-- The last layer's product of `[input | 1]` with the whole weight matrix is the layer of the input. -/
theorem layer3 : val_main_v66 (F := Ideal) x0 x1 x2 x3 x4 x5 x6 x7 x8 x9 x10 x11 x12 x13 x14 x15 x16 = Cert.Mvg.affine 4096 (val_main_v50 (F := Ideal) x0 x1 x2 x3 x4 x5 x6 x7 x8 x9 x10 x11 x12) (val_main_v65 (F := Ideal) x13 x14 x15 x16) := by
  funext i
  obtain ⟨b, n, rfl⟩ : ∃ (b : Fin 8192) (n : Fin 2048), i = ix2 b n := ⟨i 0, i 1, eq_ix2 i⟩
  rw [val_main_v66_apply]
  generalize val_main_v65 (F := Ideal) x13 x14 x15 x16 = W
  have el : ∀ k : Fin 4097, lidx_main_v66 (ix2 b n) k = ix2 b k := fun k => funext fun a => by
    match a with | ⟨0, _⟩ => rfl | ⟨1, _⟩ => rfl
  have er : ∀ k : Fin 4097, ridx_main_v66 (ix2 b n) k = ix2 k n := fun k => funext fun a => by
    match a with | ⟨0, _⟩ => rfl | ⟨1, _⟩ => rfl
  simp only [el, er]
  exact sum_with_ones_column (K := 4096) (val_main_v50 (F := Ideal) x0 x1 x2 x3 x4 x5 x6 x7 x8 x9 x10 x11 x12) (val_main_v52 (F := Ideal) x0 x1 x2 x3 x4 x5 x6 x7 x8 x9 x10 x11 x12) W (ones3_left x0 x1 x2 x3 x4 x5 x6 x7 x8 x9 x10 x11 x12) (ones3_right x0 x1 x2 x3 x4 x5 x6 x7 x8 x9 x10 x11 x12) b n

end Stages

/-- The value the reference's last operation writes, as a function of the seventeen arguments, is the four-layer
    network of them: the batch `x0`, then per layer the mean, the row vector, the column vector and the noise. -/
theorem result_is_net
    (x0 : (⟨S8192x2048, .f32⟩ : BufTy).Contents (Elt Ideal))
    (x1 : (⟨S2049x4096, .f32⟩ : BufTy).Contents (Elt Ideal))
    (x2 : (⟨S2049, .f32⟩ : BufTy).Contents (Elt Ideal))
    (x3 : (⟨S4096, .f32⟩ : BufTy).Contents (Elt Ideal))
    (x4 : (⟨S2049x4096, .f32⟩ : BufTy).Contents (Elt Ideal))
    (x5 : (⟨S4097x4096, .f32⟩ : BufTy).Contents (Elt Ideal))
    (x6 : (⟨S4097, .f32⟩ : BufTy).Contents (Elt Ideal))
    (x7 : (⟨S4096, .f32⟩ : BufTy).Contents (Elt Ideal))
    (x8 : (⟨S4097x4096, .f32⟩ : BufTy).Contents (Elt Ideal))
    (x9 : (⟨S4097x4096, .f32⟩ : BufTy).Contents (Elt Ideal))
    (x10 : (⟨S4097, .f32⟩ : BufTy).Contents (Elt Ideal))
    (x11 : (⟨S4096, .f32⟩ : BufTy).Contents (Elt Ideal))
    (x12 : (⟨S4097x4096, .f32⟩ : BufTy).Contents (Elt Ideal))
    (x13 : (⟨S4097x2048, .f32⟩ : BufTy).Contents (Elt Ideal))
    (x14 : (⟨S4097, .f32⟩ : BufTy).Contents (Elt Ideal))
    (x15 : (⟨S2048, .f32⟩ : BufTy).Contents (Elt Ideal))
    (x16 : (⟨S4097x2048, .f32⟩ : BufTy).Contents (Elt Ideal)) :
    val_main_v66 (F := Ideal) x0 x1 x2 x3 x4 x5 x6 x7 x8 x9 x10 x11 x12 x13 x14 x15 x16
      = Cert.Mvg.net x0 x1 x4 x2 x3 x5 x8 x6 x7 x9 x12 x10 x11 x13 x16 x14 x15 := by
  rw [layer3, cut2, layer2, cut1, layer1, cut0, layer0, weight3, weight2, weight1, weight0]
  rfl

end Cert.ReferenceIdeal.RefValue

end
-- ==== Proof.lean ====
/- The proof of `Cert.Claim` (proofs.«180564_j19851338842311_2_alg».proof.Defs).

   The kernel computes four stacked linear layers with reparameterised weights, the negative part cut off between
   them, in eight regions: for each layer one region forms the weight matrix `M + (exp (u/2) · eps) · exp (v/2)` and
   the next multiplies the batch by all of its rows but the last and adds the last row. The reference appends a
   column of ones to the batch and multiplies by the whole weight matrix. On the extended reals the two are one
   function: a sum against a vector whose last entry is one has the other factor alone as its last term
   (Proof/Spec.lean, `sum_ones_column`); nothing is asked to be finite, so the precondition is never opened.

   Proof/Spec.lean states the network; Proof/Weights0 … Weights6 and Proof/Layer1 … Layer7 say what each region leaves
   in its output array, whatever it was entered with (Proof/LibColumnForms.lean has the two layout facts about
   columns that they and the threading use). The program runs as twelve segments, four short stretches of host
   operations and the eight regions, and the generated frame records the contents of every buffer after each of
   them, `Gen.W0` at launch to `Gen.W12` at the end. Proof/KernelRun.lean is the program's run with the result buffer
   read out of `Gen.W12`; Proof/Thread.lean reads those contents back, layer by layer, to the network of the
   arguments; Proof/Reference.lean shows the reference's last stage to be the same network. The
   three frames are the generated ones (the reference's is its generated run with the result dropped), and the
   idealization changed no operation, so there is nothing to preserve. -/
import proofs.«180564_j19851338842311_2_alg».proof.Defs
import proofs.«180564_j19851338842311_2_alg».proof.Proof.Gen.Kernel
import proofs.«180564_j19851338842311_2_alg».proof.Proof.Gen.Kernel.Frame
import proofs.«180564_j19851338842311_2_alg».proof.Proof.Gen.KernelIdeal
import proofs.«180564_j19851338842311_2_alg».proof.Proof.Gen.KernelIdeal.Frame
import proofs.«180564_j19851338842311_2_alg».proof.Proof.Gen.ReferenceIdeal
import proofs.«180564_j19851338842311_2_alg».proof.Proof.Gen.ReferenceIdeal.Run
import proofs.«180564_j19851338842311_2_alg».proof.Proof.Gen.ReferenceIdeal.Read
import proofs.«180564_j19851338842311_2_alg».proof.Proof.Gen.Pre_finite_inputs
import proofs.«180564_j19851338842311_2_alg».proof.Proof.Spec
import proofs.«180564_j19851338842311_2_alg».proof.Proof.KernelRun
import proofs.«180564_j19851338842311_2_alg».proof.Proof.Thread
import proofs.«180564_j19851338842311_2_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the four-layer network of their arguments in the result array: the kernel by its run
    and the recorded contents after its last segment read back layer by layer, the reference by its run and its
    last stage read as the network; and the two programs' arguments agree. -/
theorem algebraic : Cert.algebraic_KernelIdeal_ReferenceIdeal := by
  intro m ρ m' ρ' _ hagree
  refine ⟨fun c => Cert.Mvg.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Thread.result_at12 m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v66_eq, Cert.ReferenceIdeal.RefValue.result_is_net,
      h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
